-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S8192x8192 : Shape := ⟨2, ![8192, 8192]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x768 .f32) (main_arg1 : FVec F S8192x8192 .f32) (main_arg2 : FVec F S8192x8192 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S8192x768 : Shape := ⟨2, ![8192, 768]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S512x768 : Shape := ⟨2, ![512, 768]⟩
abbrev S512x512 : Shape := ⟨2, ![512, 512]⟩
abbrev S512x1 : Shape := ⟨2, ![512, 1]⟩
abbrev S768x512 : Shape := ⟨2, ![768, 512]⟩
abbrev S512 : Shape := ⟨1, ![512]⟩

abbrev nBuf : Space → Nat
  | .hbm => 31
  | .vmem => 25
  | .smem => 0
  | _ => 0

abbrev bufTy : (tb : Table) → Fin (tcTables nBuf tb) → BufTy
  | .hbm, ⟨0, _⟩ => ⟨S8192x768, .f32⟩
  | .hbm, ⟨1, _⟩ => ⟨S8192x8192, .f32⟩
  | .hbm, ⟨2, _⟩ => ⟨S8192x8192, .f32⟩
  | .hbm, ⟨3, _⟩ => ⟨S8192x768, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x768, .f32⟩
  | .hbm, ⟨12, _⟩ => ⟨S8192x768, .f32⟩
  | .hbm, ⟨13, _⟩ => ⟨S8192x768, .bf16⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .i1⟩
  | .hbm, ⟨19, _⟩ => ⟨S_, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x768, .bf16⟩
  | .local _ .vmem, ⟨15, _⟩ => ⟨S512x768, .bf16⟩
  | .local _ .vmem, ⟨16, _⟩ => ⟨S512x768, .bf16⟩
  | .local _ .vmem, ⟨17, _⟩ => ⟨S512x768, .bf16⟩
  | .local _ .vmem, ⟨18, _⟩ => ⟨S512x512, .f32⟩
  | .local _ .vmem, ⟨19, _⟩ => ⟨S512x512, .f32⟩
  | .local _ .vmem, ⟨20, _⟩ => ⟨S512x1, .f32⟩
  | .local _ .vmem, ⟨21, _⟩ => ⟨S512x1, .f32⟩
  | .local _ .vmem, ⟨22, _⟩ => ⟨S512x1, .f32⟩
  | .local _ .vmem, ⟨23, _⟩ => ⟨S512x1, .f32⟩
  | .local _ .vmem, ⟨24, _⟩ => ⟨S512x1, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_call1_v0 : Ref sig .tc := ⟨.hbm, 20, rfl⟩
abbrev main_call1_v1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v43 : BitVec 1 := Scalar.cmpi .eq arg1 c15_i32
  let v44 : BitVec 32 := Scalar.extui v43
  let c0_i32_22 : BitVec 32 := 0#32
  let v45 : BitVec 1 := Scalar.cmpi .ne v44 c0_i32_22
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v43 : BitVec 1 := Scalar.cmpi .eq arg1 c15_i32
  let v44 : BitVec 32 := Scalar.extui v43
  let c0_i32_19 : BitVec 32 := 0#32
  let v45 : BitVec 1 := Scalar.cmpi .ne v44 c0_i32_19
  v45

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x768_0_1 : S8192x1.BroadcastsInDim S8192x768 (![0, 1] : Fin 2 → Fin S8192x768.rank)
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x768_S512x768_0_0 : ∀ a, (![0, 0] : Fin 2 → Nat) a + S512x768.size a ≤ S512x768.size a
  h_S512x768 : 0 < S512x768.numel
  shapeCasts_S512x768_S512x768 : S512x768.ShapeCasts S512x768
  transposes_S512x768_p1_0_S768x512 : S512x768.Transposes [1, 0] S768x512
  iota_S512x512_d0_w32 : S512x512.Iotas .tc 32 [0]
  iota_S512x512_d1_w32 : S512x512.Iotas .tc 32 [1]
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  shapeCasts_S8192x1_S8192 : S8192x1.ShapeCasts S8192
  reducesTo_S8192_S_d0 : S8192.ReducesTo [0] S_
  dot_S512x768_S768x512_S512x512_1_0_0_1_n_n_wf : DotDims.WF S512x768 S768x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S8192x768.size a
  hwx0_0 : ∀ i : grid0.Coords, EltTy.bits .bf16 = 32 ∨ (Rect.block (s := S8192x768) S512x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S8192x768.size a
  hwx0_1 : ∀ i : grid0.Coords, EltTy.bits .bf16 = 32 ∨ (Rect.block (s := S8192x768) S512x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x8192.size a
  hwx0_2 : ∀ i : grid0.Coords, EltTy.bits .f32 = 32 ∨ (Rect.block (s := S8192x8192) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x8192.size a
  hwx0_3 : ∀ i : grid0.Coords, EltTy.bits .f32 = 32 ∨ (Rect.block (s := S8192x8192) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x768.size a ≤ S8192x768.size a
  hwx1_0 : ∀ i : grid1.Coords, EltTy.bits .bf16 = 32 ∨ (Rect.block (s := S8192x768) S512x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x768.size a ≤ S8192x768.size a
  hwx1_1 : ∀ i : grid1.Coords, EltTy.bits .bf16 = 32 ∨ (Rect.block (s := S8192x768) S512x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S8192x8192.size a
  hwx1_2 : ∀ i : grid1.Coords, EltTy.bits .f32 = 32 ∨ (Rect.block (s := S8192x8192) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S8192x1.size a
  hwx1_3 : ∀ i : grid1.Coords, EltTy.bits .f32 = 32 ∨ (Rect.block (s := S8192x1) S512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .f32 = 32 ∨ (Rect.block (s := S8192x1) S512x1.size (cc1_transform_4 i) (hinb1_4 i)).WholeWords (EltTy.packing .f32)

variable [Facts₀]

def dot_S512x768_S768x512_S512x512_1_0_0_1_n_n : DotDims S512x768 S768x512 S512x512 where
  lhsContracting := [1]
  rhsContracting := [0]
  lhsNonContracting := [0]
  rhsNonContracting := [1]
  lhsBatch := []
  rhsBatch := []
  wf := dot_S512x768_S768x512_S512x512_1_0_0_1_n_n_wf

abbrev win0_0 : Pipeline.Window sig grid0 :=
  Pipeline.Window.ofSpec (Memref.whole main_v5) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v5) S512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6_0) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S512x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x768 : Shape := ⟨2, ![8192, 768]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S768x8192 : Shape := ⟨2, ![768, 8192]⟩

abbrev nBuf : Space → Nat
  | .hbm => 59
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x8192, .f32⟩
  | .hbm, ⟨2, _⟩ => ⟨S8192x8192, .f32⟩
  | .hbm, ⟨3, _⟩ => ⟨S8192x768, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x768, .f32⟩
  | .hbm, ⟨12, _⟩ => ⟨S8192x768, .f32⟩
  | .hbm, ⟨13, _⟩ => ⟨S768x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .i1⟩
  | .hbm, ⟨36, _⟩ => ⟨S_, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩

abbrev nD : Nat := 1
abbrev τ : Topo := Topo.v7x

variable {F : FTy → Type} [FloatOps F]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x768_0_1 : S8192x1.BroadcastsInDim S8192x768 (![0, 1] : Fin 2 → Fin S8192x768.rank)
  transposes_S8192x768_S768x8192_1_0 : S8192x768.Transposes [1, 0] S768x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  reducesTo_S8192_S_d0 : S8192.ReducesTo [0] S_
  dot_S8192x768_S768x8192_S8192x8192_1_0_0_1_n_n_wf : DotDims.WF S8192x768 S768x8192 S8192x8192 [1] [0] [0] [1] [] []

variable [Facts₀]

def dot_S8192x768_S768x8192_S8192x8192_1_0_0_1_n_n : DotDims S8192x768 S768x8192 S8192x8192 where
  lhsContracting := [1]
  rhsContracting := [0]
  lhsNonContracting := [0]
  rhsNonContracting := [1]
  lhsBatch := []
  rhsBatch := []
  wf := dot_S8192x768_S768x8192_S8192x8192_1_0_0_1_n_n_wf

class Facts : Prop extends Facts₀ where

variable [Facts]
-- ==== Proof.Spec.lean ====
/-
  The value both programs compute, as one function of the argument arrays, at the extended reals
  (every operation exact, every float literal the extended real its word denotes).

  For features `x : [8192, 768]` and two masks `pm nm : [8192, 8192]`:
  each row of `x` is divided by its Euclidean norm (clamped below by a small constant), the rows' pairwise
  inner products are divided by a temperature and exponentiated, the diagonal is removed from both masks,
  and the result is the mean over rows of the masked mean of `-log (sim / neg + eps)`, where `neg` is the
  row's `nm`-masked sum of similarities and a row with no positive entry is divided by one.
  Every sum carries the zero it starts from in front, as the programs' reductions do.
-/
import Idealize.ShloMosaic.PureOps.Ideal
import Idealize.ShloMosaic.Lib.ValueIdx

noncomputable section

open scoped BigOperators

namespace Cert.Spec

open Idealize.ShloMosaic

/-- The row norm `sqrt (∑ k, x i k ^ 2)`, clamped below by the constant `1e-8`. -/
def den (x : Fin 8192 → Fin 768 → EReal) (i : Fin 8192) : EReal :=
  max (Ideal.sqrt (0 + ∑ k : Fin 768, x i k * x i k)) (Ideal.ofBits .f32 0x322BCC77#32)

/-- The normalized features. -/
def fn (x : Fin 8192 → Fin 768 → EReal) (i : Fin 8192) (k : Fin 768) : EReal :=
  Ideal.div (x i k) (den x i)

/-- The inner product of two normalized rows. -/
def dot (x : Fin 8192 → Fin 768 → EReal) (i j : Fin 8192) : EReal :=
  ∑ k : Fin 768, fn x i k * fn x j k

/-- The similarity: the exponential of the inner product over the temperature `0.1`. -/
def sim (x : Fin 8192 → Fin 768 → EReal) (i j : Fin 8192) : EReal :=
  Ideal.exp (Ideal.div (dot x i j) (Ideal.ofBits .f32 0x3DCCCCCD#32))

/-- One off the diagonal, zero on it. -/
def notEye (i j : Fin 8192) : EReal := if i = j then 0 else 1

/-- The same as one minus the identity matrix. -/
theorem notEye_eq (i j : Fin 8192) : notEye i j = 1 - (if i = j then (1 : EReal) else 0) := by
  unfold notEye
  by_cases h : i = j
  · rw [if_pos h, if_pos h]; exact (EReal.sub_self (by decide) (by decide)).symm
  · rw [if_neg h, if_neg h, sub_zero]

/-- The positive mask off the diagonal. -/
def pmM (pm : Fin 8192 → Fin 8192 → EReal) (i j : Fin 8192) : EReal := pm i j * notEye i j

/-- The negative mask off the diagonal. -/
def nmM (nm : Fin 8192 → Fin 8192 → EReal) (i j : Fin 8192) : EReal := nm i j * notEye i j

/-- The number of positives in a row. -/
def pos (pm : Fin 8192 → Fin 8192 → EReal) (i : Fin 8192) : EReal :=
  0 + ∑ j : Fin 8192, pmM pm i j

/-- The same, with one in place of zero. -/
def pos' (pm : Fin 8192 → Fin 8192 → EReal) (i : Fin 8192) : EReal :=
  if pos pm i = 0 then 1 else pos pm i

/-- The row's sum of similarities over the negatives. -/
def neg (x : Fin 8192 → Fin 768 → EReal) (nm : Fin 8192 → Fin 8192 → EReal) (i : Fin 8192) : EReal :=
  0 + ∑ j : Fin 8192, sim x i j * nmM nm i j

/-- The negated logarithm of the similarity's share of the negatives' sum, offset by the constant `1e-6`. -/
def logp (x : Fin 8192 → Fin 768 → EReal) (nm : Fin 8192 → Fin 8192 → EReal) (i j : Fin 8192) : EReal :=
  -Ideal.log (Ideal.div (sim x i j) (neg x nm i) + Ideal.ofBits .f32 0x358637BD#32)

/-- The row's sum of those over the positives. -/
def rowAcc (x : Fin 8192 → Fin 768 → EReal) (pm nm : Fin 8192 → Fin 8192 → EReal) (i : Fin 8192) : EReal :=
  0 + ∑ j : Fin 8192, logp x nm i j * pmM pm i j

/-- The row's mean over its positives. -/
def perRow (x : Fin 8192 → Fin 768 → EReal) (pm nm : Fin 8192 → Fin 8192 → EReal) (i : Fin 8192) : EReal :=
  Ideal.div (rowAcc x pm nm i) (pos' pm i)

/-- The mean over the `8192` rows. -/
def result (x : Fin 8192 → Fin 768 → EReal) (pm nm : Fin 8192 → Fin 8192 → EReal) : EReal :=
  Ideal.div (0 + ∑ i : Fin 8192, perRow x pm nm i) (Ideal.ofBits .f32 0x46000000#32)

end Cert.Spec

end
-- ==== Proof.RefStages1.lean ====
/-
  The reference's first stages read at an index, at the extended reals: the clamped row norm, the normalized
  features, the rows' inner products and the similarity are the specification's functions of the feature array
  read by coordinates.
-/
import proofs.«111266_j50379966382615_1_alg».proof.Proof.Spec
import proofs.«111266_j50379966382615_1_alg».proof.Proof.Gen.ReferenceIdeal.Read
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx

/-- The feature array read by coordinates. -/
abbrev feat (x0 : FVec Ideal S8192x768 .f32) : Fin 8192 → Fin 768 → EReal := fun i k => x0 (ix2 i k)

/-- A square mask array read by coordinates. -/
abbrev mask (x1 : FVec Ideal S8192x8192 .f32) : Fin 8192 → Fin 8192 → EReal := fun i j => x1 (ix2 i j)

/-- The clamped row norm, in the column shape `[8192, 1]`. -/
theorem den_at (x0 : FVec Ideal S8192x768 .f32) (i : Fin 8192) (z : Fin 1) :
    val_main_v2 (F := Ideal) x0 (ix2 i z) = Cert.Spec.den (feat x0) i := by
  have e : ∀ k : Fin 768, idx_main_call0_v1 (idx_main_call0_v2 (ix2 i z)) k = ix2 i k := fun k =>
    funext fun a => Fin.ext (by match a with | ⟨0, _⟩ => rfl | ⟨1, _⟩ => rfl)
  rw [val_main_v2_apply, val_main_v0_apply, val_main_call0_v2_apply, val_main_call0_v1_apply, val_main_v1_apply,
    val_main_cst_apply, val_main_call0_cst_apply]
  simp only [e, val_main_call0_v0_apply, Ideal.maximumf_def, Ideal.hostUnary_sqrt_def, Ideal.mulf_def, Ideal.ofBits_def,
    Ideal.ofBits_zero_f32]
  rfl

/-- The normalized features. -/
theorem fn_at (x0 : FVec Ideal S8192x768 .f32) (i : Fin 8192) (k : Fin 768) :
    val_main_v4 (F := Ideal) x0 (ix2 i k) = Cert.Spec.fn (feat x0) i k := by
  have e : idx_main_v3 (ix2 i k) = ix2 i (0 : Fin 1) :=
    funext fun a => Fin.ext (by match a with | ⟨0, _⟩ => rfl | ⟨1, _⟩ => rfl)
  rw [val_main_v4_apply, val_main_v3_apply, e, den_at, Ideal.hostDivf_def]
  rfl

/-- The inner product of two normalized rows. -/
theorem dot_at (x0 : FVec Ideal S8192x768 .f32) (i j : Fin 8192) :
    val_main_v6 (F := Ideal) x0 (ix2 i j) = Cert.Spec.dot (feat x0) i j := by
  have el : ∀ k : Fin 768, lidx_main_v6 (ix2 i j) k = ix2 i k := fun k =>
    funext fun a => Fin.ext (by match a with | ⟨0, _⟩ => rfl | ⟨1, _⟩ => rfl)
  have er : ∀ k : Fin 768, idx_main_v5 (ridx_main_v6 (ix2 i j) k) = ix2 j k := fun k =>
    funext fun a => Fin.ext (by match a with | ⟨0, _⟩ => rfl | ⟨1, _⟩ => rfl)
  rw [val_main_v6_apply]
  refine Finset.sum_congr rfl fun k _ => ?_
  rw [val_main_v5_apply, el, er, fn_at, fn_at]

/-- The similarity. -/
theorem sim_at (x0 : FVec Ideal S8192x768 .f32) (i j : Fin 8192) :
    val_main_v9 (F := Ideal) x0 (ix2 i j) = Cert.Spec.sim (feat x0) i j := by
  rw [val_main_v9_apply, val_main_v8_apply, val_main_v7_apply, val_main_cst_0_apply, dot_at,
    Ideal.hostUnary_exp_def, Ideal.hostDivf_def, Ideal.ofBits_def]
  rfl

end Cert.ReferenceIdeal.RefValue

end
-- ==== Proof.RefStages2.lean ====
/-
  The reference's mask stages read at an index, at the extended reals: one minus the identity matrix, the two masks
  off the diagonal, the rows' positive counts (with one in place of zero) and the rows' sums of similarities over
  the negatives are the specification's functions of the argument arrays read by coordinates.
-/
import proofs.«111266_j50379966382615_1_alg».proof.Proof.RefStages1

noncomputable section

open scoped BigOperators

namespace Cert.ReferenceIdeal.RefValue

open Cert.ReferenceIdeal Cert.ReferenceIdeal.Gen Cert.ReferenceIdeal.Read Idealize.ShloMosaic Idealize.ShloMosaic.ValueIdx

/-- Two row numbers below `8192`, written as 32-bit words, are the same word exactly when they are the same number. -/
theorem word_eq_iff (i j : Fin 8192) : (BitVec.ofNat 32 i.val + 0#32 == BitVec.ofNat 32 j.val) = decide (i = j) := by
  have hi : i.val < 2 ^ 32 := lt_trans i.isLt (by norm_num)
  have hj : j.val < 2 ^ 32 := lt_trans j.isLt (by norm_num)
  rw [BitVec.add_zero]
  by_cases h : i = j
  · subst h; simp
  · have hne : BitVec.ofNat 32 i.val ≠ BitVec.ofNat 32 j.val := fun hh => h (Fin.ext (by
      have := congrArg BitVec.toNat hh
      rwa [BitVec.toNat_ofNat, BitVec.toNat_ofNat, Nat.mod_eq_of_lt hi, Nat.mod_eq_of_lt hj] at this))
    simp [h, hne]

/-- One minus the identity matrix. -/
theorem notEye_at (i j : Fin 8192) :
    val_main_v17 (F := Ideal) (ix2 i j) = Cert.Spec.notEye i j := by
  rw [val_main_v17_apply, val_main_v16_apply, val_main_cst_1_apply, val_main_v15_apply, val_main_v14_apply,
    val_main_v13_apply, val_main_v10_apply, val_main_v12_apply, val_main_c_apply, val_main_v11_apply,
    Cert.Spec.notEye_eq, Ideal.subf_def, Ideal.ofBits_def, Ideal.ofBits_one_f32]
  show (1 : EReal) - (((IntOp.cmpi .eq (IntOp.addi (BitVec.ofNat 32 i.val) 0#32) (BitVec.ofNat 32 j.val)).toNat : ℝ) : EReal) = _
  unfold IntOp.cmpi IntOp.addi
  rw [word_eq_iff]
  by_cases h : i = j
  · rw [if_pos h, decide_eq_true h]
    show (1 : EReal) - (((1 : ℕ) : ℝ) : EReal) = 1 - 1
    rw [Nat.cast_one, EReal.coe_one]
  · rw [if_neg h, decide_eq_false h]
    show (1 : EReal) - (((0 : ℕ) : ℝ) : EReal) = 1 - 0
    rw [Nat.cast_zero, EReal.coe_zero]

/-- The positive mask off the diagonal. -/
theorem pmM_at (x1 : FVec Ideal S8192x8192 .f32) (i j : Fin 8192) :
    val_main_v18 (F := Ideal) x1 (ix2 i j) = Cert.Spec.pmM (mask x1) i j := by
  rw [val_main_v18_apply, notEye_at, Ideal.mulf_def]
  rfl

/-- The negative mask off the diagonal. -/
theorem nmM_at (x2 : FVec Ideal S8192x8192 .f32) (i j : Fin 8192) :
    val_main_v19 (F := Ideal) x2 (ix2 i j) = Cert.Spec.nmM (mask x2) i j := by
  rw [val_main_v19_apply, notEye_at, Ideal.mulf_def]
  rfl

/-- The number of positives in a row. -/
theorem pos_at (x1 : FVec Ideal S8192x8192 .f32) (i : Fin 8192) :
    val_main_v20 (F := Ideal) x1 (ix1 i) = Cert.Spec.pos (mask x1) i := by
  have e : ∀ k : Fin 8192, idx_main_v20 (ix1 i) k = ix2 i k := fun k =>
    funext fun a => Fin.ext (by match a with | ⟨0, _⟩ => rfl | ⟨1, _⟩ => rfl)
  rw [val_main_v20_apply, val_main_cst_2_apply, Ideal.ofBits_def, Ideal.ofBits_zero_f32]
  simp only [e, pmM_at]
  rfl

/-- The same with one in place of zero. -/
theorem pos'_at (x1 : FVec Ideal S8192x8192 .f32) (i : Fin 8192) :
    val_main_v23 (F := Ideal) x1 (ix1 i) = Cert.Spec.pos' (mask x1) i := by
  rw [val_main_v23_apply, val_main_v22_apply, val_main_v21_apply, val_main_cst_3_apply, val_main_call1_v1_apply,
    val_main_call1_v0_apply, val_main_cst_4_apply, pos_at, Ideal.ofBits_def, Ideal.ofBits_def, Ideal.ofBits_zero_f32,
    Ideal.ofBits_one_f32, Ideal.cmpf_def]
  unfold Cert.Spec.pos' Ideal.cmp Scalar.select
  by_cases h : Cert.Spec.pos (mask x1) i = 0
  · rw [if_pos h, if_pos (by simp [h])]
  · rw [if_neg h, if_neg (by simp [h])]

/-- The row's sum of similarities over the negatives. -/
theorem neg_at (x0 : FVec Ideal S8192x768 .f32) (x2 : FVec Ideal S8192x8192 .f32) (i : Fin 8192) :
    val_main_v25 (F := Ideal) x0 x2 (ix1 i) = Cert.Spec.neg (feat x0) (mask x2) i := by
  have e : ∀ k : Fin 8192, idx_main_v25 (ix1 i) k = ix2 i k := fun k =>
    funext fun a => Fin.ext (by match a with | ⟨0, _⟩ => rfl | ⟨1, _⟩ => rfl)
  rw [val_main_v25_apply, val_main_cst_5_apply, Ideal.ofBits_def, Ideal.ofBits_zero_f32]
  simp only [e, val_main_v24_apply, sim_at, nmM_at, Ideal.mulf_def]
  rfl

end Cert.ReferenceIdeal.RefValue

end
-- ==== Proof.RefStages3.lean ====
/-
  The reference's last stages read at an index, at the extended reals: the negated logarithm of each similarity's
  share, its sum over a row's positives and the row's mean are the specification's functions of the argument arrays
  read by coordinates.
-/
import proofs.«111266_j50379966382615_1_alg».proof.Proof.RefStages2

noncomputable section

open scoped BigOperators

namespace Cert.ReferenceIdeal.RefValue

open Cert.ReferenceIdeal Cert.ReferenceIdeal.Gen Cert.ReferenceIdeal.Read Idealize.ShloMosaic Idealize.ShloMosaic.ValueIdx

/-- The negatives' sum of a row, spread over the row. -/
theorem negRow_at (x0 : FVec Ideal S8192x768 .f32) (x2 : FVec Ideal S8192x8192 .f32) (i j : Fin 8192) :
    val_main_v27 (F := Ideal) x0 x2 (ix2 i j) = Cert.Spec.neg (feat x0) (mask x2) i := by
  have e1 : idx_main_v27 (ix2 i j) = ix2 i (0 : Fin 1) :=
    funext fun a => Fin.ext (by match a with | ⟨0, _⟩ => rfl | ⟨1, _⟩ => rfl)
  have e2 : idx_main_v26 (ix2 i (0 : Fin 1)) = ix1 i :=
    funext fun a => Fin.ext (by match a with | ⟨0, _⟩ => rfl)
  rw [val_main_v27_apply, e1, val_main_v26_apply, e2, neg_at]

/-- The negated logarithm of the similarity's share, offset. -/
theorem logp_at (x0 : FVec Ideal S8192x768 .f32) (x2 : FVec Ideal S8192x8192 .f32) (i j : Fin 8192) :
    val_main_v32 (F := Ideal) x0 x2 (ix2 i j) = Cert.Spec.logp (feat x0) (mask x2) i j := by
  rw [val_main_v32_apply, val_main_v31_apply, val_main_v30_apply, val_main_v29_apply, val_main_cst_6_apply,
    val_main_v28_apply, negRow_at, sim_at, Ideal.hostNegf_def, Ideal.negf_def, Ideal.hostUnary_log_def, Ideal.addf_def,
    Ideal.hostDivf_def, Ideal.ofBits_def]
  rfl

/-- The row's sum over the positives. -/
theorem rowAcc_at (x0 : FVec Ideal S8192x768 .f32) (x1 x2 : FVec Ideal S8192x8192 .f32) (i : Fin 8192) :
    val_main_v34 (F := Ideal) x0 x1 x2 (ix1 i) = Cert.Spec.rowAcc (feat x0) (mask x1) (mask x2) i := by
  have e : ∀ k : Fin 8192, idx_main_v34 (ix1 i) k = ix2 i k := fun k =>
    funext fun a => Fin.ext (by match a with | ⟨0, _⟩ => rfl | ⟨1, _⟩ => rfl)
  rw [val_main_v34_apply, val_main_cst_7_apply, Ideal.ofBits_def, Ideal.ofBits_zero_f32]
  simp only [e, val_main_v33_apply, logp_at, pmM_at, Ideal.mulf_def]
  rfl

/-- The row's mean over its positives. -/
theorem perRow_at (x0 : FVec Ideal S8192x768 .f32) (x1 x2 : FVec Ideal S8192x8192 .f32) (i : Fin 8192) :
    val_main_v35 (F := Ideal) x0 x1 x2 (ix1 i) = Cert.Spec.perRow (feat x0) (mask x1) (mask x2) i := by
  rw [val_main_v35_apply, rowAcc_at, pos'_at, Ideal.hostDivf_def]
  rfl

end Cert.ReferenceIdeal.RefValue

end
-- ==== Proof.RefValue.lean ====
/-
  The reference's result, at the extended reals, is the specification's value of the three argument arrays read by
  coordinates: every weakly fair execution of the reference ends with its result buffer at that value and its
  arguments unchanged.
-/
import proofs.«111266_j50379966382615_1_alg».proof.Defs
import proofs.«111266_j50379966382615_1_alg».proof.Proof.Gen.Pre_finite_inputs
import proofs.«111266_j50379966382615_1_alg».proof.Proof.RefStages3

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

/-- A rank-1 index set is its coordinate's range. -/
def rowEquiv : S8192.Idx ≃ Fin 8192 where
  toFun j := j 0
  invFun i := ix1 i
  left_inv j := (eq_ix1 j).symm
  right_inv _ := rfl

/-- The reference's result stage is the specification's value of the argument arrays read by coordinates. -/
theorem ref_eq (x0 : FVec Ideal S8192x768 .f32) (x1 x2 : FVec Ideal S8192x8192 .f32) :
    val_main_v37 (F := Ideal) x0 x1 x2
      = fun _ => Cert.Spec.result (fun i k => x0 (ix2 i k)) (fun i j => x1 (ix2 i j)) (fun i j => x2 (ix2 i j)) := by
  funext j
  rw [val_main_v37_apply, val_main_v36_apply, val_main_cst_9_apply, val_main_cst_8_apply, Ideal.hostDivf_def,
    Ideal.ofBits_def, Ideal.ofBits_def, Ideal.ofBits_zero_f32,
    ← Equiv.sum_comp rowEquiv.symm (val_main_v35 (F := Ideal) x0 x1 x2)]
  show Ideal.div (0 + ∑ i : Fin 8192, val_main_v35 (F := Ideal) x0 x1 x2 (ix1 i)) _ = _
  simp only [perRow_at]
  rfl

/-- Every weakly fair execution of the reference terminates with its result at the specification's value of the
    argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v37)
        = (fun _ => Cert.Spec.result
            (fun i k => (m ((c.tc : Thread nD τ).loc main_arg0) : FVec Ideal S8192x768 .f32) (ix2 i k))
            (fun i j => (m ((c.tc : Thread nD τ).loc main_arg1) : FVec Ideal S8192x8192 .f32) (ix2 i j))
            (fun i j => (m ((c.tc : Thread nD τ).loc main_arg2) : FVec Ideal S8192x8192 .f32) (ix2 i j)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c).1.trans ((val_main_v37_eq m c).trans (ref_eq _ _ _)), (h c).2⟩)
    (Cert.ReferenceIdeal.Value.run (F := Ideal) m ρ)

/-- The reference runs and leaves its arguments unchanged. -/
theorem frame : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.SharedArrays.lean ====
/-
  Two windows of each pallas_call read one array, the normalized features. On entering a call the buffers behind
  its windows — each distinct buffer once, held whole — become the windows' arrays: the shared array's full share is
  dealt in two halves, the left to the first window and the right to the second; every other array is held whole.
  On leaving, the two halves are joined again.
-/
import proofs.«111266_j50379966382615_1_alg».proof.Proof.Gen.KernelIdeal.Launch
import proofs.«111266_j50379966382615_1_alg».proof.Proof.Gen.KernelIdeal.Skeleton
import proofs.«111266_j50379966382615_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD}

/-- The distinct buffers behind pipeline 0's six windows: the normalized features (read by two windows), the two
    masks, and the two row sums it writes. -/
theorem arrImage0 : (Finset.univ.image (Pipeline.arrRef spec0)) = [main_v5, main_arg1, main_arg2, main_v6_0, main_v6_1].toFinset := by decide
/-- The distinct buffers behind pipeline 1's five windows. -/
theorem arrImage1 : (Finset.univ.image (Pipeline.arrRef spec1)) = [main_v5, main_arg1, main_v6_0, main_v10].toFinset := by decide

section Shares0
variable (dat : Dat τ (Elt F) Unit ℕ (UR sig nD τ) ℕ cfg0 c)

theorem share0_0 {q} (h : dat.q 0 = q) : dat.share 0 = q := (if_neg (by decide)).trans h
theorem share0_1 {q} (h : dat.q 1 = q) : dat.share 1 = q := (if_neg (by decide)).trans h
theorem share0_2 {q} (h : dat.q 2 = q) : dat.share 2 = q := (if_neg (by decide)).trans h
theorem share0_3 {q} (h : dat.q 3 = q) : dat.share 3 = q := (if_neg (by decide)).trans h
theorem share0_4 : dat.share 4 = fullShare := if_pos (by decide)
theorem share0_5 : dat.share 5 = fullShare := if_pos (by decide)

/-- Pipeline 0's arrays, window by window: the shared feature array at its two half shares, every other array whole. -/
theorem arrays0_eq (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) :
    (dat.arrays Fa : sProp 𝕄) = iprop(((c : Thread nD τ).loc main_v5 ↦{fullShare.left} V main_v5) ∗ ((c : Thread nD τ).loc main_v5 ↦{fullShare.right} V main_v5)
      ∗ ((c : Thread nD τ).loc main_arg1 ↦{fullShare} V main_arg1) ∗ ((c : Thread nD τ).loc main_arg2 ↦{fullShare} V main_arg2)
      ∗ ((c : Thread nD τ).loc main_v6_0 ↦{fullShare} V main_v6_0) ∗ ((c : Thread nD τ).loc main_v6_1 ↦{fullShare} V main_v6_1)) := by
  unfold Dat.arrays
  rw [bigSep_W0, share0_0 dat hq0, share0_1 dat hq1, share0_2 dat hq2, share0_3 dat hq3, share0_4 dat, share0_5 dat,
    hF 0, hF 1, hF 2, hF 3, hF 4, hF 5,
    show (cfg0.win 0).arr.view.set = Finset.univ from (arr_whole0 0).set_eq_univ,
    show (cfg0.win 2).arr.view.set = Finset.univ from (arr_whole0 2).set_eq_univ,
    show (cfg0.win 3).arr.view.set = Finset.univ from (arr_whole0 3).set_eq_univ,
    show (cfg0.win 4).arr.view.set = Finset.univ from (arr_whole0 4).set_eq_univ,
    show (cfg0.win 5).arr.view.set = Finset.univ from (arr_whole0 5).set_eq_univ]

end Shares0

/-- The distinct buffers behind pipeline 0's windows, one by one. -/
theorem arrBufs0_eq (V : (b : Ref sig .tc) → Buf (Elt F) ((c : Thread nD τ).loc b)) :
    (Pipeline.arrBufs spec0 c V : sProp 𝕄) = iprop(((c : Thread nD τ).loc main_v5 ↦{fullShare} V main_v5)
      ∗ ((c : Thread nD τ).loc main_arg1 ↦{fullShare} V main_arg1) ∗ ((c : Thread nD τ).loc main_arg2 ↦{fullShare} V main_arg2)
      ∗ ((c : Thread nD τ).loc main_v6_0 ↦{fullShare} V main_v6_0) ∗ ((c : Thread nD τ).loc main_v6_1 ↦{fullShare} V main_v6_1)) :=
  bigSep_eq_bigSepL_of_eq [main_v5, main_arg1, main_arg2, main_v6_0, main_v6_1] arrImage0 (by decide) _

/-- ENTRY of pipeline 0: the distinct buffers behind its windows, each whole, are its arrays — the feature array's
    full share dealt in halves to the two windows that read it. -/
theorem arrays0_split (dat : Dat τ (Elt F) Unit ℕ (UR sig nD τ) ℕ cfg0 c)
    (V : (b : Ref sig .tc) → Buf (Elt F) ((c : Thread nD τ).loc b))
    (hq0 : dat.q 0 = fullShare.left) (hq1 : dat.q 1 = fullShare.right) (hq2 : dat.q 2 = fullShare) (hq3 : dat.q 3 = fullShare)
    (Fa : (w : Fin cfg0.W) → Buf (Elt F) ((cfg0.win w).arr.view.loc (c : Thread nD τ)))
    (hF : ∀ w, Fa w = V (Pipeline.arrRef spec0 w)) :
    (Pipeline.arrBufs spec0 c V : sProp 𝕄) ⊢ dat.arrays Fa := by
  rw [arrays0_eq dat hq0 hq1 hq2 hq3 V Fa hF, arrBufs0_eq]
  iintro ⟨H5, H1, H2, H60, H61⟩
  ihave H5' := (pointsTo_share (PosShare.mem_left_op_right fullShare)).1 $$ H5
  icases H5' with ⟨H5l, H5r⟩
  isplitl [H5l]; · iexact H5l
  isplitl [H5r]; · iexact H5r
  isplitl [H1]; · iexact H1
  isplitl [H2]; · iexact H2
  isplitl [H60]; · iexact H60
  iexact H61

/-- EXIT of pipeline 0: its arrays, the two halves of the feature array joined, are the distinct buffers behind its
    windows, each whole. -/
theorem arrays0_join (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Fa : (w : Fin cfg0.W) → Buf (Elt F) ((cfg0.win w).arr.view.loc (c : Thread nD τ)))
    (V' : (b : Ref sig .tc) → Buf (Elt F) ((c : Thread nD τ).loc b))
    (hF : ∀ w, Fa w = V' (Pipeline.arrRef spec0 w)) :
    dat.arrays Fa ⊢ (Pipeline.arrBufs spec0 c V' : sProp 𝕄) := by
  rw [arrays0_eq dat hq0 hq1 hq2 hq3 V' Fa hF, arrBufs0_eq]
  iintro ⟨H5l, H5r, H1, H2, H60, H61⟩
  ihave H5 := (pointsTo_share (PosShare.mem_left_op_right fullShare)).2 $$ [H5l H5r]
  · isplitl [H5l]; · iexact H5l
    iexact H5r
  isplitl [H5]; · iexact H5
  isplitl [H1]; · iexact H1
  isplitl [H2]; · iexact H2
  isplitl [H60]; · iexact H60
  iexact H61

section Shares1
variable (dat : Dat τ (Elt F) Unit ℕ (UR sig nD τ) ℕ cfg1 c)

theorem share1_0 {q} (h : dat.q 0 = q) : dat.share 0 = q := (if_neg (by decide)).trans h
theorem share1_1 {q} (h : dat.q 1 = q) : dat.share 1 = q := (if_neg (by decide)).trans h
theorem share1_2 {q} (h : dat.q 2 = q) : dat.share 2 = q := (if_neg (by decide)).trans h
theorem share1_3 {q} (h : dat.q 3 = q) : dat.share 3 = q := (if_neg (by decide)).trans h
theorem share1_4 : dat.share 4 = fullShare := if_pos (by decide)

/-- Pipeline 1's arrays, window by window: the shared feature array at its two half shares, every other array whole. -/
theorem arrays1_eq (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    (dat.arrays Fa : sProp 𝕄) = iprop(((c : Thread nD τ).loc main_v5 ↦{fullShare.left} V main_v5) ∗ ((c : Thread nD τ).loc main_v5 ↦{fullShare.right} V main_v5)
      ∗ ((c : Thread nD τ).loc main_arg1 ↦{fullShare} V main_arg1) ∗ ((c : Thread nD τ).loc main_v6_0 ↦{fullShare} V main_v6_0)
      ∗ ((c : Thread nD τ).loc main_v10 ↦{fullShare} V main_v10)) := by
  unfold Dat.arrays
  rw [bigSep_W1, share1_0 dat hq0, share1_1 dat hq1, share1_2 dat hq2, share1_3 dat hq3, share1_4 dat,
    hF 0, hF 1, hF 2, hF 3, hF 4,
    show (cfg1.win 0).arr.view.set = Finset.univ from (arr_whole1 0).set_eq_univ,
    show (cfg1.win 2).arr.view.set = Finset.univ from (arr_whole1 2).set_eq_univ,
    show (cfg1.win 3).arr.view.set = Finset.univ from (arr_whole1 3).set_eq_univ,
    show (cfg1.win 4).arr.view.set = Finset.univ from (arr_whole1 4).set_eq_univ]

end Shares1

/-- The distinct buffers behind pipeline 1's windows, one by one. -/
theorem arrBufs1_eq (V : (b : Ref sig .tc) → Buf (Elt F) ((c : Thread nD τ).loc b)) :
    (Pipeline.arrBufs spec1 c V : sProp 𝕄) = iprop(((c : Thread nD τ).loc main_v5 ↦{fullShare} V main_v5)
      ∗ ((c : Thread nD τ).loc main_arg1 ↦{fullShare} V main_arg1)
      ∗ ((c : Thread nD τ).loc main_v6_0 ↦{fullShare} V main_v6_0) ∗ ((c : Thread nD τ).loc main_v10 ↦{fullShare} V main_v10)) :=
  bigSep_eq_bigSepL_of_eq [main_v5, main_arg1, main_v6_0, main_v10] arrImage1 (by decide) _

/-- ENTRY of pipeline 1: the distinct buffers behind its windows, each whole, are its arrays — the feature array's
    full share dealt in halves to the two windows that read it. -/
theorem arrays1_split (dat : Dat τ (Elt F) Unit ℕ (UR sig nD τ) ℕ cfg1 c)
    (V : (b : Ref sig .tc) → Buf (Elt F) ((c : Thread nD τ).loc b))
    (hq0 : dat.q 0 = fullShare.left) (hq1 : dat.q 1 = fullShare.right) (hq2 : dat.q 2 = fullShare) (hq3 : dat.q 3 = fullShare)
    (Fa : (w : Fin cfg1.W) → Buf (Elt F) ((cfg1.win w).arr.view.loc (c : Thread nD τ)))
    (hF : ∀ w, Fa w = V (Pipeline.arrRef spec1 w)) :
    (Pipeline.arrBufs spec1 c V : sProp 𝕄) ⊢ dat.arrays Fa := by
  rw [arrays1_eq dat hq0 hq1 hq2 hq3 V Fa hF]
  rw [arrBufs1_eq]
  iintro ⟨H5, H1, H60, H10⟩
  ihave H5' := (pointsTo_share (PosShare.mem_left_op_right fullShare)).1 $$ H5
  icases H5' with ⟨H5l, H5r⟩
  isplitl [H5l]; · iexact H5l
  isplitl [H5r]; · iexact H5r
  isplitl [H1]; · iexact H1
  isplitl [H60]; · iexact H60
  iexact H10

/-- EXIT of pipeline 1: its arrays, the two halves of the feature array joined, are the distinct buffers behind its
    windows, each whole. -/
theorem arrays1_join (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (Fa : (w : Fin cfg1.W) → Buf (Elt F) ((cfg1.win w).arr.view.loc (c : Thread nD τ)))
    (V' : (b : Ref sig .tc) → Buf (Elt F) ((c : Thread nD τ).loc b))
    (hF : ∀ w, Fa w = V' (Pipeline.arrRef spec1 w)) :
    dat.arrays Fa ⊢ (Pipeline.arrBufs spec1 c V' : sProp 𝕄) := by
  rw [arrays1_eq dat hq0 hq1 hq2 hq3 V' Fa hF]
  rw [arrBufs1_eq]
  iintro ⟨H5l, H5r, H1, H60, H10⟩
  ihave H5 := (pointsTo_share (PosShare.mem_left_op_right fullShare)).2 $$ [H5l H5r]
  · isplitl [H5l]; · iexact H5l
    iexact H5r
  isplitl [H5]; · iexact H5
  isplitl [H1]; · iexact H1
  isplitl [H60]; · iexact H60
  iexact H10

end Cert.KernelIdeal.Hand

end
-- ==== Proof.BodyLib.lean ====
/-
  What every grid point's run of the two kernel bodies shares: a whole-block store read back is its payload,
  a whole-block load of a buffer's contents is the contents, and the two branch conditions of each body
  (the first column of tiles resets the accumulators, the last column writes them out).
-/
import proofs.«111266_j50379966382615_1_alg».proof.Proof.Gen.KernelIdeal.Launch
import proofs.«111266_j50379966382615_1_alg».proof.Proof.Gen.KernelIdeal.Skeleton
import proofs.«111266_j50379966382615_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Zero offsets on two axes, as the printed rectangles spell them. -/
theorem hz_col : (![0, 0] : Fin S512x1.rank → Nat) = fun _ => 0 := by
  funext a; fin_cases a <;> rfl
theorem hz_feat : (![0, 0] : Fin S512x768.rank → Nat) = fun _ => 0 := by
  funext a; fin_cases a <;> rfl
theorem hz_tile : (![0, 0] : Fin S512x512.rank → Nat) = fun _ => 0 := by
  funext a; fin_cases a <;> rfl

/-- One store through the whole-shape rectangle: the buffer then reads as the stored value. -/
theorem read_write_whole {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-- Several stores, the LAST one through the whole-shape rectangle: the buffer reads as that last value. -/
theorem read_writes_whole_last {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- A load through the whole-shape rectangle of a whole buffer at contents `X` reads `X`. -/
theorem readAt_whole {sig : RefSig} {κ : Kind} {sp : Space} {S : Shape} {e : EltTy} {Val : EltTy → Type}
    {m : Memref sig κ sp S e} (hm : m.IsWhole) {off : Fin S.rank → Nat} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h]

/-! ## The same at the three block shapes of these kernels -/

theorem readAt_col {Val : EltTy → Type} {m : Memref sig .tc .vmem S512x1 .f32} (hm : m.IsWhole)
    (inb : ∀ a, (![0, 0] : Fin S512x1.rank → Nat) a + S512x1.size a ≤ S512x1.size a) (X : S512x1.Idx → Val .f32) :
    m.view.readAt Val (Rect.unit (s := S512x1) ![0, 0] S512x1.size inb).toLoadRect (hm.unread X) = X :=
  readAt_whole hm hz_col inb X
theorem readAt_feat {Val : EltTy → Type} {m : Memref sig .tc .vmem S512x768 .bf16} (hm : m.IsWhole)
    (inb : ∀ a, (![0, 0] : Fin S512x768.rank → Nat) a + S512x768.size a ≤ S512x768.size a) (X : S512x768.Idx → Val .bf16) :
    m.view.readAt Val (Rect.unit (s := S512x768) ![0, 0] S512x768.size inb).toLoadRect (hm.unread X) = X :=
  readAt_whole hm hz_feat inb X
theorem readAt_tile {Val : EltTy → Type} {m : Memref sig .tc .vmem S512x512 .f32} (hm : m.IsWhole)
    (inb : ∀ a, (![0, 0] : Fin S512x512.rank → Nat) a + S512x512.size a ≤ S512x512.size a) (X : S512x512.Idx → Val .f32) :
    m.view.readAt Val (Rect.unit (s := S512x512) ![0, 0] S512x512.size inb).toLoadRect (hm.unread X) = X :=
  readAt_whole hm hz_tile inb X
/-- A column buffer after one whole store reads as the stored column. -/
theorem read_write_col {Val : EltTy → Type} [∀ e, Nonempty (Val e)] (v : View sig .tc .vmem S512x1 .f32) (f : v.ty.Contents Val)
    (inb : ∀ a, (![0, 0] : Fin S512x1.rank → Nat) a + S512x1.size a ≤ S512x1.size a) (w : S512x1.Idx → Val .f32) :
    v.read Val (v.writes Val f [(⟨Rect.unit (s := S512x1) ![0, 0] S512x1.size inb, w⟩ : View.Piece Val S512x1 .f32)]) = w :=
  read_write_whole v f hz_col inb w
/-- A column buffer after several stores, the last a whole one, reads as that last column. -/
theorem read_writes_col_last {Val : EltTy → Type} [∀ e, Nonempty (Val e)] (v : View sig .tc .vmem S512x1 .f32) (f : v.ty.Contents Val)
    (inb : ∀ a, (![0, 0] : Fin S512x1.rank → Nat) a + S512x1.size a ≤ S512x1.size a) (w : S512x1.Idx → Val .f32)
    (L : List (View.Piece Val S512x1 .f32)) :
    v.read Val (v.writes Val f ((⟨Rect.unit (s := S512x1) ![0, 0] S512x1.size inb, w⟩ : View.Piece Val S512x1 .f32) :: L)) = w :=
  read_writes_whole_last v f hz_col inb w L
/-- A whole load of a column buffer right after one whole store reads the stored column. -/
theorem readCov_col {Val : EltTy → Type} [∀ e, Nonempty (Val e)] (v : View sig .tc .vmem S512x1 .f32)
    (inb : ∀ a, (![0, 0] : Fin S512x1.rank → Nat) a + S512x1.size a ≤ S512x1.size a) (w : S512x1.Idx → Val .f32) :
    v.readCov [(⟨Rect.unit (s := S512x1) ![0, 0] S512x1.size inb, w⟩ : View.Piece Val S512x1 .f32)]
      (Rect.unit (s := S512x1) ![0, 0] S512x1.size inb).toLoadRect = w :=
  View.readCov_unit_zero v hz_col inb w

/-! ## The first kernel's two conditions -/

/-- The tile is in the first column (`j = 0`): the accumulators are reset. -/
abbrev cond0_0 (i : grid0.Coords) : Prop := (Scalar.cmpi .ne (Scalar.extui (Scalar.cmpi .eq (BitVec.ofNat 32 (i 1).val) 0#32)) 0#32) = 1#1
/-- The tile is in the last column (`j = 15`): the accumulators are written out. -/
abbrev cond0_1 (i : grid0.Coords) : Prop := k0_cond2 i = 1#1
theorem hcond0_0 : ∀ t : Fin cfg0.N, cond0_0 (grid0.coords t) ↔ t.val % 16 = 0 :=
  (by decide +kernel : ∀ t : Fin grid0.N, cond0_0 (grid0.coords t) ↔ t.val % 16 = 0)
theorem hcond0_1 : ∀ t : Fin cfg0.N, cond0_1 (grid0.coords t) ↔ t.val % 16 = 15 :=
  (by decide +kernel : ∀ t : Fin grid0.N, cond0_1 (grid0.coords t) ↔ t.val % 16 = 15)

/-! ## The second kernel's two conditions -/

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1
theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

end Cert.KernelIdeal.Hand

end
-- ==== Proof.R0Body.lean ====
/-
  One grid point of the first kernel, case by case. A point loads its two feature blocks and its two mask
  tiles, adds the tile's row sums into two column accumulators kept in scratch — the masked similarities'
  and the positive mask's — after resetting them in the first column of tiles, and in the last column copies
  both accumulators into the two output blocks. Each case says what every buffer holds afterwards.
-/
import proofs.«111266_j50379966382615_1_alg».proof.Proof.Gen.KernelIdeal.Launch
import proofs.«111266_j50379966382615_1_alg».proof.Proof.Gen.KernelIdeal.Skeleton
import proofs.«111266_j50379966382615_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«111266_j50379966382615_1_alg».proof.Proof.BodyLib
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- A tile in neither the first nor the last column: both accumulators take the tile's row sums on top of what they held; the outputs are untouched. -/
theorem kernel0_mid (c : Dev nD) (i : grid0.Coords)
    (arg2 : Memref sig .tc .vmem S512x768 .bf16) (harg2 : arg2.IsWhole) (arg3 : Memref sig .tc .vmem S512x768 .bf16) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬cond0_0 i) (hc1 : ¬cond0_1 i)
    (x0 x1 : Vec F S512x768 .bf16) (x2 x3 : Vec F S512x512 .f32) (xi4 xi5 s8 s9 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare (k0_pay6 i x0 x1 x3 s8) ∗ owns (c : Thread nD τ) arg9 fullShare (k0_pay1 (k0_pay5 i x2) s9)) -∗ K ⟨⟩))
      ⊢ wp frame (wpE (defs₀ (F := F)) Variants.none c none) E (cc0__pass_a_kernel i arg2 harg2 arg3 harg3 arg4 harg4 arg5 harg5 arg6 harg6 arg7 harg7 arg8 harg8 arg9 harg9) K := by
  simp only [cc0__pass_a_kernel_eq_skeleton]; unfold cc0__pass_a_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf8; obtain rfl := harg9.eq_unread hf9
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H8]
  · iexists _; isplitr
    swap; · iexact H8
    ipureintro
    sl_unfold_run_names
    rw [readAt_feat harg2, readAt_feat harg3, readAt_tile harg5, readAt_col harg8]
    exact read_write_col _ _ _ _
  · iexists _; isplitr
    swap; · iexact H9
    ipureintro
    sl_unfold_run_names
    rw [readAt_tile harg4, readAt_col harg9]
    exact read_write_col _ _ _ _

set_option maxHeartbeats 1000000 in
/-- A tile in the first column: the accumulators start again from zero, whatever they held; the outputs are untouched. -/
theorem kernel0_first (c : Dev nD) (i : grid0.Coords)
    (arg2 : Memref sig .tc .vmem S512x768 .bf16) (harg2 : arg2.IsWhole) (arg3 : Memref sig .tc .vmem S512x768 .bf16) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : cond0_0 i) (hc1 : ¬cond0_1 i)
    (x0 x1 : Vec F S512x768 .bf16) (x2 x3 : Vec F S512x512 .f32) (xi4 xi5 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare (k0_pay6 i x0 x1 x3 (k0_pay2 (F := F))) ∗ owns (c : Thread nD τ) arg9 fullShare (k0_pay1 (k0_pay5 i x2) (k0_pay3 (F := F)))) -∗ K ⟨⟩))
      ⊢ wp frame (wpE (defs₀ (F := F)) Variants.none c none) E (cc0__pass_a_kernel i arg2 harg2 arg3 harg3 arg4 harg4 arg5 harg5 arg6 harg6 arg7 harg7 arg8 harg8 arg9 harg9) K := by
  simp only [cc0__pass_a_kernel_eq_skeleton]; unfold cc0__pass_a_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H8]
  · iexists _; isplitr
    swap; · iexact H8
    ipureintro
    sl_unfold_run_names
    rw [readAt_feat harg2, readAt_feat harg3, readAt_tile harg5, readCov_col]
    exact read_writes_col_last _ _ _ _ _
  · iexists _; isplitr
    swap; · iexact H9
    ipureintro
    sl_unfold_run_names
    rw [readAt_tile harg4, readCov_col]
    exact read_writes_col_last _ _ _ _ _

set_option maxHeartbeats 1000000 in
/-- A tile in the last column: the accumulators take the tile's row sums, and each output block is then a copy of its accumulator, whatever it held. -/
theorem kernel0_last (c : Dev nD) (i : grid0.Coords)
    (arg2 : Memref sig .tc .vmem S512x768 .bf16) (harg2 : arg2.IsWhole) (arg3 : Memref sig .tc .vmem S512x768 .bf16) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬cond0_0 i) (hc1 : cond0_1 i)
    (x0 x1 : Vec F S512x768 .bf16) (x2 x3 : Vec F S512x512 .f32) (s8 s9 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay6 i x0 x1 x3 s8) ∗ owns (c : Thread nD τ) arg7 fullShare (k0_pay1 (k0_pay5 i x2) s9) ∗ owns (c : Thread nD τ) arg8 fullShare (k0_pay6 i x0 x1 x3 s8) ∗ owns (c : Thread nD τ) arg9 fullShare (k0_pay1 (k0_pay5 i x2) s9)) -∗ K ⟨⟩))
      ⊢ wp frame (wpE (defs₀ (F := F)) Variants.none c none) E (cc0__pass_a_kernel i arg2 harg2 arg3 harg3 arg4 harg4 arg5 harg5 arg6 harg6 arg7 harg7 arg8 harg8 arg9 harg9) K := by
  simp only [cc0__pass_a_kernel_eq_skeleton]; unfold cc0__pass_a_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg8.eq_unread hf8; obtain rfl := harg9.eq_unread hf9
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]
  · iexists _; isplitr
    swap; · iexact H4
    ipureintro
    sl_unfold_run_names
    rw [readAt_feat harg2, readAt_feat harg3, readAt_tile harg5, readAt_col harg8, readCov_col]
    exact read_write_col _ _ _ _
  isplitl [H5]
  · iexists _; isplitr
    swap; · iexact H5
    ipureintro
    sl_unfold_run_names
    rw [readAt_tile harg4, readAt_col harg9, readCov_col]
    exact read_write_col _ _ _ _
  isplitl [H8]
  · iexists _; isplitr
    swap; · iexact H8
    ipureintro
    sl_unfold_run_names
    rw [readAt_feat harg2, readAt_feat harg3, readAt_tile harg5, readAt_col harg8]
    exact read_write_col _ _ _ _
  · iexists _; isplitr
    swap; · iexact H9
    ipureintro
    sl_unfold_run_names
    rw [readAt_tile harg4, readAt_col harg9]
    exact read_write_col _ _ _ _

end Cert.KernelIdeal.Hand

end
-- ==== Proof.R0Data.lean ====
/-
  The first kernel's pipeline, point by point. Its grid is 16 × 16 tiles of 512 × 512; point t is tile row
  t / 16, tile column t % 16. The two feature windows and the two mask windows are inputs: each holds its block
  of the array it reads at every point. The two column accumulators live in scratch and are carried from point
  to point within a tile row: reset in the first column, then increased by each tile's row sums; what they hold
  after point n is defined by recursion on n. The two output blocks are written only in the last column, as
  copies of the accumulators, and only there are they written back.
-/
import proofs.«111266_j50379966382615_1_alg».proof.Proof.Gen.KernelIdeal.Launch
import proofs.«111266_j50379966382615_1_alg».proof.Proof.Gen.KernelIdeal.Skeleton
import proofs.«111266_j50379966382615_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«111266_j50379966382615_1_alg».proof.Proof.BodyLib
import proofs.«111266_j50379966382615_1_alg».proof.Proof.R0Body
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The staging and scratch memrefs -/

abbrev ms0_0 (t : Fin cfg0.N) : Memref sig .tc .vmem S512x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
/-- The two scratch accumulators: the masked similarities' row sums and the positive mask's. -/
abbrev scM0_0 : Memref sig .tc .vmem S512x1 .f32 := Memref.whole cc0_scratch0
abbrev scM0_1 : Memref sig .tc .vmem S512x1 .f32 := Memref.whole cc0_scratch1

/-- The scoped buffers this kernel never touches (the other kernel's staging buffers and scratch), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- What the region's entry hands the body beside the windows: the two scratch buffers at anything, the untouched scoped buffers, the generator register. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

/-! ## The accumulators, point by point -/

/-- One point's update of the two accumulators from what they held. -/
def step0 (c : Dev nD) (t : Fin cfg0.N) (a : Vec F S512x1 .f32 × Vec F S512x1 .f32) : Vec F S512x1 .f32 × Vec F S512x1 .f32 :=
  (k0_pay6 (grid0.coords t) (iblk0 V c 0 t) (iblk0 V c 1 t) (iblk0 V c 3 t) a.1,
   k0_pay1 (k0_pay5 (grid0.coords t) (iblk0 V c 2 t)) a.2)

/-- What the two accumulators hold after point `n`: in the first column of a tile row the update of zero, elsewhere the update of what the point before left. -/
def acc0 (c : Dev nD) : (n : ℕ) → n < cfg0.N → Vec F S512x1 .f32 × Vec F S512x1 .f32
  | 0, hn => step0 V c ⟨0, hn⟩ (k0_pay2 (F := F), k0_pay3 (F := F))
  | n + 1, hn =>
    if (n + 1) % 16 = 0 then step0 V c ⟨n + 1, hn⟩ (k0_pay2 (F := F), k0_pay3 (F := F))
    else step0 V c ⟨n + 1, hn⟩ (acc0 c n (Nat.lt_of_succ_lt hn))

theorem acc0_first (c : Dev nD) (t : Fin cfg0.N) (h : t.val % 16 = 0) :
    acc0 V c t.val t.isLt = step0 V c t (k0_pay2 (F := F), k0_pay3 (F := F)) := by
  obtain ⟨n, hn⟩ := t
  cases n with
  | zero => rfl
  | succ n => exact if_pos h

theorem acc0_next (c : Dev nD) (t : Fin cfg0.N) (h : ¬t.val % 16 = 0) :
    acc0 V c t.val t.isLt = step0 V c t (acc0 V c (t.val - 1) (Nat.lt_of_le_of_lt (Nat.sub_le _ _) t.isLt)) := by
  obtain ⟨n, hn⟩ := t
  cases n with
  | zero => exact absurd (Nat.zero_mod _) h
  | succ n => exact if_neg h

/-! ## The invariant: the accumulators at what the point before left -/

def Phi0 (c : Dev nD) : (n : ℕ) → n ≤ cfg0.N → sProp 𝕄
  | 0, _ => Pipeline.ΦA spec0 c
  | n + 1, hn => iprop((owns (c : Thread nD τ) scM0_0 fullShare (acc0 V c n hn).1 ∗ owns (c : Thread nD τ) scM0_1 fullShare (acc0 V c n hn).2 ∗ rest0 (F := F) c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop((owns (c : Thread nD τ) scM0_0 fullShare (acc0 V c n hn).1 ∗ owns (c : Thread nD τ) scM0_1 fullShare (acc0 V c n hn).2 ∗ rest0 (F := F) c) ∗ (∃ r, prngReg c r)) := rfl
theorem Phi0_pos (c : Dev nD) (n : ℕ) (h : n ≤ cfg0.N) (hz : n ≠ 0) :
    Phi0 V c n h = iprop((owns (c : Thread nD τ) scM0_0 fullShare (acc0 V c (n - 1) (by omega)).1 ∗ owns (c : Thread nD τ) scM0_1 fullShare (acc0 V c (n - 1) (by omega)).2 ∗ rest0 (F := F) c) ∗ (∃ r, prngReg c r)) := by
  cases n with
  | zero => exact absurd rfl hz
  | succ n => rfl

/-! ## The pipeline's proof data -/

/-- The arrays as the region finds them; after the body each input's buffer at its block, each output's at the
    accumulator it copies; the invariant above; the shared feature array held half and half by its two windows;
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (acc0 V c t.val t.isLt).1
    | ⟨5, _⟩ => (acc0 V c t.val t.isLt).2
  Φ t := Phi0 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A0_eq (c : Dev nD) (w : Fin cfg0.W) : (dat0 V c).A w = V c (Pipeline.arrRef spec0 w) := by
  dsimp only [dat0]
theorem q0_0 (c : Dev nD) : (dat0 V c).q 0 = fullShare.left := by dsimp only [dat0]
theorem q0_1 (c : Dev nD) : (dat0 V c).q 1 = fullShare.right := by dsimp only [dat0]
theorem q0_2 (c : Dev nD) : (dat0 V c).q 2 = fullShare := by dsimp only [dat0]
theorem q0_3 (c : Dev nD) : (dat0 V c).q 3 = fullShare := by dsimp only [dat0]
theorem owed0 (c : Dev nD) (t : Fin (cfg0.N + 1)) : (dat0 V c).owed t = 0 := rfl
theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (acc0 V c t.val t.isLt).1 := by dsimp only [dat0]
theorem after0_5 (c : Dev nD) (t : Fin cfg0.N) : (dat0 V c).after 5 t = (acc0 V c t.val t.isLt).2 := by dsimp only [dat0]

theorem before0_0 (c : Dev nD) (t : Fin cfg0.N) (d) : (dat0 V c).before 0 t d = iblk0 V c 0 t :=
  before0_0_of V (dat0 V c) (A0_eq V c 0) (after0_0 V c) t d
theorem before0_1 (c : Dev nD) (t : Fin cfg0.N) (d) : (dat0 V c).before 1 t d = iblk0 V c 1 t :=
  before0_1_of V (dat0 V c) (A0_eq V c 1) (after0_1 V c) t d
theorem before0_2 (c : Dev nD) (t : Fin cfg0.N) (d) : (dat0 V c).before 2 t d = iblk0 V c 2 t :=
  before0_2_of V (dat0 V c) (A0_eq V c 2) (after0_2 V c) t d
theorem before0_3 (c : Dev nD) (t : Fin cfg0.N) (d) : (dat0 V c).before 3 t d = iblk0 V c 3 t :=
  before0_3_of V (dat0 V c) (A0_eq V c 3) (after0_3 V c) t d

/-! ## Where the output windows are idle: everywhere but the last column, and there they are not written back -/

theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The body obligation -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. Which of the three cases the point is in is decided by its column; the accumulators
    come from the invariant at what the point before left (at anything in the first column, where they are reset)
    and go back at this point's contents; an output block is handed back as found except in the last column. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN : t.val < 256 := lt_of_lt_of_eq t.isLt (show cfg0.N = 256 from N_0)
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1),
      Dat.leavesExact_idle (dat0 V c) 5 t (idleAt0_5 t hc1) (noFlush0_5 t hc1)]
    rw [acc0_first V c t h0]; dsimp only [step0]
    by_cases hz : t.val = 0
    · rw [Phi0_castSucc V c t, Phi0_zero V c _ _ hz, PhiA0_eq]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply (kernel0_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [Phi0_castSucc V c t, Phi0_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply (kernel0_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have hc0 : ¬cond0_0 (grid0.coords t) := fun h => h0 ((hcond0_0 t).mp h)
    rw [acc0_next V c t h0]; dsimp only [step0]
    rw [Phi0_castSucc V c t, Phi0_pos V c _ _ hz]
    by_cases h1 : t.val % 16 = 15
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4]
      rw [show (dat0 V c).leavesExact 5 t = owns (c : Thread nD τ) (ms0_5 t) fullShare ((dat0 V c).after 5 t) from by
        unfold Dat.leavesExact; rw [liveAt0_5 t hc1], after0_5]
      rw [acc0_next V c t h0]; dsimp only [step0]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply (kernel0_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond0_1 (grid0.coords t) := fun h => h1 ((hcond0_1 t).mp h)
      rw [Dat.leavesExact_idle (dat0 V c) 4 t (idleAt0_4 t hc1) (noFlush0_4 t hc1),
        Dat.leavesExact_idle (dat0 V c) 5 t (idleAt0_5 t hc1) (noFlush0_5 t hc1)]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply (kernel0_mid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region's entry hands the body is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the same back, the accumulators' contents forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 256 := N_0; omega), PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end Cert.KernelIdeal.Hand

end
-- ==== Proof.R1Body.lean ====
/-
  One grid point of the second kernel, case by case. A point loads its two feature blocks, its positive-mask
  tile and its row block of the first pass's negative sums, and adds the row sums of the tile of
  -log(sim / neg + eps) * pm * [i ≠ j] into a column accumulator kept in scratch — after resetting it in the
  first column of tiles — and in the last column copies the accumulator into the output block. Each case says
  what every buffer holds afterwards.
-/
import proofs.«111266_j50379966382615_1_alg».proof.Proof.Gen.KernelIdeal.Launch
import proofs.«111266_j50379966382615_1_alg».proof.Proof.Gen.KernelIdeal.Skeleton
import proofs.«111266_j50379966382615_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«111266_j50379966382615_1_alg».proof.Proof.BodyLib
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- A tile in neither the first nor the last column: the accumulator takes the tile's row sums on top of what it held; the output is untouched. -/
theorem kernel1_mid (c : Dev nD) (i : grid1.Coords)
    (arg2 : Memref sig .tc .vmem S512x768 .bf16) (harg2 : arg2.IsWhole) (arg3 : Memref sig .tc .vmem S512x768 .bf16) (harg3 : arg3.IsWhole)
    (arg4 : Memref sig .tc .vmem S512x512 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : ¬cond1_0 i) (hc1 : ¬cond1_1 i)
    (x0 x1 : Vec F S512x768 .bf16) (x2 : Vec F S512x512 .f32) (x3 xo s7 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ owns (c : Thread nD τ) arg7 fullShare s7
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) arg7 fullShare (k1_pay1 s7 (k1_pay3 i x0 x1 x2 x3))) -∗ K ⟨⟩))
      ⊢ wp frame (wpE (defs₀ (F := F)) Variants.none c none) E (cc1__pass_b_kernel i arg2 harg2 arg3 harg3 arg4 harg4 arg5 harg5 arg6 harg6 arg7 harg7) K := by
  simp only [cc1__pass_b_kernel_eq_skeleton]; unfold cc1__pass_b_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H6]; · iexists _; isplitr; · ipureintro; exact harg6.read_unread _
                  iexact H6
  · iexists _; isplitr
    swap; · iexact H7
    ipureintro
    sl_unfold_run_names
    rw [readAt_feat harg2, readAt_feat harg3, readAt_tile harg4, readAt_col harg5, readAt_col harg7]
    exact read_write_col _ _ _ _

set_option maxHeartbeats 1000000 in
/-- A tile in the first column: the accumulator starts again from zero, whatever it held; the output is untouched. -/
theorem kernel1_first (c : Dev nD) (i : grid1.Coords)
    (arg2 : Memref sig .tc .vmem S512x768 .bf16) (harg2 : arg2.IsWhole) (arg3 : Memref sig .tc .vmem S512x768 .bf16) (harg3 : arg3.IsWhole)
    (arg4 : Memref sig .tc .vmem S512x512 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : cond1_0 i) (hc1 : ¬cond1_1 i)
    (x0 x1 : Vec F S512x768 .bf16) (x2 : Vec F S512x512 .f32) (x3 xo : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) arg7 fullShare (k1_pay1 (k1_pay2 (F := F)) (k1_pay3 i x0 x1 x2 x3))) -∗ K ⟨⟩))
      ⊢ wp frame (wpE (defs₀ (F := F)) Variants.none c none) E (cc1__pass_b_kernel i arg2 harg2 arg3 harg3 arg4 harg4 arg5 harg5 arg6 harg6 arg7 harg7) K := by
  simp only [cc1__pass_b_kernel_eq_skeleton]; unfold cc1__pass_b_kernel_skel
  unfold owns
  iintro ⟨⟨%f0, %hf0, H0⟩, ⟨%f1, %hf1, H1⟩, ⟨%f2, %hf2, H2⟩, ⟨%f3, %hf3, H3⟩, ⟨%f6, %hf6, H6⟩, ⟨%d7, %f7, -, H7⟩, Hk⟩
  obtain rfl := harg2.eq_unread hf0; obtain rfl := harg3.eq_unread hf1; obtain rfl := harg4.eq_unread hf2; obtain rfl := harg5.eq_unread hf3
  obtain rfl := harg6.eq_unread hf6
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H6]; · iexists _; isplitr; · ipureintro; exact harg6.read_unread _
                  iexact H6
  · iexists _; isplitr
    swap; · iexact H7
    ipureintro
    sl_unfold_run_names
    rw [readAt_feat harg2, readAt_feat harg3, readAt_tile harg4, readAt_col harg5, readCov_col]
    exact read_writes_col_last _ _ _ _ _

set_option maxHeartbeats 1000000 in
/-- A tile in the last column: the accumulator takes the tile's row sums, and the output block is then a copy of the accumulator, whatever it held. -/
theorem kernel1_last (c : Dev nD) (i : grid1.Coords)
    (arg2 : Memref sig .tc .vmem S512x768 .bf16) (harg2 : arg2.IsWhole) (arg3 : Memref sig .tc .vmem S512x768 .bf16) (harg3 : arg3.IsWhole)
    (arg4 : Memref sig .tc .vmem S512x512 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : ¬cond1_0 i) (hc1 : cond1_1 i)
    (x0 x1 : Vec F S512x768 .bf16) (x2 : Vec F S512x512 .f32) (x3 s7 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare s7
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay1 s7 (k1_pay3 i x0 x1 x2 x3)) ∗ owns (c : Thread nD τ) arg7 fullShare (k1_pay1 s7 (k1_pay3 i x0 x1 x2 x3))) -∗ K ⟨⟩))
      ⊢ wp frame (wpE (defs₀ (F := F)) Variants.none c none) E (cc1__pass_b_kernel i arg2 harg2 arg3 harg3 arg4 harg4 arg5 harg5 arg6 harg6 arg7 harg7) K := by
  simp only [cc1__pass_b_kernel_eq_skeleton]; unfold cc1__pass_b_kernel_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
  obtain rfl := harg2.eq_unread hf0; obtain rfl := harg3.eq_unread hf1; obtain rfl := harg4.eq_unread hf2; obtain rfl := harg5.eq_unread hf3
  obtain rfl := harg7.eq_unread hf7
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H6]
  · iexists _; isplitr
    swap; · iexact H6
    ipureintro
    sl_unfold_run_names
    rw [readAt_feat harg2, readAt_feat harg3, readAt_tile harg4, readAt_col harg5, readAt_col harg7, readCov_col]
    exact read_write_col _ _ _ _
  · iexists _; isplitr
    swap; · iexact H7
    ipureintro
    sl_unfold_run_names
    rw [readAt_feat harg2, readAt_feat harg3, readAt_tile harg4, readAt_col harg5, readAt_col harg7]
    exact read_write_col _ _ _ _

end Cert.KernelIdeal.Hand

end
-- ==== Proof.R1Data.lean ====
/-
  The second kernel's pipeline, point by point. Its grid is 16 × 16 tiles of 512 × 512; point t is tile row
  t / 16, tile column t % 16. The two feature windows, the positive-mask window and the window of the first pass's
  negative sums are inputs: each holds its block of the array it reads at every point (the row blocks — the first
  feature window and the negative sums — are fetched only in the first column and stay in place along the tile row).
  The column accumulator lives in scratch and is carried from point to point within a tile row: reset in the first
  column, then increased by each tile's row sums; what it holds after point n is defined by recursion on n. The
  output block is written only in the last column, as a copy of the accumulator, and only there is it written back.
-/
import proofs.«111266_j50379966382615_1_alg».proof.Proof.Gen.KernelIdeal.Launch
import proofs.«111266_j50379966382615_1_alg».proof.Proof.Gen.KernelIdeal.Skeleton
import proofs.«111266_j50379966382615_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«111266_j50379966382615_1_alg».proof.Proof.BodyLib
import proofs.«111266_j50379966382615_1_alg».proof.Proof.R1Body
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The staging and scratch memrefs -/
abbrev ms1_0 (t : Fin cfg1.N) : Memref sig .tc .vmem S512x768 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x768 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
/-- The scratch accumulator: the row sums of the masked negative log ratios. -/
abbrev scM1_0 : Memref sig .tc .vmem S512x1 .f32 := Memref.whole cc1_scratch0

/-- The scoped buffers this kernel never touches (the other kernel's staging buffers and scratch), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The core's scoped buffers that are no staging buffer of this call, listed with this kernel's own scratch first:
    a separating conjunction over a finite set of buffers does not depend on the order they are listed in. -/
theorem scopedRest1_first (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)) :=
  Pipeline.scopedRest_eq_of_list spec1 c [cc1_scratch0, cc0_stg0_0, cc0_stg0_1, cc0_stg1_0, cc0_stg1_1, cc0_stg2_0, cc0_stg2_1, cc0_stg3_0, cc0_stg3_1, cc0_stg4_0, cc0_stg4_1, cc0_stg5_0, cc0_stg5_1, cc0_scratch0, cc0_scratch1] (by decide) (by decide)

/-- What the region's entry hands the body beside the windows: the scratch buffer at anything, the untouched scoped buffers, the generator register. -/
theorem PhiA1_eq (c : Dev nD) :
    (Pipeline.ΦA spec1 c : sProp 𝕄)
      = iprop(((∃ d, owns (c : Thread nD τ) scM1_0 fullShare d) ∗ rest1 (F := F) c) ∗ (∃ r, prngReg c r)) := by
  unfold Pipeline.ΦA rest1; rw [scopedRest1_first]; simp only [scM1_0, owns_whole]; try rfl

/-! ## The accumulator, point by point -/

/-- One point's update of the accumulator from what it held: the tile's row sums added to it. -/
def step1 (c : Dev nD) (t : Fin cfg1.N) (a : Vec F S512x1 .f32) : Vec F S512x1 .f32 :=
  k1_pay1 a (k1_pay3 (grid1.coords t) (iblk1 V c 0 t) (iblk1 V c 1 t) (iblk1 V c 2 t) (iblk1 V c 3 t))

/-- What the accumulator holds after point `n`: in the first column of a tile row the update of zero, elsewhere the update of what the point before left. -/
def acc1 (c : Dev nD) : (n : ℕ) → n < cfg1.N → Vec F S512x1 .f32
  | 0, hn => step1 V c ⟨0, hn⟩ (k1_pay2 (F := F))
  | n + 1, hn =>
    if (n + 1) % 16 = 0 then step1 V c ⟨n + 1, hn⟩ (k1_pay2 (F := F))
    else step1 V c ⟨n + 1, hn⟩ (acc1 c n (Nat.lt_of_succ_lt hn))

theorem acc1_first (c : Dev nD) (t : Fin cfg1.N) (h : t.val % 16 = 0) :
    acc1 V c t.val t.isLt = step1 V c t (k1_pay2 (F := F)) := by
  obtain ⟨n, hn⟩ := t
  cases n with
  | zero => rfl
  | succ n => exact if_pos h

theorem acc1_next (c : Dev nD) (t : Fin cfg1.N) (h : ¬t.val % 16 = 0) :
    acc1 V c t.val t.isLt = step1 V c t (acc1 V c (t.val - 1) (Nat.lt_of_le_of_lt (Nat.sub_le _ _) t.isLt)) := by
  obtain ⟨n, hn⟩ := t
  cases n with
  | zero => exact absurd (Nat.zero_mod _) h
  | succ n => exact if_neg h

/-! ## The invariant: the accumulator at what the point before left -/

def Phi1 (c : Dev nD) : (n : ℕ) → n ≤ cfg1.N → sProp 𝕄
  | 0, _ => Pipeline.ΦA spec1 c
  | n + 1, hn => iprop((owns (c : Thread nD τ) scM1_0 fullShare (acc1 V c n hn) ∗ rest1 (F := F) c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop((owns (c : Thread nD τ) scM1_0 fullShare (acc1 V c n hn) ∗ rest1 (F := F) c) ∗ (∃ r, prngReg c r)) := rfl
theorem Phi1_pos (c : Dev nD) (n : ℕ) (h : n ≤ cfg1.N) (hz : n ≠ 0) :
    Phi1 V c n h = iprop((owns (c : Thread nD τ) scM1_0 fullShare (acc1 V c (n - 1) (by omega)) ∗ rest1 (F := F) c) ∗ (∃ r, prngReg c r)) := by
  cases n with
  | zero => exact absurd rfl hz
  | succ n => rfl

/-! ## The pipeline's proof data -/

/-- The arrays as the region finds them; after the body each input's buffer at its block, the output's at the
    accumulator it copies; the invariant above; the shared feature array held half and half by its two windows;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := Phi1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A1_eq (c : Dev nD) (w : Fin cfg1.W) : (dat1 V c).A w = V c (Pipeline.arrRef spec1 w) := by
  dsimp only [dat1]
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem owed1 (c : Dev nD) (t : Fin (cfg1.N + 1)) : (dat1 V c).owed t = 0 := rfl
theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]
theorem before1_0 (c : Dev nD) (t : Fin cfg1.N) (d) : (dat1 V c).before 0 t d = iblk1 V c 0 t :=
  before1_0_of V (dat1 V c) (A1_eq V c 0) (after1_0 V c) t d
theorem before1_1 (c : Dev nD) (t : Fin cfg1.N) (d) : (dat1 V c).before 1 t d = iblk1 V c 1 t :=
  before1_1_of V (dat1 V c) (A1_eq V c 1) (after1_1 V c) t d
theorem before1_2 (c : Dev nD) (t : Fin cfg1.N) (d) : (dat1 V c).before 2 t d = iblk1 V c 2 t :=
  before1_2_of V (dat1 V c) (A1_eq V c 2) (after1_2 V c) t d
theorem before1_3 (c : Dev nD) (t : Fin cfg1.N) (d) : (dat1 V c).before 3 t d = iblk1 V c 3 t :=
  before1_3_of V (dat1 V c) (A1_eq V c 3) (after1_3 V c) t d

/-! ## Where the output window is idle: everywhere but the last column, and there it is not written back -/

theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The body obligation -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. Which of the three cases the point is in is decided by its column; the accumulator
    comes from the invariant at what the point before left (at anything in the first column, where it is reset)
    and goes back at this point's contents; the output block is handed back as found except in the last column. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 256 := lt_of_lt_of_eq t.isLt (show cfg1.N = 256 from N_1)
  by_cases h0 : t.val % 16 = 0
  · have h1 : ¬t.val % 16 = 15 := by omega
    have hc0 : cond1_0 (grid1.coords t) := (hcond1_0 t).mpr h0
    have hc1 : ¬cond1_1 (grid1.coords t) := fun h => h1 ((hcond1_1 t).mp h)
    rw [Dat.leavesExact_idle (dat1 V c) 4 t (idleAt1_4 t hc1) (noFlush1_4 t hc1)]
    rw [acc1_first V c t h0]; dsimp only [step1]
    by_cases hz : t.val = 0
    · rw [Phi1_castSucc V c t, Phi1_zero V c _ _ hz, PhiA1_eq]
      iintro ⟨⟨⟨HS, Hr⟩, Hg⟩, Ho, ⟨%d0, H0⟩, ⟨%d1, H1⟩, ⟨%d2, H2⟩, ⟨%d3, H3⟩, ⟨%d4, H4⟩⟩
      iapply (kernel1_first c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
    · rw [Phi1_castSucc V c t, Phi1_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (kernel1_first c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond1_0 (grid1.coords t) := fun h => h0 ((hcond1_0 t).mp h)
    rw [acc1_next V c t h0]; dsimp only [step1]
    rw [Phi1_castSucc V c t, Phi1_pos V c _ _ hz]
    by_cases h1 : t.val % 16 = 15
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [acc1_next V c t h0]; dsimp only [step1]
      iintro ⟨⟨⟨HS, Hr⟩, Hg⟩, Ho, ⟨%d0, H0⟩, ⟨%d1, H1⟩, ⟨%d2, H2⟩, ⟨%d3, H3⟩, ⟨%d4, H4⟩⟩
      iapply (kernel1_last c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idleAt1_4 t hc1) (noFlush1_4 t hc1)]
      iintro ⟨⟨⟨HS, Hr⟩, Hg⟩, Ho, ⟨%d0, H0⟩, ⟨%d1, H1⟩, ⟨%d2, H2⟩, ⟨%d3, H3⟩, ⟨%d4, H4⟩⟩
      iapply (kernel1_mid c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region's entry hands the body is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the same back, the accumulator's contents forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 256 := N_1; omega), PhiA1_eq]
  iintro ⟨⟨HS, Hr⟩, Hg⟩
  isplitl [HS Hr]
  · isplitl [HS]; · iexists _; iexact HS
    iexact Hr
  iexact Hg

end Cert.KernelIdeal.Hand

end
-- ==== Proof.RunAll.lean ====
/-
  The run of @main through its two pallas_calls, whose two feature windows read one array.
  Entering a call, the core's unscoped buffers are split into the call's arrays and the rest; the feature array's full
  share is dealt in two halves, one to each window that reads it, and every other array is held whole. Leaving, the
  halves are joined and the buffers are held again, the call's outputs now at their write-backs and every other buffer
  as it was. Between the items of @main a core holds every unscoped buffer at a valuation: the launch memory, then each
  host stretch applied, then each call's outputs replaced. The run's post says that every weakly fair execution ends,
  without a fault, in a memory that holds each unscoped buffer at the last valuation; the result buffer and the three
  unchanged arguments are read off it.
-/
import proofs.«111266_j50379966382615_1_alg».proof.Proof.Gen.KernelIdeal.Regions
import proofs.«111266_j50379966382615_1_alg».proof.Proof.SharedArrays
import proofs.«111266_j50379966382615_1_alg».proof.Proof.R0Data
import proofs.«111266_j50379966382615_1_alg».proof.Proof.R1Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

/-! ## Entering and leaving a call: the unscoped buffers and the windows' arrays -/

section EnterLeave
variable {c : Dev nD}

/-- ENTRY of call 0. A core's unscoped buffers at a valuation are the call's arrays at the proof data's entry contents
    (read off that valuation) and the unscoped buffers that are no array of the call. -/
theorem enter0 (W : Valuation τ sig (Elt F)) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (hA : ∀ w, dat.A w = W (Pipeline.arrRef spec0 w)) :
    (StableHlo.held (c : Thread nD τ) (Pipeline.ucRefs τ sig) W : sProp 𝕄)
      ⊢ iprop(dat.arrays (dat.arrAt · 0) ∗ Pipeline.unscopedRest spec0 c (fun b => W b)) := by
  rw [← Pipeline.unscopedBufs_held (Ix := Unit) (Name := ℕ) (U := UR sig nD τ) (Lvl := ℕ) c W,
    Pipeline.unscopedBufs_split₀ cfgs 0 winFacts₀0.arr_unscoped c]
  exact sep_mono (arrays0_split dat (fun b => W b) hq0 hq1 hq2 hq3 _ hA) .rfl

/-- EXIT of call 0. The call's arrays at their final contents and the other unscoped buffers as they were are the core's
    unscoped buffers at any valuation that has the arrays at those contents and agrees with the old one elsewhere. -/
theorem leave0 (W W' : Valuation τ sig (Elt F)) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (hF : ∀ w, dat.arrAt w cfg0.N = W' (Pipeline.arrRef spec0 w))
    (hrest : ∀ b : Ref sig .tc, b ∉ Finset.univ.image (Pipeline.arrRef spec0) → W' b = W b) :
    iprop(dat.arrays (dat.arrAt · cfg0.N) ∗ Pipeline.unscopedRest spec0 c (fun b => W b))
      ⊢ (StableHlo.held (c : Thread nD τ) (Pipeline.ucRefs τ sig) W' : sProp 𝕄) := by
  rw [← Pipeline.unscopedBufs_held (Ix := Unit) (Name := ℕ) (U := UR sig nD τ) (Lvl := ℕ) c W',
    Pipeline.unscopedBufs_split₀ cfgs 0 winFacts₀0.arr_unscoped c]
  refine sep_mono (arrays0_join dat hq0 hq1 hq2 hq3 _ (fun b => W' b) hF) (Entails.of_eq ?_)
  unfold Pipeline.unscopedRest
  exact bigSep_congr fun b hb => by beta_reduce; rw [hrest b (Finset.mem_sdiff.mp hb).2]

/-- ENTRY of call 1, as `enter0`. -/
theorem enter1 (W : Valuation τ sig (Elt F)) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (hA : ∀ w, dat.A w = W (Pipeline.arrRef spec1 w)) :
    (StableHlo.held (c : Thread nD τ) (Pipeline.ucRefs τ sig) W : sProp 𝕄)
      ⊢ iprop(dat.arrays (dat.arrAt · 0) ∗ Pipeline.unscopedRest spec1 c (fun b => W b)) := by
  rw [← Pipeline.unscopedBufs_held (Ix := Unit) (Name := ℕ) (U := UR sig nD τ) (Lvl := ℕ) c W,
    Pipeline.unscopedBufs_split₀ cfgs 1 winFacts₀1.arr_unscoped c]
  exact sep_mono (arrays1_split dat (fun b => W b) hq0 hq1 hq2 hq3 _ hA) .rfl

/-- EXIT of call 1, as `leave0`. -/
theorem leave1 (W W' : Valuation τ sig (Elt F)) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (hF : ∀ w, dat.arrAt w cfg1.N = W' (Pipeline.arrRef spec1 w))
    (hrest : ∀ b : Ref sig .tc, b ∉ Finset.univ.image (Pipeline.arrRef spec1) → W' b = W b) :
    iprop(dat.arrays (dat.arrAt · cfg1.N) ∗ Pipeline.unscopedRest spec1 c (fun b => W b))
      ⊢ (StableHlo.held (c : Thread nD τ) (Pipeline.ucRefs τ sig) W' : sProp 𝕄) := by
  rw [← Pipeline.unscopedBufs_held (Ix := Unit) (Name := ℕ) (U := UR sig nD τ) (Lvl := ℕ) c W',
    Pipeline.unscopedBufs_split₀ cfgs 1 winFacts₀1.arr_unscoped c]
  refine sep_mono (arrays1_join dat hq0 hq1 hq2 hq3 _ (fun b => W' b) hF) (Entails.of_eq ?_)
  unfold Pipeline.unscopedRest
  exact bigSep_congr fun b hb => by beta_reduce; rw [hrest b (Finset.mem_sdiff.mp hb).2]

end EnterLeave

/-! ## What the two calls leave -/

variable (m : (ℓ : Loc nD τ sig) → Buf (Elt F) ℓ)

/-- The contents call 0 is entered from, read at the TensorCore's references. -/
abbrev V2r : (c : Dev nD) → (b : Ref sig .tc) → Buf (Elt F) ((c : Thread nD τ).loc b) := fun c b => V2 m c b
/-- The contents call 1 is entered from, over what call 0 left. -/
abbrev V5r (o : Outs (F := F)) : (c : Dev nD) → (b : Ref sig .tc) → Buf (Elt F) ((c : Thread nD τ).loc b) := fun c b => V5 m o c b

/-- What call 0 leaves in its two outputs: each output array after every write-back of the grid. -/
def outs0 : Outs (F := F) := fun _ r c =>
  if h : r = main_v6_0 then h ▸ ((dat0 (V2r m) c).arrAt 4 cfg0.N : Buf (Elt F) ((c : Thread nD τ).loc main_v6_0))
  else if h : r = main_v6_1 then h ▸ ((dat0 (V2r m) c).arrAt 5 cfg0.N : Buf (Elt F) ((c : Thread nD τ).loc main_v6_1))
  else V2r m c r

/-- What the two calls leave: call 0's two outputs, and call 1's output after every write-back of its grid, call 1
    entered from the contents over call 0's outputs. -/
def outs : Outs (F := F) := fun j r c =>
  if h : r = main_v10 then h ▸ ((dat1 (V5r m (outs0 m)) c).arrAt 4 cfg1.N : Buf (Elt F) ((c : Thread nD τ).loc main_v10))
  else outs0 m j r c

theorem outs_v6_0 (c : Dev nD) : outs m 3 main_v6_0 c = (dat0 (V2r m) c).arrAt 4 cfg0.N := by
  unfold outs outs0; rw [dif_neg (by decide), dif_pos rfl]
theorem outs_v6_1 (c : Dev nD) : outs m 3 main_v6_1 c = (dat0 (V2r m) c).arrAt 5 cfg0.N := by
  unfold outs outs0; rw [dif_neg (by decide), dif_neg (by decide), dif_pos rfl]

/-- Call 1's entry contents read only call 0's outputs of `outs`. -/
theorem V3_outs (c : Dev nD) : V3 m (outs m) c = V3 m (outs0 m) c := by
  have h0 : outs m 3 main_v6_0 c = outs0 m 3 main_v6_0 c := dif_neg (by decide)
  have h1 : outs m 3 main_v6_1 c = outs0 m 3 main_v6_1 c := dif_neg (by decide)
  unfold V3; rw [h0, h1]
theorem V5r_outs : V5r m (outs m) = V5r m (outs0 m) := by
  funext c b
  show StableHlo.after hostOps1_1 (StableHlo.after hostOps1 (V3 m (outs m) c)) b = StableHlo.after hostOps1_1 (StableHlo.after hostOps1 (V3 m (outs0 m) c)) b
  rw [V3_outs]

theorem outs_v10 (c : Dev nD) : outs m 6 main_v10 c = (dat1 (V5r m (outs m)) c).arrAt 4 cfg1.N := by
  rw [V5r_outs]; unfold outs; rw [dif_pos rfl]

/-- After call 0 its two outputs hold what `outs` names. -/
theorem V3_v6_0 (c : Dev nD) : V3 m (outs m) c main_v6_0 = (dat0 (V2r m) c).arrAt 4 cfg0.N := by
  unfold V3
  rw [Function.update_of_ne (StableHlo.devRef_ne_of_ne (by decide) : (Proc.devRef .tc main_v6_0 : DevRef τ sig) ≠ Proc.devRef .tc main_v6_1),
    Function.update_self, outs_v6_0]
theorem V3_v6_1 (c : Dev nD) : V3 m (outs m) c main_v6_1 = (dat0 (V2r m) c).arrAt 5 cfg0.N := by
  unfold V3; rw [Function.update_self, outs_v6_1]
/-- After call 1 its output holds what `outs` names. -/
theorem V6_v10 (c : Dev nD) : V6 m (outs m) c main_v10 = (dat1 (V5r m (outs m)) c).arrAt 4 cfg1.N := by
  unfold V6; rw [Function.update_self, outs_v10]

/-! ## The arrays at each call's exit -/

/-- At call 0's exit every array of the call holds what the valuation after it says: an input what it held at entry,
    an output its write-backs. -/
theorem hF0 (c : Dev nD) : ∀ w, (dat0 (V2r m) c).arrAt w cfg0.N = V3 m (outs m) c (Pipeline.arrRef spec0 w)
  | 0 => ((dat0 (V2r m) c).arrAt_in 0 rfl _).trans ((A0_eq (V2r m) c 0).trans (V3_of m (outs m) c main_v5 (by decide)).symm)
  | 1 => ((dat0 (V2r m) c).arrAt_in 1 rfl _).trans ((A0_eq (V2r m) c 1).trans (V3_of m (outs m) c main_v5 (by decide)).symm)
  | 2 => ((dat0 (V2r m) c).arrAt_in 2 rfl _).trans ((A0_eq (V2r m) c 2).trans (V3_of m (outs m) c main_arg1 (by decide)).symm)
  | 3 => ((dat0 (V2r m) c).arrAt_in 3 rfl _).trans ((A0_eq (V2r m) c 3).trans (V3_of m (outs m) c main_arg2 (by decide)).symm)
  | 4 => (V3_v6_0 m c).symm
  | 5 => (V3_v6_1 m c).symm
  | ⟨_ + 6, h⟩ => absurd h (Nat.not_lt.2 (Nat.le_add_left _ _))

/-- Off call 0's arrays nothing changed. -/
theorem hrest0 (c : Dev nD) (b : Ref sig .tc) (hb : b ∉ Finset.univ.image (Pipeline.arrRef spec0)) : V3 m (outs m) c b = V2 m c b := by
  rw [arrImage0, List.mem_toFinset] at hb
  refine V3_of m (outs m) c b fun h => hb ?_
  rcases List.mem_cons.mp h with rfl | h
  · decide
  rcases List.mem_cons.mp h with rfl | h
  · decide
  · exact absurd h List.not_mem_nil

/-- At call 1's exit every array of the call holds what the valuation after it says. -/
theorem hF1 (c : Dev nD) : ∀ w, (dat1 (V5r m (outs m)) c).arrAt w cfg1.N = V6 m (outs m) c (Pipeline.arrRef spec1 w)
  | 0 => ((dat1 (V5r m (outs m)) c).arrAt_in 0 rfl _).trans ((A1_eq (V5r m (outs m)) c 0).trans (V6_of m (outs m) c main_v5 (by decide)).symm)
  | 1 => ((dat1 (V5r m (outs m)) c).arrAt_in 1 rfl _).trans ((A1_eq (V5r m (outs m)) c 1).trans (V6_of m (outs m) c main_v5 (by decide)).symm)
  | 2 => ((dat1 (V5r m (outs m)) c).arrAt_in 2 rfl _).trans ((A1_eq (V5r m (outs m)) c 2).trans (V6_of m (outs m) c main_arg1 (by decide)).symm)
  | 3 => ((dat1 (V5r m (outs m)) c).arrAt_in 3 rfl _).trans ((A1_eq (V5r m (outs m)) c 3).trans (V6_of m (outs m) c main_v6_0 (by decide)).symm)
  | 4 => (V6_v10 m c).symm
  | ⟨_ + 5, h⟩ => absurd h (Nat.not_lt.2 (Nat.le_add_left _ _))

/-- Off call 1's arrays nothing changed. -/
theorem hrest1 (c : Dev nD) (b : Ref sig .tc) (hb : b ∉ Finset.univ.image (Pipeline.arrRef spec1)) : V6 m (outs m) c b = V5 m (outs m) c b := by
  rw [arrImage1, List.mem_toFinset] at hb
  refine V6_of m (outs m) c b fun h => hb ?_
  rcases List.mem_cons.mp h with rfl | h
  · decide
  · exact absurd h List.not_mem_nil

/-! ## The proof data family and the thread state -/

/-- Both calls' proof data, each at the contents its call is entered from: a literal match on the call. -/
def pdats : (p : Fin 2) → (c : Dev nD) → Dat τ (Elt F) Unit ℕ (UR sig nD τ) ℕ (cfgs p) c
  | ⟨0, _⟩ => fun c => dat0 (V2r m) c
  | ⟨1, _⟩ => fun c => dat1 (V5r m (outs m)) c

/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- The same between any two items. -/
abbrev E : Fin 3 → Dev nD → sProp 𝕄 := fun _ c => R (F := F) c

/-! ## The two calls as segments -/

/-- No prefetched table: the empty conjunction. -/
theorem prefHeld_none (c : Dev nD) (q) (v) :
    (Pipeline.prefHeld (Ix := Unit) (Name := ℕ) (U := UR sig nD τ) (Lvl := ℕ) (Val := Elt F) Pipeline.Prefetch.none c q v : sProp 𝕄) = BI.emp := by
  unfold Pipeline.prefHeld; rw [show (Finset.univ : Finset (Fin 0)) = ∅ from rfl, BI.bigSep_empty]

-- a library lemma stated over the pinned configuration unifies with the printed one only when unification may unfold
-- plain definitions in a metavariable's type
set_option backward.isDefEq.respectTransparency.types false in
/-- CALL 0 over the thread state: entered from every unscoped buffer at the contents after the second host stretch, left
    with its two outputs at their write-backs. The arrays are split out of the unscoped buffers (the shared feature array
    in two halves) and put back at the exit; the generator register goes into the invariant and comes back; nothing is owed. -/
def reg0 : RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (body_obligation0 (V2r m) c).loose
  hwaits := Pipeline.hwaits_of_owed_zero _ _ _ _ L lv 0 fun c t => owed0 (V2r m) c t
  pre c := iprop(StableHlo.held (c : Thread nD τ) (Pipeline.ucRefs τ sig) (V2 m c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V2 m c b)
  hentry c := by
    rw [Pipeline.ownSems0_none]
    have hsplit := enter0 (c := c) (V2 m c) (dat0 (V2r m) c) (q0_0 _ c) (q0_1 _ c) (q0_2 _ c) (q0_3 _ c) (A0_eq (V2r m) c)
    iintro ⟨⟨Hub, Hp, HO⟩, -, -⟩
    ihave H := hsplit $$ Hub
    icases H with ⟨Ha, Hrest⟩
    imodintro
    isplitl [Ha]; · iexact Ha
    isplitr; · rw [prefHeld_none]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V2r m) c)
    unfold Pipeline.ΦA
    iintro ⟨Hp, -, Hr⟩
    isplitl [Hr]; · iexact Hr
    iexact Hp
  hout c := by
    rw [Pipeline.ownSems0_none]
    refine (hout0 (V2r m) c).trans ?_
    unfold Pipeline.ΦA
    iintro ⟨Hr, Hp⟩
    isplitl [Hp]; · iexact Hp
    isplitr; · iempintro
    iexact Hr
  hexit c := by
    have hjoin := leave0 (c := c) (V2 m c) (V3 m (outs m) c) (dat0 (V2r m) c) (q0_0 _ c) (q0_1 _ c) (q0_2 _ c) (q0_3 _ c) (hF0 m c) (hrest0 m c)
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- as for call 0
set_option backward.isDefEq.respectTransparency.types false in
/-- CALL 1 over the thread state: entered from every unscoped buffer at the contents after the fourth host stretch (which
    read call 0's outputs), left with its output at its write-backs. As call 0: the arrays split out and put back, the
    generator register through the invariant, nothing owed. -/
def reg1 : RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (body_obligation1 (V5r m (outs m)) c).loose
  hwaits := Pipeline.hwaits_of_owed_zero _ _ _ _ L lv 1 fun c t => owed1 (V5r m (outs m)) c t
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V5 m (outs m) c b)
  hentry c := by
    rw [Pipeline.ownSems0_none]
    have hsplit := enter1 (c := c) (V5 m (outs m) c) (dat1 (V5r m (outs m)) c) (q1_0 _ c) (q1_1 _ c) (q1_2 _ c) (q1_3 _ c) (A1_eq (V5r m (outs m)) c)
    iintro ⟨⟨Hub, Hp, HO⟩, -, -⟩
    ihave H := hsplit $$ Hub
    icases H with ⟨Ha, Hrest⟩
    imodintro
    isplitl [Ha]; · iexact Ha
    isplitr; · rw [prefHeld_none]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V5r m (outs m)) c)
    unfold Pipeline.ΦA
    iintro ⟨Hp, -, Hr⟩
    isplitl [Hr]; · iexact Hr
    iexact Hp
  hout c := by
    rw [Pipeline.ownSems0_none]
    refine (hout1 (V5r m (outs m)) c).trans ?_
    unfold Pipeline.ΦA
    iintro ⟨Hr, Hp⟩
    isplitl [Hp]; · iexact Hp
    isplitr; · iempintro
    iexact Hr
  hexit c := by
    have hjoin := leave1 (c := c) (V5 m (outs m) c) (V6 m (outs m) c) (dat1 (V5r m (outs m)) c) (q1_0 _ c) (q1_1 _ c) (q1_2 _ c) (q1_3 _ c) (hF1 m c) (hrest1 m c)
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run of @main -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last item's state regrouped: the buffers and the generator register, beside the core owing nothing. -/
theorem last_regroup (c : Dev nD) (W : Valuation τ sig (Elt F)) :
    (iprop(StableHlo.held (c : Thread nD τ) (Pipeline.ucRefs τ sig) W ∗ R c) : sProp 𝕄)
      ⊢ iprop((StableHlo.held (c : Thread nD τ) (Pipeline.ucRefs τ sig) W ∗ ∃ r, prngReg c r) ∗ ∃ W', owes (c : Thread nD τ) (0 : CellTallies nD τ sig Unit) W') := by
  iintro ⟨Hh, Hp, HO⟩
  isplitl [Hh Hp]
  · isplitl [Hh]; · iexact Hh
    iexact Hp
  iexact HO

-- the launch theorem's implicit arguments are found by unifying its conclusion with this one, which takes unfolding
-- plain definitions in a metavariable's type
set_option backward.isDefEq.respectTransparency.types false in
/-- THE RUN, at any post that follows from the last valuation. From any memory with zero counters every weakly fair
    execution of @main terminates, nothing faulting, and in every final memory each unscoped buffer of each core holds
    what the last valuation says: the launch over the seven items (five host stretches, the two calls), the thread
    states chaining by name, the last one read against the final state. -/
theorem run_post (ρ : Dev nD → PrngReg) {Q : PUnit × MemSt nD τ sig (Elt F) → Prop}
    (hQ : ∀ s : MemSt nD τ sig (Elt F), (∀ c : Dev nD, ∀ b ∈ Pipeline.ucRefs τ sig, s.mem ((c : Thread nD τ).1, b) = V7 m (outs m) c b) → Q (⟨⟩, s)) :
    θ_run defs (onTc (τ := τ) (main (F := F))) ⟨m, fun _ => 0, ρ⟩ Q := by
  refine Pipeline.θ_run_regions_kit_dev (pcfgs (F := F)) adm (pdats m) () cellOf_inj emb₁ defs₀ Variants.none L lv m ρ main
    (segs m (outs m) Variants.none L lv E () (pdats m) (reg0 m) (reg1 m))
    (fun c Q => by
      rewrite [main_chain c, Seg.run_eq_chain,
        show (segs m (outs m) Variants.none L lv E () (pdats m) (reg0 m) (reg1 m) c).map Seg.prog = [
          StableHlo.seq hostOps0,
          StableHlo.seq hostOps0_1,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ R c))
    (Tₙ := fun c => iprop(StableHlo.held (c : Thread nD τ) (Pipeline.ucRefs τ sig) (V7 m (outs m) c) ∗ ∃ r, prngReg c r))
    (hch := fun c => ⟨.rfl, .rfl, .rfl, .rfl, .rfl, .rfl, .rfl, last_regroup c _⟩)
    (hinit := ?_)
    (QY := fun c s => ∀ b ∈ Pipeline.ucRefs τ sig, s.mem ((c : Thread nD τ).1, b) = V7 m (outs m) c b)
    (hfin := fun c s' => ?_) (hQ := hQ)
  · -- the launch element is the pipeline library's own; no ghost resource of the certificate's
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch, core by core: the unscoped buffers are held at the launch contents
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨⟨Hh, -⟩, HSI⟩
    unfold StableHlo.held
    imodintro
    iapply (pointsTo_read_all (Pipeline.ucRefs τ sig) (fun b => ((c : Thread nD τ).1, b)) (V7 m (outs m) c) s')
    isplitl [Hh] <;> iassumption

/-- THE RUN: every final memory holds each unscoped buffer at the last valuation. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V7 m (outs m) c b) :=
  run_post m ρ fun _ h => h

/-- THE RESULT AND THE FRAME: the result buffer ends at what the last valuation says, the three arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v15) = V7 m (outs m) c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_post m ρ fun s h c =>
    ⟨h c _ (mem_uc main_v15 (by decide)),
     (h c _ (mem_uc main_arg0 (by decide))).trans (V7_main_arg0 m (outs m) c),
     (h c _ (mem_uc main_arg1 (by decide))).trans (V7_main_arg1 m (outs m) c),
     (h c _ (mem_uc main_arg2 (by decide))).trans (V7_main_arg2 m (outs m) c)⟩

/-- THE FRAME, at any float instance: the three argument arrays end as launched — no host stretch writes one, no call has
    one for an output. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_post m ρ fun s h c =>
    ⟨(h c _ (mem_uc main_arg0 (by decide))).trans (V7_main_arg0 m (outs m) c),
     (h c _ (mem_uc main_arg1 (by decide))).trans (V7_main_arg1 m (outs m) c),
     (h c _ (mem_uc main_arg2 (by decide))).trans (V7_main_arg2 m (outs m) c)⟩

end Cert.KernelIdeal.Hand

end
-- ==== Proof.KSharedArrays.lean ====
/-
  Two windows of each pallas_call read one array, the normalized features. On entering a call the buffers behind
  its windows — each distinct buffer once, held whole — become the windows' arrays: the shared array's full share is
  dealt in two halves, the left to the first window and the right to the second; every other array is held whole.
  On leaving, the two halves are joined again.
-/
import proofs.«111266_j50379966382615_1_alg».proof.Proof.Gen.Kernel.Launch
import proofs.«111266_j50379966382615_1_alg».proof.Proof.Gen.Kernel.Skeleton
import proofs.«111266_j50379966382615_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD}

/-- The distinct buffers behind pipeline 0's six windows: the normalized features (read by two windows), the two
    masks, and the two row sums it writes. -/
theorem arrImage0 : (Finset.univ.image (Pipeline.arrRef spec0)) = [main_v5, main_arg1, main_arg2, main_v6_0, main_v6_1].toFinset := by decide
/-- The distinct buffers behind pipeline 1's five windows. -/
theorem arrImage1 : (Finset.univ.image (Pipeline.arrRef spec1)) = [main_v5, main_arg1, main_v6_0, main_v10].toFinset := by decide

section Shares0
variable (dat : Dat τ (Elt F) Unit ℕ (UR sig nD τ) ℕ cfg0 c)

theorem share0_0 {q} (h : dat.q 0 = q) : dat.share 0 = q := (if_neg (by decide)).trans h
theorem share0_1 {q} (h : dat.q 1 = q) : dat.share 1 = q := (if_neg (by decide)).trans h
theorem share0_2 {q} (h : dat.q 2 = q) : dat.share 2 = q := (if_neg (by decide)).trans h
theorem share0_3 {q} (h : dat.q 3 = q) : dat.share 3 = q := (if_neg (by decide)).trans h
theorem share0_4 : dat.share 4 = fullShare := if_pos (by decide)
theorem share0_5 : dat.share 5 = fullShare := if_pos (by decide)

/-- Pipeline 0's arrays, window by window: the shared feature array at its two half shares, every other array whole. -/
theorem arrays0_eq (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) :
    (dat.arrays Fa : sProp 𝕄) = iprop(((c : Thread nD τ).loc main_v5 ↦{fullShare.left} V main_v5) ∗ ((c : Thread nD τ).loc main_v5 ↦{fullShare.right} V main_v5)
      ∗ ((c : Thread nD τ).loc main_arg1 ↦{fullShare} V main_arg1) ∗ ((c : Thread nD τ).loc main_arg2 ↦{fullShare} V main_arg2)
      ∗ ((c : Thread nD τ).loc main_v6_0 ↦{fullShare} V main_v6_0) ∗ ((c : Thread nD τ).loc main_v6_1 ↦{fullShare} V main_v6_1)) := by
  unfold Dat.arrays
  rw [bigSep_W0, share0_0 dat hq0, share0_1 dat hq1, share0_2 dat hq2, share0_3 dat hq3, share0_4 dat, share0_5 dat,
    hF 0, hF 1, hF 2, hF 3, hF 4, hF 5,
    show (cfg0.win 0).arr.view.set = Finset.univ from (arr_whole0 0).set_eq_univ,
    show (cfg0.win 2).arr.view.set = Finset.univ from (arr_whole0 2).set_eq_univ,
    show (cfg0.win 3).arr.view.set = Finset.univ from (arr_whole0 3).set_eq_univ,
    show (cfg0.win 4).arr.view.set = Finset.univ from (arr_whole0 4).set_eq_univ,
    show (cfg0.win 5).arr.view.set = Finset.univ from (arr_whole0 5).set_eq_univ]

end Shares0

/-- The distinct buffers behind pipeline 0's windows, one by one. -/
theorem arrBufs0_eq (V : (b : Ref sig .tc) → Buf (Elt F) ((c : Thread nD τ).loc b)) :
    (Pipeline.arrBufs spec0 c V : sProp 𝕄) = iprop(((c : Thread nD τ).loc main_v5 ↦{fullShare} V main_v5)
      ∗ ((c : Thread nD τ).loc main_arg1 ↦{fullShare} V main_arg1) ∗ ((c : Thread nD τ).loc main_arg2 ↦{fullShare} V main_arg2)
      ∗ ((c : Thread nD τ).loc main_v6_0 ↦{fullShare} V main_v6_0) ∗ ((c : Thread nD τ).loc main_v6_1 ↦{fullShare} V main_v6_1)) :=
  bigSep_eq_bigSepL_of_eq [main_v5, main_arg1, main_arg2, main_v6_0, main_v6_1] arrImage0 (by decide) _

/-- ENTRY of pipeline 0: the distinct buffers behind its windows, each whole, are its arrays — the feature array's
    full share dealt in halves to the two windows that read it. -/
theorem arrays0_split (dat : Dat τ (Elt F) Unit ℕ (UR sig nD τ) ℕ cfg0 c)
    (V : (b : Ref sig .tc) → Buf (Elt F) ((c : Thread nD τ).loc b))
    (hq0 : dat.q 0 = fullShare.left) (hq1 : dat.q 1 = fullShare.right) (hq2 : dat.q 2 = fullShare) (hq3 : dat.q 3 = fullShare)
    (Fa : (w : Fin cfg0.W) → Buf (Elt F) ((cfg0.win w).arr.view.loc (c : Thread nD τ)))
    (hF : ∀ w, Fa w = V (Pipeline.arrRef spec0 w)) :
    (Pipeline.arrBufs spec0 c V : sProp 𝕄) ⊢ dat.arrays Fa := by
  rw [arrays0_eq dat hq0 hq1 hq2 hq3 V Fa hF, arrBufs0_eq]
  iintro ⟨H5, H1, H2, H60, H61⟩
  ihave H5' := (pointsTo_share (PosShare.mem_left_op_right fullShare)).1 $$ H5
  icases H5' with ⟨H5l, H5r⟩
  isplitl [H5l]; · iexact H5l
  isplitl [H5r]; · iexact H5r
  isplitl [H1]; · iexact H1
  isplitl [H2]; · iexact H2
  isplitl [H60]; · iexact H60
  iexact H61

/-- EXIT of pipeline 0: its arrays, the two halves of the feature array joined, are the distinct buffers behind its
    windows, each whole. -/
theorem arrays0_join (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (Fa : (w : Fin cfg0.W) → Buf (Elt F) ((cfg0.win w).arr.view.loc (c : Thread nD τ)))
    (V' : (b : Ref sig .tc) → Buf (Elt F) ((c : Thread nD τ).loc b))
    (hF : ∀ w, Fa w = V' (Pipeline.arrRef spec0 w)) :
    dat.arrays Fa ⊢ (Pipeline.arrBufs spec0 c V' : sProp 𝕄) := by
  rw [arrays0_eq dat hq0 hq1 hq2 hq3 V' Fa hF, arrBufs0_eq]
  iintro ⟨H5l, H5r, H1, H2, H60, H61⟩
  ihave H5 := (pointsTo_share (PosShare.mem_left_op_right fullShare)).2 $$ [H5l H5r]
  · isplitl [H5l]; · iexact H5l
    iexact H5r
  isplitl [H5]; · iexact H5
  isplitl [H1]; · iexact H1
  isplitl [H2]; · iexact H2
  isplitl [H60]; · iexact H60
  iexact H61

section Shares1
variable (dat : Dat τ (Elt F) Unit ℕ (UR sig nD τ) ℕ cfg1 c)

theorem share1_0 {q} (h : dat.q 0 = q) : dat.share 0 = q := (if_neg (by decide)).trans h
theorem share1_1 {q} (h : dat.q 1 = q) : dat.share 1 = q := (if_neg (by decide)).trans h
theorem share1_2 {q} (h : dat.q 2 = q) : dat.share 2 = q := (if_neg (by decide)).trans h
theorem share1_3 {q} (h : dat.q 3 = q) : dat.share 3 = q := (if_neg (by decide)).trans h
theorem share1_4 : dat.share 4 = fullShare := if_pos (by decide)

/-- Pipeline 1's arrays, window by window: the shared feature array at its two half shares, every other array whole. -/
theorem arrays1_eq (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    (dat.arrays Fa : sProp 𝕄) = iprop(((c : Thread nD τ).loc main_v5 ↦{fullShare.left} V main_v5) ∗ ((c : Thread nD τ).loc main_v5 ↦{fullShare.right} V main_v5)
      ∗ ((c : Thread nD τ).loc main_arg1 ↦{fullShare} V main_arg1) ∗ ((c : Thread nD τ).loc main_v6_0 ↦{fullShare} V main_v6_0)
      ∗ ((c : Thread nD τ).loc main_v10 ↦{fullShare} V main_v10)) := by
  unfold Dat.arrays
  rw [bigSep_W1, share1_0 dat hq0, share1_1 dat hq1, share1_2 dat hq2, share1_3 dat hq3, share1_4 dat,
    hF 0, hF 1, hF 2, hF 3, hF 4,
    show (cfg1.win 0).arr.view.set = Finset.univ from (arr_whole1 0).set_eq_univ,
    show (cfg1.win 2).arr.view.set = Finset.univ from (arr_whole1 2).set_eq_univ,
    show (cfg1.win 3).arr.view.set = Finset.univ from (arr_whole1 3).set_eq_univ,
    show (cfg1.win 4).arr.view.set = Finset.univ from (arr_whole1 4).set_eq_univ]

end Shares1

/-- The distinct buffers behind pipeline 1's windows, one by one. -/
theorem arrBufs1_eq (V : (b : Ref sig .tc) → Buf (Elt F) ((c : Thread nD τ).loc b)) :
    (Pipeline.arrBufs spec1 c V : sProp 𝕄) = iprop(((c : Thread nD τ).loc main_v5 ↦{fullShare} V main_v5)
      ∗ ((c : Thread nD τ).loc main_arg1 ↦{fullShare} V main_arg1)
      ∗ ((c : Thread nD τ).loc main_v6_0 ↦{fullShare} V main_v6_0) ∗ ((c : Thread nD τ).loc main_v10 ↦{fullShare} V main_v10)) :=
  bigSep_eq_bigSepL_of_eq [main_v5, main_arg1, main_v6_0, main_v10] arrImage1 (by decide) _

/-- ENTRY of pipeline 1: the distinct buffers behind its windows, each whole, are its arrays — the feature array's
    full share dealt in halves to the two windows that read it. -/
theorem arrays1_split (dat : Dat τ (Elt F) Unit ℕ (UR sig nD τ) ℕ cfg1 c)
    (V : (b : Ref sig .tc) → Buf (Elt F) ((c : Thread nD τ).loc b))
    (hq0 : dat.q 0 = fullShare.left) (hq1 : dat.q 1 = fullShare.right) (hq2 : dat.q 2 = fullShare) (hq3 : dat.q 3 = fullShare)
    (Fa : (w : Fin cfg1.W) → Buf (Elt F) ((cfg1.win w).arr.view.loc (c : Thread nD τ)))
    (hF : ∀ w, Fa w = V (Pipeline.arrRef spec1 w)) :
    (Pipeline.arrBufs spec1 c V : sProp 𝕄) ⊢ dat.arrays Fa := by
  rw [arrays1_eq dat hq0 hq1 hq2 hq3 V Fa hF]
  rw [arrBufs1_eq]
  iintro ⟨H5, H1, H60, H10⟩
  ihave H5' := (pointsTo_share (PosShare.mem_left_op_right fullShare)).1 $$ H5
  icases H5' with ⟨H5l, H5r⟩
  isplitl [H5l]; · iexact H5l
  isplitl [H5r]; · iexact H5r
  isplitl [H1]; · iexact H1
  isplitl [H60]; · iexact H60
  iexact H10

/-- EXIT of pipeline 1: its arrays, the two halves of the feature array joined, are the distinct buffers behind its
    windows, each whole. -/
theorem arrays1_join (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (Fa : (w : Fin cfg1.W) → Buf (Elt F) ((cfg1.win w).arr.view.loc (c : Thread nD τ)))
    (V' : (b : Ref sig .tc) → Buf (Elt F) ((c : Thread nD τ).loc b))
    (hF : ∀ w, Fa w = V' (Pipeline.arrRef spec1 w)) :
    dat.arrays Fa ⊢ (Pipeline.arrBufs spec1 c V' : sProp 𝕄) := by
  rw [arrays1_eq dat hq0 hq1 hq2 hq3 V' Fa hF]
  rw [arrBufs1_eq]
  iintro ⟨H5l, H5r, H1, H60, H10⟩
  ihave H5 := (pointsTo_share (PosShare.mem_left_op_right fullShare)).2 $$ [H5l H5r]
  · isplitl [H5l]; · iexact H5l
    iexact H5r
  isplitl [H5]; · iexact H5
  isplitl [H1]; · iexact H1
  isplitl [H60]; · iexact H60
  iexact H10

end Cert.Kernel.Hand

end
-- ==== Proof.KBodyLib.lean ====
/-
  What every grid point's run of the two kernel bodies shares: a whole-block store read back is its payload,
  a whole-block load of a buffer's contents is the contents, and the two branch conditions of each body
  (the first column of tiles resets the accumulators, the last column writes them out).
-/
import proofs.«111266_j50379966382615_1_alg».proof.Proof.Gen.Kernel.Launch
import proofs.«111266_j50379966382615_1_alg».proof.Proof.Gen.Kernel.Skeleton
import proofs.«111266_j50379966382615_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Zero offsets on two axes, as the printed rectangles spell them. -/
theorem hz_col : (![0, 0] : Fin S512x1.rank → Nat) = fun _ => 0 := by
  funext a; fin_cases a <;> rfl
theorem hz_feat : (![0, 0] : Fin S512x768.rank → Nat) = fun _ => 0 := by
  funext a; fin_cases a <;> rfl
theorem hz_tile : (![0, 0] : Fin S512x512.rank → Nat) = fun _ => 0 := by
  funext a; fin_cases a <;> rfl

/-- One store through the whole-shape rectangle: the buffer then reads as the stored value. -/
theorem read_write_whole {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-- Several stores, the LAST one through the whole-shape rectangle: the buffer reads as that last value. -/
theorem read_writes_whole_last {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- A load through the whole-shape rectangle of a whole buffer at contents `X` reads `X`. -/
theorem readAt_whole {sig : RefSig} {κ : Kind} {sp : Space} {S : Shape} {e : EltTy} {Val : EltTy → Type}
    {m : Memref sig κ sp S e} (hm : m.IsWhole) {off : Fin S.rank → Nat} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h]

/-! ## The same at the three block shapes of these kernels -/

theorem readAt_col {Val : EltTy → Type} {m : Memref sig .tc .vmem S512x1 .f32} (hm : m.IsWhole)
    (inb : ∀ a, (![0, 0] : Fin S512x1.rank → Nat) a + S512x1.size a ≤ S512x1.size a) (X : S512x1.Idx → Val .f32) :
    m.view.readAt Val (Rect.unit (s := S512x1) ![0, 0] S512x1.size inb).toLoadRect (hm.unread X) = X :=
  readAt_whole hm hz_col inb X
theorem readAt_feat {Val : EltTy → Type} {m : Memref sig .tc .vmem S512x768 .bf16} (hm : m.IsWhole)
    (inb : ∀ a, (![0, 0] : Fin S512x768.rank → Nat) a + S512x768.size a ≤ S512x768.size a) (X : S512x768.Idx → Val .bf16) :
    m.view.readAt Val (Rect.unit (s := S512x768) ![0, 0] S512x768.size inb).toLoadRect (hm.unread X) = X :=
  readAt_whole hm hz_feat inb X
theorem readAt_tile {Val : EltTy → Type} {m : Memref sig .tc .vmem S512x512 .f32} (hm : m.IsWhole)
    (inb : ∀ a, (![0, 0] : Fin S512x512.rank → Nat) a + S512x512.size a ≤ S512x512.size a) (X : S512x512.Idx → Val .f32) :
    m.view.readAt Val (Rect.unit (s := S512x512) ![0, 0] S512x512.size inb).toLoadRect (hm.unread X) = X :=
  readAt_whole hm hz_tile inb X
/-- A column buffer after one whole store reads as the stored column. -/
theorem read_write_col {Val : EltTy → Type} [∀ e, Nonempty (Val e)] (v : View sig .tc .vmem S512x1 .f32) (f : v.ty.Contents Val)
    (inb : ∀ a, (![0, 0] : Fin S512x1.rank → Nat) a + S512x1.size a ≤ S512x1.size a) (w : S512x1.Idx → Val .f32) :
    v.read Val (v.writes Val f [(⟨Rect.unit (s := S512x1) ![0, 0] S512x1.size inb, w⟩ : View.Piece Val S512x1 .f32)]) = w :=
  read_write_whole v f hz_col inb w
/-- A column buffer after several stores, the last a whole one, reads as that last column. -/
theorem read_writes_col_last {Val : EltTy → Type} [∀ e, Nonempty (Val e)] (v : View sig .tc .vmem S512x1 .f32) (f : v.ty.Contents Val)
    (inb : ∀ a, (![0, 0] : Fin S512x1.rank → Nat) a + S512x1.size a ≤ S512x1.size a) (w : S512x1.Idx → Val .f32)
    (L : List (View.Piece Val S512x1 .f32)) :
    v.read Val (v.writes Val f ((⟨Rect.unit (s := S512x1) ![0, 0] S512x1.size inb, w⟩ : View.Piece Val S512x1 .f32) :: L)) = w :=
  read_writes_whole_last v f hz_col inb w L
/-- A whole load of a column buffer right after one whole store reads the stored column. -/
theorem readCov_col {Val : EltTy → Type} [∀ e, Nonempty (Val e)] (v : View sig .tc .vmem S512x1 .f32)
    (inb : ∀ a, (![0, 0] : Fin S512x1.rank → Nat) a + S512x1.size a ≤ S512x1.size a) (w : S512x1.Idx → Val .f32) :
    v.readCov [(⟨Rect.unit (s := S512x1) ![0, 0] S512x1.size inb, w⟩ : View.Piece Val S512x1 .f32)]
      (Rect.unit (s := S512x1) ![0, 0] S512x1.size inb).toLoadRect = w :=
  View.readCov_unit_zero v hz_col inb w

/-! ## The first kernel's two conditions -/

/-- The tile is in the first column (`j = 0`): the accumulators are reset. -/
abbrev cond0_0 (i : grid0.Coords) : Prop := (Scalar.cmpi .ne (Scalar.extui (Scalar.cmpi .eq (BitVec.ofNat 32 (i 1).val) 0#32)) 0#32) = 1#1
/-- The tile is in the last column (`j = 15`): the accumulators are written out. -/
abbrev cond0_1 (i : grid0.Coords) : Prop := k0_cond2 i = 1#1
theorem hcond0_0 : ∀ t : Fin cfg0.N, cond0_0 (grid0.coords t) ↔ t.val % 16 = 0 :=
  (by decide +kernel : ∀ t : Fin grid0.N, cond0_0 (grid0.coords t) ↔ t.val % 16 = 0)
theorem hcond0_1 : ∀ t : Fin cfg0.N, cond0_1 (grid0.coords t) ↔ t.val % 16 = 15 :=
  (by decide +kernel : ∀ t : Fin grid0.N, cond0_1 (grid0.coords t) ↔ t.val % 16 = 15)

/-! ## The second kernel's two conditions -/

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1
theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

end Cert.Kernel.Hand

end
-- ==== Proof.KR0Body.lean ====
/-
  One grid point of the first kernel, case by case. A point loads its two feature blocks and its two mask
  tiles, adds the tile's row sums into two column accumulators kept in scratch — the masked similarities'
  and the positive mask's — after resetting them in the first column of tiles, and in the last column copies
  both accumulators into the two output blocks. Each case says what every buffer holds afterwards.
-/
import proofs.«111266_j50379966382615_1_alg».proof.Proof.Gen.Kernel.Launch
import proofs.«111266_j50379966382615_1_alg».proof.Proof.Gen.Kernel.Skeleton
import proofs.«111266_j50379966382615_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«111266_j50379966382615_1_alg».proof.Proof.KBodyLib
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A tile in neither the first nor the last column: both accumulators take the tile's row sums on top of what they held; the outputs are untouched. -/
theorem kernel0_mid (c : Dev nD) (i : grid0.Coords)
    (arg2 : Memref sig .tc .vmem S512x768 .bf16) (harg2 : arg2.IsWhole) (arg3 : Memref sig .tc .vmem S512x768 .bf16) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬cond0_0 i) (hc1 : ¬cond0_1 i)
    (x0 x1 : Vec F S512x768 .bf16) (x2 x3 : Vec F S512x512 .f32) (xi4 xi5 s8 s9 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare (k0_pay6 i x0 x1 x3 s8) ∗ owns (c : Thread nD τ) arg9 fullShare (k0_pay1 (k0_pay5 i x2) s9)) -∗ K ⟨⟩))
      ⊢ wp frame (wpE (defs₀ (F := F)) Variants.none c none) E (cc0__pass_a_kernel i arg2 harg2 arg3 harg3 arg4 harg4 arg5 harg5 arg6 harg6 arg7 harg7 arg8 harg8 arg9 harg9) K := by
  simp only [cc0__pass_a_kernel_eq_skeleton]; unfold cc0__pass_a_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf8; obtain rfl := harg9.eq_unread hf9
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H8]
  · iexists _; isplitr
    swap; · iexact H8
    ipureintro
    sl_unfold_run_names
    rw [readAt_feat harg2, readAt_feat harg3, readAt_tile harg5, readAt_col harg8]
    exact read_write_col _ _ _ _
  · iexists _; isplitr
    swap; · iexact H9
    ipureintro
    sl_unfold_run_names
    rw [readAt_tile harg4, readAt_col harg9]
    exact read_write_col _ _ _ _

set_option maxHeartbeats 1000000 in
/-- A tile in the first column: the accumulators start again from zero, whatever they held; the outputs are untouched. -/
theorem kernel0_first (c : Dev nD) (i : grid0.Coords)
    (arg2 : Memref sig .tc .vmem S512x768 .bf16) (harg2 : arg2.IsWhole) (arg3 : Memref sig .tc .vmem S512x768 .bf16) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : cond0_0 i) (hc1 : ¬cond0_1 i)
    (x0 x1 : Vec F S512x768 .bf16) (x2 x3 : Vec F S512x512 .f32) (xi4 xi5 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare (k0_pay6 i x0 x1 x3 (k0_pay2 (F := F))) ∗ owns (c : Thread nD τ) arg9 fullShare (k0_pay1 (k0_pay5 i x2) (k0_pay3 (F := F)))) -∗ K ⟨⟩))
      ⊢ wp frame (wpE (defs₀ (F := F)) Variants.none c none) E (cc0__pass_a_kernel i arg2 harg2 arg3 harg3 arg4 harg4 arg5 harg5 arg6 harg6 arg7 harg7 arg8 harg8 arg9 harg9) K := by
  simp only [cc0__pass_a_kernel_eq_skeleton]; unfold cc0__pass_a_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H8]
  · iexists _; isplitr
    swap; · iexact H8
    ipureintro
    sl_unfold_run_names
    rw [readAt_feat harg2, readAt_feat harg3, readAt_tile harg5, readCov_col]
    exact read_writes_col_last _ _ _ _ _
  · iexists _; isplitr
    swap; · iexact H9
    ipureintro
    sl_unfold_run_names
    rw [readAt_tile harg4, readCov_col]
    exact read_writes_col_last _ _ _ _ _

set_option maxHeartbeats 1000000 in
/-- A tile in the last column: the accumulators take the tile's row sums, and each output block is then a copy of its accumulator, whatever it held. -/
theorem kernel0_last (c : Dev nD) (i : grid0.Coords)
    (arg2 : Memref sig .tc .vmem S512x768 .bf16) (harg2 : arg2.IsWhole) (arg3 : Memref sig .tc .vmem S512x768 .bf16) (harg3 : arg3.IsWhole)
    (arg4 : Memref sig .tc .vmem S512x512 .f32) (harg4 : arg4.IsWhole) (arg5 : Memref sig .tc .vmem S512x512 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬cond0_0 i) (hc1 : cond0_1 i)
    (x0 x1 : Vec F S512x768 .bf16) (x2 x3 : Vec F S512x512 .f32) (s8 s9 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ owns (c : Thread nD τ) arg8 fullShare s8 ∗ owns (c : Thread nD τ) arg9 fullShare s9
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay6 i x0 x1 x3 s8) ∗ owns (c : Thread nD τ) arg7 fullShare (k0_pay1 (k0_pay5 i x2) s9) ∗ owns (c : Thread nD τ) arg8 fullShare (k0_pay6 i x0 x1 x3 s8) ∗ owns (c : Thread nD τ) arg9 fullShare (k0_pay1 (k0_pay5 i x2) s9)) -∗ K ⟨⟩))
      ⊢ wp frame (wpE (defs₀ (F := F)) Variants.none c none) E (cc0__pass_a_kernel i arg2 harg2 arg3 harg3 arg4 harg4 arg5 harg5 arg6 harg6 arg7 harg7 arg8 harg8 arg9 harg9) K := by
  simp only [cc0__pass_a_kernel_eq_skeleton]; unfold cc0__pass_a_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg8.eq_unread hf8; obtain rfl := harg9.eq_unread hf9
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]
  · iexists _; isplitr
    swap; · iexact H4
    ipureintro
    sl_unfold_run_names
    rw [readAt_feat harg2, readAt_feat harg3, readAt_tile harg5, readAt_col harg8, readCov_col]
    exact read_write_col _ _ _ _
  isplitl [H5]
  · iexists _; isplitr
    swap; · iexact H5
    ipureintro
    sl_unfold_run_names
    rw [readAt_tile harg4, readAt_col harg9, readCov_col]
    exact read_write_col _ _ _ _
  isplitl [H8]
  · iexists _; isplitr
    swap; · iexact H8
    ipureintro
    sl_unfold_run_names
    rw [readAt_feat harg2, readAt_feat harg3, readAt_tile harg5, readAt_col harg8]
    exact read_write_col _ _ _ _
  · iexists _; isplitr
    swap; · iexact H9
    ipureintro
    sl_unfold_run_names
    rw [readAt_tile harg4, readAt_col harg9]
    exact read_write_col _ _ _ _

end Cert.Kernel.Hand

end
-- ==== Proof.KR0Data.lean ====
/-
  The first kernel's pipeline, point by point. Its grid is 16 × 16 tiles of 512 × 512; point t is tile row
  t / 16, tile column t % 16. The two feature windows and the two mask windows are inputs: each holds its block
  of the array it reads at every point. The two column accumulators live in scratch and are carried from point
  to point within a tile row: reset in the first column, then increased by each tile's row sums; what they hold
  after point n is defined by recursion on n. The two output blocks are written only in the last column, as
  copies of the accumulators, and only there are they written back.
-/
import proofs.«111266_j50379966382615_1_alg».proof.Proof.Gen.Kernel.Launch
import proofs.«111266_j50379966382615_1_alg».proof.Proof.Gen.Kernel.Skeleton
import proofs.«111266_j50379966382615_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«111266_j50379966382615_1_alg».proof.Proof.KBodyLib
import proofs.«111266_j50379966382615_1_alg».proof.Proof.KR0Body
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The staging and scratch memrefs -/

abbrev ms0_0 (t : Fin cfg0.N) : Memref sig .tc .vmem S512x768 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
/-- The two scratch accumulators: the masked similarities' row sums and the positive mask's. -/
abbrev scM0_0 : Memref sig .tc .vmem S512x1 .f32 := Memref.whole cc0_scratch0
abbrev scM0_1 : Memref sig .tc .vmem S512x1 .f32 := Memref.whole cc0_scratch1

/-- The scoped buffers this kernel never touches (the other kernel's staging buffers and scratch), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- What the region's entry hands the body beside the windows: the two scratch buffers at anything, the untouched scoped buffers, the generator register. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

/-! ## The accumulators, point by point -/

/-- One point's update of the two accumulators from what they held. -/
def step0 (c : Dev nD) (t : Fin cfg0.N) (a : Vec F S512x1 .f32 × Vec F S512x1 .f32) : Vec F S512x1 .f32 × Vec F S512x1 .f32 :=
  (k0_pay6 (grid0.coords t) (iblk0 V c 0 t) (iblk0 V c 1 t) (iblk0 V c 3 t) a.1,
   k0_pay1 (k0_pay5 (grid0.coords t) (iblk0 V c 2 t)) a.2)

/-- What the two accumulators hold after point `n`: in the first column of a tile row the update of zero, elsewhere the update of what the point before left. -/
def acc0 (c : Dev nD) : (n : ℕ) → n < cfg0.N → Vec F S512x1 .f32 × Vec F S512x1 .f32
  | 0, hn => step0 V c ⟨0, hn⟩ (k0_pay2 (F := F), k0_pay3 (F := F))
  | n + 1, hn =>
    if (n + 1) % 16 = 0 then step0 V c ⟨n + 1, hn⟩ (k0_pay2 (F := F), k0_pay3 (F := F))
    else step0 V c ⟨n + 1, hn⟩ (acc0 c n (Nat.lt_of_succ_lt hn))

theorem acc0_first (c : Dev nD) (t : Fin cfg0.N) (h : t.val % 16 = 0) :
    acc0 V c t.val t.isLt = step0 V c t (k0_pay2 (F := F), k0_pay3 (F := F)) := by
  obtain ⟨n, hn⟩ := t
  cases n with
  | zero => rfl
  | succ n => exact if_pos h

theorem acc0_next (c : Dev nD) (t : Fin cfg0.N) (h : ¬t.val % 16 = 0) :
    acc0 V c t.val t.isLt = step0 V c t (acc0 V c (t.val - 1) (Nat.lt_of_le_of_lt (Nat.sub_le _ _) t.isLt)) := by
  obtain ⟨n, hn⟩ := t
  cases n with
  | zero => exact absurd (Nat.zero_mod _) h
  | succ n => exact if_neg h

/-! ## The invariant: the accumulators at what the point before left -/

def Phi0 (c : Dev nD) : (n : ℕ) → n ≤ cfg0.N → sProp 𝕄
  | 0, _ => Pipeline.ΦA spec0 c
  | n + 1, hn => iprop((owns (c : Thread nD τ) scM0_0 fullShare (acc0 V c n hn).1 ∗ owns (c : Thread nD τ) scM0_1 fullShare (acc0 V c n hn).2 ∗ rest0 (F := F) c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop((owns (c : Thread nD τ) scM0_0 fullShare (acc0 V c n hn).1 ∗ owns (c : Thread nD τ) scM0_1 fullShare (acc0 V c n hn).2 ∗ rest0 (F := F) c) ∗ (∃ r, prngReg c r)) := rfl
theorem Phi0_pos (c : Dev nD) (n : ℕ) (h : n ≤ cfg0.N) (hz : n ≠ 0) :
    Phi0 V c n h = iprop((owns (c : Thread nD τ) scM0_0 fullShare (acc0 V c (n - 1) (by omega)).1 ∗ owns (c : Thread nD τ) scM0_1 fullShare (acc0 V c (n - 1) (by omega)).2 ∗ rest0 (F := F) c) ∗ (∃ r, prngReg c r)) := by
  cases n with
  | zero => exact absurd rfl hz
  | succ n => rfl

/-! ## The pipeline's proof data -/

/-- The arrays as the region finds them; after the body each input's buffer at its block, each output's at the
    accumulator it copies; the invariant above; the shared feature array held half and half by its two windows;
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (acc0 V c t.val t.isLt).1
    | ⟨5, _⟩ => (acc0 V c t.val t.isLt).2
  Φ t := Phi0 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A0_eq (c : Dev nD) (w : Fin cfg0.W) : (dat0 V c).A w = V c (Pipeline.arrRef spec0 w) := by
  dsimp only [dat0]
theorem q0_0 (c : Dev nD) : (dat0 V c).q 0 = fullShare.left := by dsimp only [dat0]
theorem q0_1 (c : Dev nD) : (dat0 V c).q 1 = fullShare.right := by dsimp only [dat0]
theorem q0_2 (c : Dev nD) : (dat0 V c).q 2 = fullShare := by dsimp only [dat0]
theorem q0_3 (c : Dev nD) : (dat0 V c).q 3 = fullShare := by dsimp only [dat0]
theorem owed0 (c : Dev nD) (t : Fin (cfg0.N + 1)) : (dat0 V c).owed t = 0 := rfl
theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (acc0 V c t.val t.isLt).1 := by dsimp only [dat0]
theorem after0_5 (c : Dev nD) (t : Fin cfg0.N) : (dat0 V c).after 5 t = (acc0 V c t.val t.isLt).2 := by dsimp only [dat0]

theorem before0_0 (c : Dev nD) (t : Fin cfg0.N) (d) : (dat0 V c).before 0 t d = iblk0 V c 0 t :=
  before0_0_of V (dat0 V c) (A0_eq V c 0) (after0_0 V c) t d
theorem before0_1 (c : Dev nD) (t : Fin cfg0.N) (d) : (dat0 V c).before 1 t d = iblk0 V c 1 t :=
  before0_1_of V (dat0 V c) (A0_eq V c 1) (after0_1 V c) t d
theorem before0_2 (c : Dev nD) (t : Fin cfg0.N) (d) : (dat0 V c).before 2 t d = iblk0 V c 2 t :=
  before0_2_of V (dat0 V c) (A0_eq V c 2) (after0_2 V c) t d
theorem before0_3 (c : Dev nD) (t : Fin cfg0.N) (d) : (dat0 V c).before 3 t d = iblk0 V c 3 t :=
  before0_3_of V (dat0 V c) (A0_eq V c 3) (after0_3 V c) t d

/-! ## Where the output windows are idle: everywhere but the last column, and there they are not written back -/

theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The body obligation -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. Which of the three cases the point is in is decided by its column; the accumulators
    come from the invariant at what the point before left (at anything in the first column, where they are reset)
    and go back at this point's contents; an output block is handed back as found except in the last column. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  have hN : t.val < 256 := lt_of_lt_of_eq t.isLt (show cfg0.N = 256 from N_0)
  by_cases h0 : t.val % 16 = 0
  · have h1 : ¬t.val % 16 = 15 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1),
      Dat.leavesExact_idle (dat0 V c) 5 t (idleAt0_5 t hc1) (noFlush0_5 t hc1)]
    rw [acc0_first V c t h0]; dsimp only [step0]
    by_cases hz : t.val = 0
    · rw [Phi0_castSucc V c t, Phi0_zero V c _ _ hz, PhiA0_eq]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply (kernel0_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [Phi0_castSucc V c t, Phi0_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply (kernel0_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun h => h0 (by rw [h])
    have hc0 : ¬cond0_0 (grid0.coords t) := fun h => h0 ((hcond0_0 t).mp h)
    rw [acc0_next V c t h0]; dsimp only [step0]
    rw [Phi0_castSucc V c t, Phi0_pos V c _ _ hz]
    by_cases h1 : t.val % 16 = 15
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4]
      rw [show (dat0 V c).leavesExact 5 t = owns (c : Thread nD τ) (ms0_5 t) fullShare ((dat0 V c).after 5 t) from by
        unfold Dat.leavesExact; rw [liveAt0_5 t hc1], after0_5]
      rw [acc0_next V c t h0]; dsimp only [step0]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply (kernel0_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond0_1 (grid0.coords t) := fun h => h1 ((hcond0_1 t).mp h)
      rw [Dat.leavesExact_idle (dat0 V c) 4 t (idleAt0_4 t hc1) (noFlush0_4 t hc1),
        Dat.leavesExact_idle (dat0 V c) 5 t (idleAt0_5 t hc1) (noFlush0_5 t hc1)]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply (kernel0_mid c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk0 V c 0 t) (iblk0 V c 1 t) (iblk0 V c 2 t) (iblk0 V c 3 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 Hr Hg]
      · isplitl [HS0 HS1 Hr]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region's entry hands the body is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the same back, the accumulators' contents forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 256 := N_0; omega), PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

end Cert.Kernel.Hand

end
-- ==== Proof.KR1Body.lean ====
/-
  One grid point of the second kernel, case by case. A point loads its two feature blocks, its positive-mask
  tile and its row block of the first pass's negative sums, and adds the row sums of the tile of
  -log(sim / neg + eps) * pm * [i ≠ j] into a column accumulator kept in scratch — after resetting it in the
  first column of tiles — and in the last column copies the accumulator into the output block. Each case says
  what every buffer holds afterwards.
-/
import proofs.«111266_j50379966382615_1_alg».proof.Proof.Gen.Kernel.Launch
import proofs.«111266_j50379966382615_1_alg».proof.Proof.Gen.Kernel.Skeleton
import proofs.«111266_j50379966382615_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«111266_j50379966382615_1_alg».proof.Proof.KBodyLib
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A tile in neither the first nor the last column: the accumulator takes the tile's row sums on top of what it held; the output is untouched. -/
theorem kernel1_mid (c : Dev nD) (i : grid1.Coords)
    (arg2 : Memref sig .tc .vmem S512x768 .bf16) (harg2 : arg2.IsWhole) (arg3 : Memref sig .tc .vmem S512x768 .bf16) (harg3 : arg3.IsWhole)
    (arg4 : Memref sig .tc .vmem S512x512 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : ¬cond1_0 i) (hc1 : ¬cond1_1 i)
    (x0 x1 : Vec F S512x768 .bf16) (x2 : Vec F S512x512 .f32) (x3 xo s7 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ owns (c : Thread nD τ) arg7 fullShare s7
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) arg7 fullShare (k1_pay1 s7 (k1_pay3 i x0 x1 x2 x3))) -∗ K ⟨⟩))
      ⊢ wp frame (wpE (defs₀ (F := F)) Variants.none c none) E (cc1__pass_b_kernel i arg2 harg2 arg3 harg3 arg4 harg4 arg5 harg5 arg6 harg6 arg7 harg7) K := by
  simp only [cc1__pass_b_kernel_eq_skeleton]; unfold cc1__pass_b_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H6]; · iexists _; isplitr; · ipureintro; exact harg6.read_unread _
                  iexact H6
  · iexists _; isplitr
    swap; · iexact H7
    ipureintro
    sl_unfold_run_names
    rw [readAt_feat harg2, readAt_feat harg3, readAt_tile harg4, readAt_col harg5, readAt_col harg7]
    exact read_write_col _ _ _ _

set_option maxHeartbeats 1000000 in
/-- A tile in the first column: the accumulator starts again from zero, whatever it held; the output is untouched. -/
theorem kernel1_first (c : Dev nD) (i : grid1.Coords)
    (arg2 : Memref sig .tc .vmem S512x768 .bf16) (harg2 : arg2.IsWhole) (arg3 : Memref sig .tc .vmem S512x768 .bf16) (harg3 : arg3.IsWhole)
    (arg4 : Memref sig .tc .vmem S512x512 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : cond1_0 i) (hc1 : ¬cond1_1 i)
    (x0 x1 : Vec F S512x768 .bf16) (x2 : Vec F S512x512 .f32) (x3 xo : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo ∗ owns (c : Thread nD τ) arg7 fullShare (k1_pay1 (k1_pay2 (F := F)) (k1_pay3 i x0 x1 x2 x3))) -∗ K ⟨⟩))
      ⊢ wp frame (wpE (defs₀ (F := F)) Variants.none c none) E (cc1__pass_b_kernel i arg2 harg2 arg3 harg3 arg4 harg4 arg5 harg5 arg6 harg6 arg7 harg7) K := by
  simp only [cc1__pass_b_kernel_eq_skeleton]; unfold cc1__pass_b_kernel_skel
  unfold owns
  iintro ⟨⟨%f0, %hf0, H0⟩, ⟨%f1, %hf1, H1⟩, ⟨%f2, %hf2, H2⟩, ⟨%f3, %hf3, H3⟩, ⟨%f6, %hf6, H6⟩, ⟨%d7, %f7, -, H7⟩, Hk⟩
  obtain rfl := harg2.eq_unread hf0; obtain rfl := harg3.eq_unread hf1; obtain rfl := harg4.eq_unread hf2; obtain rfl := harg5.eq_unread hf3
  obtain rfl := harg6.eq_unread hf6
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H6]; · iexists _; isplitr; · ipureintro; exact harg6.read_unread _
                  iexact H6
  · iexists _; isplitr
    swap; · iexact H7
    ipureintro
    sl_unfold_run_names
    rw [readAt_feat harg2, readAt_feat harg3, readAt_tile harg4, readAt_col harg5, readCov_col]
    exact read_writes_col_last _ _ _ _ _

set_option maxHeartbeats 1000000 in
/-- A tile in the last column: the accumulator takes the tile's row sums, and the output block is then a copy of the accumulator, whatever it held. -/
theorem kernel1_last (c : Dev nD) (i : grid1.Coords)
    (arg2 : Memref sig .tc .vmem S512x768 .bf16) (harg2 : arg2.IsWhole) (arg3 : Memref sig .tc .vmem S512x768 .bf16) (harg3 : arg3.IsWhole)
    (arg4 : Memref sig .tc .vmem S512x512 .f32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (hc0 : ¬cond1_0 i) (hc1 : cond1_1 i)
    (x0 x1 : Vec F S512x768 .bf16) (x2 : Vec F S512x512 .f32) (x3 s7 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare s7
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay1 s7 (k1_pay3 i x0 x1 x2 x3)) ∗ owns (c : Thread nD τ) arg7 fullShare (k1_pay1 s7 (k1_pay3 i x0 x1 x2 x3))) -∗ K ⟨⟩))
      ⊢ wp frame (wpE (defs₀ (F := F)) Variants.none c none) E (cc1__pass_b_kernel i arg2 harg2 arg3 harg3 arg4 harg4 arg5 harg5 arg6 harg6 arg7 harg7) K := by
  simp only [cc1__pass_b_kernel_eq_skeleton]; unfold cc1__pass_b_kernel_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
  obtain rfl := harg2.eq_unread hf0; obtain rfl := harg3.eq_unread hf1; obtain rfl := harg4.eq_unread hf2; obtain rfl := harg5.eq_unread hf3
  obtain rfl := harg7.eq_unread hf7
  sl_exec (disch := first | exact hc0 | exact hc1)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H6]
  · iexists _; isplitr
    swap; · iexact H6
    ipureintro
    sl_unfold_run_names
    rw [readAt_feat harg2, readAt_feat harg3, readAt_tile harg4, readAt_col harg5, readAt_col harg7, readCov_col]
    exact read_write_col _ _ _ _
  · iexists _; isplitr
    swap; · iexact H7
    ipureintro
    sl_unfold_run_names
    rw [readAt_feat harg2, readAt_feat harg3, readAt_tile harg4, readAt_col harg5, readAt_col harg7]
    exact read_write_col _ _ _ _

end Cert.Kernel.Hand

end
-- ==== Proof.KR1Data.lean ====
/-
  The second kernel's pipeline, point by point. Its grid is 16 × 16 tiles of 512 × 512; point t is tile row
  t / 16, tile column t % 16. The two feature windows, the positive-mask window and the window of the first pass's
  negative sums are inputs: each holds its block of the array it reads at every point (the row blocks — the first
  feature window and the negative sums — are fetched only in the first column and stay in place along the tile row).
  The column accumulator lives in scratch and is carried from point to point within a tile row: reset in the first
  column, then increased by each tile's row sums; what it holds after point n is defined by recursion on n. The
  output block is written only in the last column, as a copy of the accumulator, and only there is it written back.
-/
import proofs.«111266_j50379966382615_1_alg».proof.Proof.Gen.Kernel.Launch
import proofs.«111266_j50379966382615_1_alg».proof.Proof.Gen.Kernel.Skeleton
import proofs.«111266_j50379966382615_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«111266_j50379966382615_1_alg».proof.Proof.KBodyLib
import proofs.«111266_j50379966382615_1_alg».proof.Proof.KR1Body
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The staging and scratch memrefs -/
abbrev ms1_0 (t : Fin cfg1.N) : Memref sig .tc .vmem S512x768 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x768 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
/-- The scratch accumulator: the row sums of the masked negative log ratios. -/
abbrev scM1_0 : Memref sig .tc .vmem S512x1 .f32 := Memref.whole cc1_scratch0

/-- The scoped buffers this kernel never touches (the other kernel's staging buffers and scratch), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The core's scoped buffers that are no staging buffer of this call, listed with this kernel's own scratch first:
    a separating conjunction over a finite set of buffers does not depend on the order they are listed in. -/
theorem scopedRest1_first (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)) :=
  Pipeline.scopedRest_eq_of_list spec1 c [cc1_scratch0, cc0_stg0_0, cc0_stg0_1, cc0_stg1_0, cc0_stg1_1, cc0_stg2_0, cc0_stg2_1, cc0_stg3_0, cc0_stg3_1, cc0_stg4_0, cc0_stg4_1, cc0_stg5_0, cc0_stg5_1, cc0_scratch0, cc0_scratch1] (by decide) (by decide)

/-- What the region's entry hands the body beside the windows: the scratch buffer at anything, the untouched scoped buffers, the generator register. -/
theorem PhiA1_eq (c : Dev nD) :
    (Pipeline.ΦA spec1 c : sProp 𝕄)
      = iprop(((∃ d, owns (c : Thread nD τ) scM1_0 fullShare d) ∗ rest1 (F := F) c) ∗ (∃ r, prngReg c r)) := by
  unfold Pipeline.ΦA rest1; rw [scopedRest1_first]; simp only [scM1_0, owns_whole]; try rfl

/-! ## The accumulator, point by point -/

/-- One point's update of the accumulator from what it held: the tile's row sums added to it. -/
def step1 (c : Dev nD) (t : Fin cfg1.N) (a : Vec F S512x1 .f32) : Vec F S512x1 .f32 :=
  k1_pay1 a (k1_pay3 (grid1.coords t) (iblk1 V c 0 t) (iblk1 V c 1 t) (iblk1 V c 2 t) (iblk1 V c 3 t))

/-- What the accumulator holds after point `n`: in the first column of a tile row the update of zero, elsewhere the update of what the point before left. -/
def acc1 (c : Dev nD) : (n : ℕ) → n < cfg1.N → Vec F S512x1 .f32
  | 0, hn => step1 V c ⟨0, hn⟩ (k1_pay2 (F := F))
  | n + 1, hn =>
    if (n + 1) % 16 = 0 then step1 V c ⟨n + 1, hn⟩ (k1_pay2 (F := F))
    else step1 V c ⟨n + 1, hn⟩ (acc1 c n (Nat.lt_of_succ_lt hn))

theorem acc1_first (c : Dev nD) (t : Fin cfg1.N) (h : t.val % 16 = 0) :
    acc1 V c t.val t.isLt = step1 V c t (k1_pay2 (F := F)) := by
  obtain ⟨n, hn⟩ := t
  cases n with
  | zero => rfl
  | succ n => exact if_pos h

theorem acc1_next (c : Dev nD) (t : Fin cfg1.N) (h : ¬t.val % 16 = 0) :
    acc1 V c t.val t.isLt = step1 V c t (acc1 V c (t.val - 1) (Nat.lt_of_le_of_lt (Nat.sub_le _ _) t.isLt)) := by
  obtain ⟨n, hn⟩ := t
  cases n with
  | zero => exact absurd (Nat.zero_mod _) h
  | succ n => exact if_neg h

/-! ## The invariant: the accumulator at what the point before left -/

def Phi1 (c : Dev nD) : (n : ℕ) → n ≤ cfg1.N → sProp 𝕄
  | 0, _ => Pipeline.ΦA spec1 c
  | n + 1, hn => iprop((owns (c : Thread nD τ) scM1_0 fullShare (acc1 V c n hn) ∗ rest1 (F := F) c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop((owns (c : Thread nD τ) scM1_0 fullShare (acc1 V c n hn) ∗ rest1 (F := F) c) ∗ (∃ r, prngReg c r)) := rfl
theorem Phi1_pos (c : Dev nD) (n : ℕ) (h : n ≤ cfg1.N) (hz : n ≠ 0) :
    Phi1 V c n h = iprop((owns (c : Thread nD τ) scM1_0 fullShare (acc1 V c (n - 1) (by omega)) ∗ rest1 (F := F) c) ∗ (∃ r, prngReg c r)) := by
  cases n with
  | zero => exact absurd rfl hz
  | succ n => rfl

/-! ## The pipeline's proof data -/

/-- The arrays as the region finds them; after the body each input's buffer at its block, the output's at the
    accumulator it copies; the invariant above; the shared feature array held half and half by its two windows;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := Phi1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A1_eq (c : Dev nD) (w : Fin cfg1.W) : (dat1 V c).A w = V c (Pipeline.arrRef spec1 w) := by
  dsimp only [dat1]
theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem owed1 (c : Dev nD) (t : Fin (cfg1.N + 1)) : (dat1 V c).owed t = 0 := rfl
theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]
theorem before1_0 (c : Dev nD) (t : Fin cfg1.N) (d) : (dat1 V c).before 0 t d = iblk1 V c 0 t :=
  before1_0_of V (dat1 V c) (A1_eq V c 0) (after1_0 V c) t d
theorem before1_1 (c : Dev nD) (t : Fin cfg1.N) (d) : (dat1 V c).before 1 t d = iblk1 V c 1 t :=
  before1_1_of V (dat1 V c) (A1_eq V c 1) (after1_1 V c) t d
theorem before1_2 (c : Dev nD) (t : Fin cfg1.N) (d) : (dat1 V c).before 2 t d = iblk1 V c 2 t :=
  before1_2_of V (dat1 V c) (A1_eq V c 2) (after1_2 V c) t d
theorem before1_3 (c : Dev nD) (t : Fin cfg1.N) (d) : (dat1 V c).before 3 t d = iblk1 V c 3 t :=
  before1_3_of V (dat1 V c) (A1_eq V c 3) (after1_3 V c) t d

/-! ## Where the output window is idle: everywhere but the last column, and there it is not written back -/

theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The body obligation -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. Which of the three cases the point is in is decided by its column; the accumulator
    comes from the invariant at what the point before left (at anything in the first column, where it is reset)
    and goes back at this point's contents; the output block is handed back as found except in the last column. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 256 := lt_of_lt_of_eq t.isLt (show cfg1.N = 256 from N_1)
  by_cases h0 : t.val % 16 = 0
  · have h1 : ¬t.val % 16 = 15 := by omega
    have hc0 : cond1_0 (grid1.coords t) := (hcond1_0 t).mpr h0
    have hc1 : ¬cond1_1 (grid1.coords t) := fun h => h1 ((hcond1_1 t).mp h)
    rw [Dat.leavesExact_idle (dat1 V c) 4 t (idleAt1_4 t hc1) (noFlush1_4 t hc1)]
    rw [acc1_first V c t h0]; dsimp only [step1]
    by_cases hz : t.val = 0
    · rw [Phi1_castSucc V c t, Phi1_zero V c _ _ hz, PhiA1_eq]
      iintro ⟨⟨⟨HS, Hr⟩, Hg⟩, Ho, ⟨%d0, H0⟩, ⟨%d1, H1⟩, ⟨%d2, H2⟩, ⟨%d3, H3⟩, ⟨%d4, H4⟩⟩
      iapply (kernel1_first c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
    · rw [Phi1_castSucc V c t, Phi1_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (kernel1_first c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc0 : ¬cond1_0 (grid1.coords t) := fun h => h0 ((hcond1_0 t).mp h)
    rw [acc1_next V c t h0]; dsimp only [step1]
    rw [Phi1_castSucc V c t, Phi1_pos V c _ _ hz]
    by_cases h1 : t.val % 16 = 15
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [acc1_next V c t h0]; dsimp only [step1]
      iintro ⟨⟨⟨HS, Hr⟩, Hg⟩, Ho, ⟨%d0, H0⟩, ⟨%d1, H1⟩, ⟨%d2, H2⟩, ⟨%d3, H3⟩, ⟨%d4, H4⟩⟩
      iapply (kernel1_last c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idleAt1_4 t hc1) (noFlush1_4 t hc1)]
      iintro ⟨⟨⟨HS, Hr⟩, Hg⟩, Ho, ⟨%d0, H0⟩, ⟨%d1, H1⟩, ⟨%d2, H2⟩, ⟨%d3, H3⟩, ⟨%d4, H4⟩⟩
      iapply (kernel1_mid c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region's entry hands the body is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the same back, the accumulator's contents forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 256 := N_1; omega), PhiA1_eq]
  iintro ⟨⟨HS, Hr⟩, Hg⟩
  isplitl [HS Hr]
  · isplitl [HS]; · iexists _; iexact HS
    iexact Hr
  iexact Hg

end Cert.Kernel.Hand

end
-- ==== Proof.KRunAll.lean ====
/-
  The run of @main through its two pallas_calls, whose two feature windows read one array.
  Entering a call, the core's unscoped buffers are split into the call's arrays and the rest; the feature array's full
  share is dealt in two halves, one to each window that reads it, and every other array is held whole. Leaving, the
  halves are joined and the buffers are held again, the call's outputs now at their write-backs and every other buffer
  as it was. Between the items of @main a core holds every unscoped buffer at a valuation: the launch memory, then each
  host stretch applied, then each call's outputs replaced. The run's post says that every weakly fair execution ends,
  without a fault, in a memory that holds each unscoped buffer at the last valuation; the result buffer and the three
  unchanged arguments are read off it.
-/
import proofs.«111266_j50379966382615_1_alg».proof.Proof.Gen.Kernel.Regions
import proofs.«111266_j50379966382615_1_alg».proof.Proof.KSharedArrays
import proofs.«111266_j50379966382615_1_alg».proof.Proof.KR0Data
import proofs.«111266_j50379966382615_1_alg».proof.Proof.KR1Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! ## Entering and leaving a call: the unscoped buffers and the windows' arrays -/

section EnterLeave
variable {c : Dev nD}

/-- ENTRY of call 0. A core's unscoped buffers at a valuation are the call's arrays at the proof data's entry contents
    (read off that valuation) and the unscoped buffers that are no array of the call. -/
theorem enter0 (W : Valuation τ sig (Elt F)) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (hA : ∀ w, dat.A w = W (Pipeline.arrRef spec0 w)) :
    (StableHlo.held (c : Thread nD τ) (Pipeline.ucRefs τ sig) W : sProp 𝕄)
      ⊢ iprop(dat.arrays (dat.arrAt · 0) ∗ Pipeline.unscopedRest spec0 c (fun b => W b)) := by
  rw [← Pipeline.unscopedBufs_held (Ix := Unit) (Name := ℕ) (U := UR sig nD τ) (Lvl := ℕ) c W,
    Pipeline.unscopedBufs_split₀ cfgs 0 winFacts₀0.arr_unscoped c]
  exact sep_mono (arrays0_split dat (fun b => W b) hq0 hq1 hq2 hq3 _ hA) .rfl

/-- EXIT of call 0. The call's arrays at their final contents and the other unscoped buffers as they were are the core's
    unscoped buffers at any valuation that has the arrays at those contents and agrees with the old one elsewhere. -/
theorem leave0 (W W' : Valuation τ sig (Elt F)) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (hF : ∀ w, dat.arrAt w cfg0.N = W' (Pipeline.arrRef spec0 w))
    (hrest : ∀ b : Ref sig .tc, b ∉ Finset.univ.image (Pipeline.arrRef spec0) → W' b = W b) :
    iprop(dat.arrays (dat.arrAt · cfg0.N) ∗ Pipeline.unscopedRest spec0 c (fun b => W b))
      ⊢ (StableHlo.held (c : Thread nD τ) (Pipeline.ucRefs τ sig) W' : sProp 𝕄) := by
  rw [← Pipeline.unscopedBufs_held (Ix := Unit) (Name := ℕ) (U := UR sig nD τ) (Lvl := ℕ) c W',
    Pipeline.unscopedBufs_split₀ cfgs 0 winFacts₀0.arr_unscoped c]
  refine sep_mono (arrays0_join dat hq0 hq1 hq2 hq3 _ (fun b => W' b) hF) (Entails.of_eq ?_)
  unfold Pipeline.unscopedRest
  exact bigSep_congr fun b hb => by beta_reduce; rw [hrest b (Finset.mem_sdiff.mp hb).2]

/-- ENTRY of call 1, as `enter0`. -/
theorem enter1 (W : Valuation τ sig (Elt F)) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (hA : ∀ w, dat.A w = W (Pipeline.arrRef spec1 w)) :
    (StableHlo.held (c : Thread nD τ) (Pipeline.ucRefs τ sig) W : sProp 𝕄)
      ⊢ iprop(dat.arrays (dat.arrAt · 0) ∗ Pipeline.unscopedRest spec1 c (fun b => W b)) := by
  rw [← Pipeline.unscopedBufs_held (Ix := Unit) (Name := ℕ) (U := UR sig nD τ) (Lvl := ℕ) c W,
    Pipeline.unscopedBufs_split₀ cfgs 1 winFacts₀1.arr_unscoped c]
  exact sep_mono (arrays1_split dat (fun b => W b) hq0 hq1 hq2 hq3 _ hA) .rfl

/-- EXIT of call 1, as `leave0`. -/
theorem leave1 (W W' : Valuation τ sig (Elt F)) (dat : Dat τ (Elt F) Unit ℕ (UR sig nD τ) ℕ cfg1 c)
    (hq0 : dat.q 0 = fullShare.left) (hq1 : dat.q 1 = fullShare.right) (hq2 : dat.q 2 = fullShare) (hq3 : dat.q 3 = fullShare)
    (hF : ∀ w, dat.arrAt w cfg1.N = W' (Pipeline.arrRef spec1 w))
    (hrest : ∀ b : Ref sig .tc, b ∉ Finset.univ.image (Pipeline.arrRef spec1) → W' b = W b) :
    iprop(dat.arrays (dat.arrAt · cfg1.N) ∗ Pipeline.unscopedRest spec1 c (fun b => W b))
      ⊢ (StableHlo.held (c : Thread nD τ) (Pipeline.ucRefs τ sig) W' : sProp 𝕄) := by
  rw [← Pipeline.unscopedBufs_held (Ix := Unit) (Name := ℕ) (U := UR sig nD τ) (Lvl := ℕ) c W',
    Pipeline.unscopedBufs_split₀ cfgs 1 winFacts₀1.arr_unscoped c]
  refine sep_mono (arrays1_join dat hq0 hq1 hq2 hq3 _ (fun b => W' b) hF) (Entails.of_eq ?_)
  unfold Pipeline.unscopedRest
  exact bigSep_congr fun b hb => by beta_reduce; rw [hrest b (Finset.mem_sdiff.mp hb).2]

end EnterLeave

/-! ## What the two calls leave -/

variable (m : (ℓ : Loc nD τ sig) → Buf (Elt F) ℓ)

/-- The contents call 0 is entered from, read at the TensorCore's references. -/
abbrev V2r : (c : Dev nD) → (b : Ref sig .tc) → Buf (Elt F) ((c : Thread nD τ).loc b) := fun c b => V2 m c b
/-- The contents call 1 is entered from, over what call 0 left. -/
abbrev V5r (o : Outs (F := F)) : (c : Dev nD) → (b : Ref sig .tc) → Buf (Elt F) ((c : Thread nD τ).loc b) := fun c b => V5 m o c b

/-- What call 0 leaves in its two outputs: each output array after every write-back of the grid. -/
def outs0 : Outs (F := F) := fun _ r c =>
  if h : r = main_v6_0 then h ▸ ((dat0 (V2r m) c).arrAt 4 cfg0.N : Buf (Elt F) ((c : Thread nD τ).loc main_v6_0))
  else if h : r = main_v6_1 then h ▸ ((dat0 (V2r m) c).arrAt 5 cfg0.N : Buf (Elt F) ((c : Thread nD τ).loc main_v6_1))
  else V2r m c r

/-- What the two calls leave: call 0's two outputs, and call 1's output after every write-back of its grid, call 1
    entered from the contents over call 0's outputs. -/
def outs : Outs (F := F) := fun j r c =>
  if h : r = main_v10 then h ▸ ((dat1 (V5r m (outs0 m)) c).arrAt 4 cfg1.N : Buf (Elt F) ((c : Thread nD τ).loc main_v10))
  else outs0 m j r c

theorem outs_v6_0 (c : Dev nD) : outs m 3 main_v6_0 c = (dat0 (V2r m) c).arrAt 4 cfg0.N := by
  unfold outs outs0; rw [dif_neg (by decide), dif_pos rfl]
theorem outs_v6_1 (c : Dev nD) : outs m 3 main_v6_1 c = (dat0 (V2r m) c).arrAt 5 cfg0.N := by
  unfold outs outs0; rw [dif_neg (by decide), dif_neg (by decide), dif_pos rfl]

/-- Call 1's entry contents read only call 0's outputs of `outs`. -/
theorem V3_outs (c : Dev nD) : V3 m (outs m) c = V3 m (outs0 m) c := by
  have h0 : outs m 3 main_v6_0 c = outs0 m 3 main_v6_0 c := dif_neg (by decide)
  have h1 : outs m 3 main_v6_1 c = outs0 m 3 main_v6_1 c := dif_neg (by decide)
  unfold V3; rw [h0, h1]
theorem V5r_outs : V5r m (outs m) = V5r m (outs0 m) := by
  funext c b
  show StableHlo.after hostOps1_1 (StableHlo.after hostOps1 (V3 m (outs m) c)) b = StableHlo.after hostOps1_1 (StableHlo.after hostOps1 (V3 m (outs0 m) c)) b
  rw [V3_outs]

theorem outs_v10 (c : Dev nD) : outs m 6 main_v10 c = (dat1 (V5r m (outs m)) c).arrAt 4 cfg1.N := by
  rw [V5r_outs]; unfold outs; rw [dif_pos rfl]

/-- After call 0 its two outputs hold what `outs` names. -/
theorem V3_v6_0 (c : Dev nD) : V3 m (outs m) c main_v6_0 = (dat0 (V2r m) c).arrAt 4 cfg0.N := by
  unfold V3
  rw [Function.update_of_ne (StableHlo.devRef_ne_of_ne (by decide) : (Proc.devRef .tc main_v6_0 : DevRef τ sig) ≠ Proc.devRef .tc main_v6_1),
    Function.update_self, outs_v6_0]
theorem V3_v6_1 (c : Dev nD) : V3 m (outs m) c main_v6_1 = (dat0 (V2r m) c).arrAt 5 cfg0.N := by
  unfold V3; rw [Function.update_self, outs_v6_1]
/-- After call 1 its output holds what `outs` names. -/
theorem V6_v10 (c : Dev nD) : V6 m (outs m) c main_v10 = (dat1 (V5r m (outs m)) c).arrAt 4 cfg1.N := by
  unfold V6; rw [Function.update_self, outs_v10]

/-! ## The arrays at each call's exit -/

/-- At call 0's exit every array of the call holds what the valuation after it says: an input what it held at entry,
    an output its write-backs. -/
theorem hF0 (c : Dev nD) : ∀ w, (dat0 (V2r m) c).arrAt w cfg0.N = V3 m (outs m) c (Pipeline.arrRef spec0 w)
  | 0 => ((dat0 (V2r m) c).arrAt_in 0 rfl _).trans ((A0_eq (V2r m) c 0).trans (V3_of m (outs m) c main_v5 (by decide)).symm)
  | 1 => ((dat0 (V2r m) c).arrAt_in 1 rfl _).trans ((A0_eq (V2r m) c 1).trans (V3_of m (outs m) c main_v5 (by decide)).symm)
  | 2 => ((dat0 (V2r m) c).arrAt_in 2 rfl _).trans ((A0_eq (V2r m) c 2).trans (V3_of m (outs m) c main_arg1 (by decide)).symm)
  | 3 => ((dat0 (V2r m) c).arrAt_in 3 rfl _).trans ((A0_eq (V2r m) c 3).trans (V3_of m (outs m) c main_arg2 (by decide)).symm)
  | 4 => (V3_v6_0 m c).symm
  | 5 => (V3_v6_1 m c).symm
  | ⟨_ + 6, h⟩ => absurd h (Nat.not_lt.2 (Nat.le_add_left _ _))

/-- Off call 0's arrays nothing changed. -/
theorem hrest0 (c : Dev nD) (b : Ref sig .tc) (hb : b ∉ Finset.univ.image (Pipeline.arrRef spec0)) : V3 m (outs m) c b = V2 m c b := by
  rw [arrImage0, List.mem_toFinset] at hb
  refine V3_of m (outs m) c b fun h => hb ?_
  rcases List.mem_cons.mp h with rfl | h
  · decide
  rcases List.mem_cons.mp h with rfl | h
  · decide
  · exact absurd h List.not_mem_nil

/-- At call 1's exit every array of the call holds what the valuation after it says. -/
theorem hF1 (c : Dev nD) : ∀ w, (dat1 (V5r m (outs m)) c).arrAt w cfg1.N = V6 m (outs m) c (Pipeline.arrRef spec1 w)
  | 0 => ((dat1 (V5r m (outs m)) c).arrAt_in 0 rfl _).trans ((A1_eq (V5r m (outs m)) c 0).trans (V6_of m (outs m) c main_v5 (by decide)).symm)
  | 1 => ((dat1 (V5r m (outs m)) c).arrAt_in 1 rfl _).trans ((A1_eq (V5r m (outs m)) c 1).trans (V6_of m (outs m) c main_v5 (by decide)).symm)
  | 2 => ((dat1 (V5r m (outs m)) c).arrAt_in 2 rfl _).trans ((A1_eq (V5r m (outs m)) c 2).trans (V6_of m (outs m) c main_arg1 (by decide)).symm)
  | 3 => ((dat1 (V5r m (outs m)) c).arrAt_in 3 rfl _).trans ((A1_eq (V5r m (outs m)) c 3).trans (V6_of m (outs m) c main_v6_0 (by decide)).symm)
  | 4 => (V6_v10 m c).symm
  | ⟨_ + 5, h⟩ => absurd h (Nat.not_lt.2 (Nat.le_add_left _ _))

/-- Off call 1's arrays nothing changed. -/
theorem hrest1 (c : Dev nD) (b : Ref sig .tc) (hb : b ∉ Finset.univ.image (Pipeline.arrRef spec1)) : V6 m (outs m) c b = V5 m (outs m) c b := by
  rw [arrImage1, List.mem_toFinset] at hb
  refine V6_of m (outs m) c b fun h => hb ?_
  rcases List.mem_cons.mp h with rfl | h
  · decide
  · exact absurd h List.not_mem_nil

/-! ## The proof data family and the thread state -/

/-- Both calls' proof data, each at the contents its call is entered from: a literal match on the call. -/
def pdats : (p : Fin 2) → (c : Dev nD) → Dat τ (Elt F) Unit ℕ (UR sig nD τ) ℕ (cfgs p) c
  | ⟨0, _⟩ => fun c => dat0 (V2r m) c
  | ⟨1, _⟩ => fun c => dat1 (V5r m (outs m)) c

/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- The same between any two items. -/
abbrev E : Fin 3 → Dev nD → sProp 𝕄 := fun _ c => R (F := F) c

/-! ## The two calls as segments -/

/-- No prefetched table: the empty conjunction. -/
theorem prefHeld_none (c : Dev nD) (q) (v) :
    (Pipeline.prefHeld (Ix := Unit) (Name := ℕ) (U := UR sig nD τ) (Lvl := ℕ) (Val := Elt F) Pipeline.Prefetch.none c q v : sProp 𝕄) = BI.emp := by
  unfold Pipeline.prefHeld; rw [show (Finset.univ : Finset (Fin 0)) = ∅ from rfl, BI.bigSep_empty]

-- a library lemma stated over the pinned configuration unifies with the printed one only when unification may unfold
-- plain definitions in a metavariable's type
set_option backward.isDefEq.respectTransparency.types false in
/-- CALL 0 over the thread state: entered from every unscoped buffer at the contents after the second host stretch, left
    with its two outputs at their write-backs. The arrays are split out of the unscoped buffers (the shared feature array
    in two halves) and put back at the exit; the generator register goes into the invariant and comes back; nothing is owed. -/
def reg0 : RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (body_obligation0 (V2r m) c).loose
  hwaits := Pipeline.hwaits_of_owed_zero _ _ _ _ L lv 0 fun c t => owed0 (V2r m) c t
  pre c := iprop(StableHlo.held (c : Thread nD τ) (Pipeline.ucRefs τ sig) (V2 m c) ∗ R c)
  post c := iprop(StableHlo.held (c : Thread nD τ) (Pipeline.ucRefs τ sig) (V3 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V2 m c b)
  hentry c := by
    rw [Pipeline.ownSems0_none]
    have hsplit := enter0 (c := c) (V2 m c) (dat0 (V2r m) c) (q0_0 _ c) (q0_1 _ c) (q0_2 _ c) (q0_3 _ c) (A0_eq (V2r m) c)
    iintro ⟨⟨Hub, Hp, HO⟩, -, -⟩
    ihave H := hsplit $$ Hub
    icases H with ⟨Ha, Hrest⟩
    imodintro
    isplitl [Ha]; · iexact Ha
    isplitr; · rw [prefHeld_none]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V2r m) c)
    unfold Pipeline.ΦA
    iintro ⟨Hp, -, Hr⟩
    isplitl [Hr]; · iexact Hr
    iexact Hp
  hout c := by
    rw [Pipeline.ownSems0_none]
    refine (hout0 (V2r m) c).trans ?_
    unfold Pipeline.ΦA
    iintro ⟨Hr, Hp⟩
    isplitl [Hp]; · iexact Hp
    isplitr; · iempintro
    iexact Hr
  hexit c := by
    have hjoin := leave0 (c := c) (V2 m c) (V3 m (outs m) c) (dat0 (V2r m) c) (q0_0 _ c) (q0_1 _ c) (q0_2 _ c) (q0_3 _ c) (hF0 m c) (hrest0 m c)
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- as for call 0
set_option backward.isDefEq.respectTransparency.types false in
/-- CALL 1 over the thread state: entered from every unscoped buffer at the contents after the fourth host stretch (which
    read call 0's outputs), left with its output at its write-backs. As call 0: the arrays split out and put back, the
    generator register through the invariant, nothing owed. -/
def reg1 : RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (body_obligation1 (V5r m (outs m)) c).loose
  hwaits := Pipeline.hwaits_of_owed_zero _ _ _ _ L lv 1 fun c t => owed1 (V5r m (outs m)) c t
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V5 m (outs m) c b)
  hentry c := by
    rw [Pipeline.ownSems0_none]
    have hsplit := enter1 (c := c) (V5 m (outs m) c) (dat1 (V5r m (outs m)) c) (q1_0 _ c) (q1_1 _ c) (q1_2 _ c) (q1_3 _ c) (A1_eq (V5r m (outs m)) c)
    iintro ⟨⟨Hub, Hp, HO⟩, -, -⟩
    ihave H := hsplit $$ Hub
    icases H with ⟨Ha, Hrest⟩
    imodintro
    isplitl [Ha]; · iexact Ha
    isplitr; · rw [prefHeld_none]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V5r m (outs m)) c)
    unfold Pipeline.ΦA
    iintro ⟨Hp, -, Hr⟩
    isplitl [Hr]; · iexact Hr
    iexact Hp
  hout c := by
    rw [Pipeline.ownSems0_none]
    refine (hout1 (V5r m (outs m)) c).trans ?_
    unfold Pipeline.ΦA
    iintro ⟨Hr, Hp⟩
    isplitl [Hp]; · iexact Hp
    isplitr; · iempintro
    iexact Hr
  hexit c := by
    have hjoin := leave1 (c := c) (V5 m (outs m) c) (V6 m (outs m) c) (dat1 (V5r m (outs m)) c) (q1_0 _ c) (q1_1 _ c) (q1_2 _ c) (q1_3 _ c) (hF1 m c) (hrest1 m c)
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run of @main -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last item's state regrouped: the buffers and the generator register, beside the core owing nothing. -/
theorem last_regroup (c : Dev nD) (W : Valuation τ sig (Elt F)) :
    (iprop(StableHlo.held (c : Thread nD τ) (Pipeline.ucRefs τ sig) W ∗ R c) : sProp 𝕄)
      ⊢ iprop((StableHlo.held (c : Thread nD τ) (Pipeline.ucRefs τ sig) W ∗ ∃ r, prngReg c r) ∗ ∃ W', owes (c : Thread nD τ) (0 : CellTallies nD τ sig Unit) W') := by
  iintro ⟨Hh, Hp, HO⟩
  isplitl [Hh Hp]
  · isplitl [Hh]; · iexact Hh
    iexact Hp
  iexact HO

-- the launch theorem's implicit arguments are found by unifying its conclusion with this one, which takes unfolding
-- plain definitions in a metavariable's type
set_option backward.isDefEq.respectTransparency.types false in
/-- THE RUN, at any post that follows from the last valuation. From any memory with zero counters every weakly fair
    execution of @main terminates, nothing faulting, and in every final memory each unscoped buffer of each core holds
    what the last valuation says: the launch over the seven items (five host stretches, the two calls), the thread
    states chaining by name, the last one read against the final state. -/
theorem run_post (ρ : Dev nD → PrngReg) {Q : PUnit × MemSt nD τ sig (Elt F) → Prop}
    (hQ : ∀ s : MemSt nD τ sig (Elt F), (∀ c : Dev nD, ∀ b ∈ Pipeline.ucRefs τ sig, s.mem ((c : Thread nD τ).1, b) = V7 m (outs m) c b) → Q (⟨⟩, s)) :
    θ_run defs (onTc (τ := τ) (main (F := F))) ⟨m, fun _ => 0, ρ⟩ Q := by
  refine Pipeline.θ_run_regions_kit_dev (pcfgs (F := F)) adm (pdats m) () cellOf_inj emb₁ defs₀ Variants.none L lv m ρ main
    (segs m (outs m) Variants.none L lv E () (pdats m) (reg0 m) (reg1 m))
    (fun c Q => by
      rewrite [main_chain c, Seg.run_eq_chain,
        show (segs m (outs m) Variants.none L lv E () (pdats m) (reg0 m) (reg1 m) c).map Seg.prog = [
          StableHlo.seq hostOps0,
          StableHlo.seq hostOps0_1,
          Prog.lift (.customCall (Pipeline.entry 0) ()),
          StableHlo.seq hostOps1,
          StableHlo.seq hostOps1_1,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ R c))
    (Tₙ := fun c => iprop(StableHlo.held (c : Thread nD τ) (Pipeline.ucRefs τ sig) (V7 m (outs m) c) ∗ ∃ r, prngReg c r))
    (hch := fun c => ⟨.rfl, .rfl, .rfl, .rfl, .rfl, .rfl, .rfl, last_regroup c _⟩)
    (hinit := ?_)
    (QY := fun c s => ∀ b ∈ Pipeline.ucRefs τ sig, s.mem ((c : Thread nD τ).1, b) = V7 m (outs m) c b)
    (hfin := fun c s' => ?_) (hQ := hQ)
  · -- the launch element is the pipeline library's own; no ghost resource of the certificate's
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch, core by core: the unscoped buffers are held at the launch contents
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨⟨Hh, -⟩, HSI⟩
    unfold StableHlo.held
    imodintro
    iapply (pointsTo_read_all (Pipeline.ucRefs τ sig) (fun b => ((c : Thread nD τ).1, b)) (V7 m (outs m) c) s')
    isplitl [Hh] <;> iassumption

/-- THE RUN: every final memory holds each unscoped buffer at the last valuation. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V7 m (outs m) c b) :=
  run_post m ρ fun _ h => h

/-- THE RESULT AND THE FRAME: the result buffer ends at what the last valuation says, the three arguments as launched. -/
theorem run_result (ρ : Dev nD → PrngReg) :
    θ_run defs (onTc (τ := τ) (main (F := F))) ⟨m, fun _ => 0, ρ⟩ (fun r => ∀ c : Dev nD,
      r.2.mem ((c.tc : Thread nD τ).loc main_v15) = V7 m (outs m) c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_post m ρ fun s h c =>
    ⟨h c _ (mem_uc main_v15 (by decide)),
     (h c _ (mem_uc main_arg0 (by decide))).trans (V7_main_arg0 m (outs m) c),
     (h c _ (mem_uc main_arg1 (by decide))).trans (V7_main_arg1 m (outs m) c),
     (h c _ (mem_uc main_arg2 (by decide))).trans (V7_main_arg2 m (outs m) c)⟩

/-- THE FRAME, at any float instance: the three argument arrays end as launched — no host stretch writes one, no call has
    one for an output. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_post m ρ fun s h c =>
    ⟨(h c _ (mem_uc main_arg0 (by decide))).trans (V7_main_arg0 m (outs m) c),
     (h c _ (mem_uc main_arg1 (by decide))).trans (V7_main_arg1 m (outs m) c),
     (h c _ (mem_uc main_arg2 (by decide))).trans (V7_main_arg2 m (outs m) c)⟩

end Cert.Kernel.Hand

end
-- ==== Proof.R0Arr.lean ====
/-
  The first kernel's two output arrays after the region, and its input blocks, in terms of whole arrays.
  An input block at point t is the corresponding 512-row (and, for the masks, 512-column) piece of its array:
  rows 512·(t / 16) + p, columns 512·(t % 16) + q. An output array is written back once per tile row, in the
  last column, so row r of it is entry r % 512 of the accumulator as the last column of tile row r / 512 left it.
-/
import proofs.«111266_j50379966382615_1_alg».proof.Proof.Gen.KernelIdeal.Launch
import proofs.«111266_j50379966382615_1_alg».proof.Proof.Gen.KernelIdeal.Skeleton
import proofs.«111266_j50379966382615_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«111266_j50379966382615_1_alg».proof.Proof.R0Data
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps over the grid: the tile row is t / 16, the tile column t % 16. -/
theorem idx_facts0 : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = t.val % 16
    ∧ win0_3.index t (0 : Fin 2) = t.val / 16 ∧ win0_3.index t (1 : Fin 2) = t.val % 16
    ∧ win0_4.index t (0 : Fin 2) = t.val / 16 ∧ win0_4.index t (1 : Fin 2) = 0
    ∧ win0_5.index t (0 : Fin 2) = t.val / 16 ∧ win0_5.index t (1 : Fin 2) = 0
    ∧ (grid0.coords t 0).val = t.val / 16 ∧ (grid0.coords t 1).val = t.val % 16 :=
  (by decide +kernel : ∀ t : Fin grid0.N, _)

/-! ## The input blocks as pieces of their arrays -/

theorem iblk0_0_at (c : Dev nD) (t : Fin cfg0.N) (p : Fin 512) (k : Fin 768) (r : Fin 8192) (hr : r.val = 512 * (t.val / 16) + p.val) :
    (iblk0 V c 0 t : Vec F S512x768 .bf16) (ix2 p k) = (V c main_v5 : Vec F S8192x768 .bf16) (ix2 r k) := by
  obtain ⟨e00, e01, -⟩ := idx_facts0 t
  show (V c main_v5 : Vec F S8192x768 .bf16) (((cfg0.win 0).blk t).view.emb (ix2 p k)) = _
  refine congrArg _ ?_
  funext a; apply Fin.ext
  match a with
  | ⟨0, _⟩ => show win0_0.index t (0 : Fin 2) * 512 + 1 * p.val = r.val; omega
  | ⟨1, _⟩ => show win0_0.index t (1 : Fin 2) * 768 + 1 * k.val = k.val; omega

theorem iblk0_1_at (c : Dev nD) (t : Fin cfg0.N) (q : Fin 512) (k : Fin 768) (j : Fin 8192) (hj : j.val = 512 * (t.val % 16) + q.val) :
    (iblk0 V c 1 t : Vec F S512x768 .bf16) (ix2 q k) = (V c main_v5 : Vec F S8192x768 .bf16) (ix2 j k) := by
  obtain ⟨-, -, e10, e11, -⟩ := idx_facts0 t
  show (V c main_v5 : Vec F S8192x768 .bf16) (((cfg0.win 1).blk t).view.emb (ix2 q k)) = _
  refine congrArg _ ?_
  funext a; apply Fin.ext
  match a with
  | ⟨0, _⟩ => show win0_1.index t (0 : Fin 2) * 512 + 1 * q.val = j.val; omega
  | ⟨1, _⟩ => show win0_1.index t (1 : Fin 2) * 768 + 1 * k.val = k.val; omega

theorem iblk0_2_at (c : Dev nD) (t : Fin cfg0.N) (p q : Fin 512) (r j : Fin 8192) (hr : r.val = 512 * (t.val / 16) + p.val) (hj : j.val = 512 * (t.val % 16) + q.val) :
    (iblk0 V c 2 t : Vec F S512x512 .f32) (ix2 p q) = (V c main_arg1 : Vec F S8192x8192 .f32) (ix2 r j) := by
  obtain ⟨-, -, -, -, e20, e21, -⟩ := idx_facts0 t
  show (V c main_arg1 : Vec F S8192x8192 .f32) (((cfg0.win 2).blk t).view.emb (ix2 p q)) = _
  refine congrArg _ ?_
  funext a; apply Fin.ext
  match a with
  | ⟨0, _⟩ => show win0_2.index t (0 : Fin 2) * 512 + 1 * p.val = r.val; omega
  | ⟨1, _⟩ => show win0_2.index t (1 : Fin 2) * 512 + 1 * q.val = j.val; omega

theorem iblk0_3_at (c : Dev nD) (t : Fin cfg0.N) (p q : Fin 512) (r j : Fin 8192) (hr : r.val = 512 * (t.val / 16) + p.val) (hj : j.val = 512 * (t.val % 16) + q.val) :
    (iblk0 V c 3 t : Vec F S512x512 .f32) (ix2 p q) = (V c main_arg2 : Vec F S8192x8192 .f32) (ix2 r j) := by
  obtain ⟨-, -, -, -, -, -, e30, e31, -⟩ := idx_facts0 t
  show (V c main_arg2 : Vec F S8192x8192 .f32) (((cfg0.win 3).blk t).view.emb (ix2 p q)) = _
  refine congrArg _ ?_
  funext a; apply Fin.ext
  match a with
  | ⟨0, _⟩ => show win0_3.index t (0 : Fin 2) * 512 + 1 * p.val = r.val; omega
  | ⟨1, _⟩ => show win0_3.index t (1 : Fin 2) * 512 + 1 * q.val = j.val; omega

/-! ## The output arrays -/

theorem acc0_congr (c : Dev nD) {n n' : ℕ} (h : n = n') (hn : n < cfg0.N) (hn' : n' < cfg0.N) : acc0 V c n hn = acc0 V c n' hn' := by
  subst h; rfl

theorem lastPt_lt (r : ℕ) (hr : r < 8192) : 16 * (r / 512) + 15 < cfg0.N := by
  show _ < grid0.N; rw [N_0]; omega

/-- Row `r`'s two accumulator entries when its tile row's last column is done. -/
def accRow0 (c : Dev nD) (r : ℕ) (hr : r < 8192) : Elt F .f32 × Elt F .f32 :=
  ((acc0 V c (16 * (r / 512) + 15) (lastPt_lt r hr)).1 (ix2 ⟨r % 512, Nat.mod_lt _ (by norm_num)⟩ (0 : Fin 1)),
   (acc0 V c (16 * (r / 512) + 15) (lastPt_lt r hr)).2 (ix2 ⟨r % 512, Nat.mod_lt _ (by norm_num)⟩ (0 : Fin 1)))

theorem accRow0_eq (c : Dev nD) (t : Fin cfg0.N) (h15 : t.val % 16 = 15) (y : S512x1.Idx) (r : ℕ) (hr : r < 8192)
    (e : r = t.val / 16 * 512 + 1 * (y 0).val) :
    accRow0 V c r hr = ((acc0 V c t.val t.isLt).1 y, (acc0 V c t.val t.isLt).2 y) := by
  have hy0 : (y 0).val < 512 := (y 0).isLt
  have hy1 : (y 1).val < 1 := (y 1).isLt
  have hn : 16 * (r / 512) + 15 = t.val := by omega
  have hyy : ix2 (⟨r % 512, Nat.mod_lt _ (by norm_num)⟩ : Fin 512) (0 : Fin 1) = y := by
    funext a; apply Fin.ext
    match a with
    | ⟨0, _⟩ => show r % 512 = (y 0).val; omega
    | ⟨1, _⟩ => show 0 = (y 1).val; omega
  unfold accRow0
  rw [hyy, acc0_congr V c hn (lastPt_lt r hr) t.isLt]

/-- What the two output arrays hold after the region. -/
def G0_4 (c : Dev nD) : Vec F S8192x1 .f32 := fun i => (accRow0 V c (i 0).val (i 0).isLt).1
def G0_5 (c : Dev nD) : Vec F S8192x1 .f32 := fun i => (accRow0 V c (i 0).val (i 0).isLt).2

theorem flushed0_4_eq (c : Dev nD) (t : Fin cfg0.N) (hf : (cfg0.win 4).flush t = true) :
    (dat0 V c).flushed 4 t = ((cfg0.win 4).blk t).view.read (Elt F) (G0_4 V c) := by
  have h15 : t.val % 16 = 15 := (flush0_4 t).mp hf
  obtain ⟨-, -, -, -, -, -, -, -, e40, e41, e50, e51, -, -⟩ := idx_facts0 t
  show (cfg0.win 4).cut (grid0.coords t) ((dat0 V c).after 4 t) = _
  rw [after0_4]
  funext y
  show (acc0 V c t.val t.isLt).1 y = G0_4 V c (((cfg0.win 4).blk t).view.emb y)
  unfold G0_4
  exact (congrArg Prod.fst (accRow0_eq V c t h15 y _ _ (show ((((cfg0.win 4).blk t).view.emb y) 0).val = t.val / 16 * 512 + 1 * (y 0).val from by
    show win0_4.index t (0 : Fin 2) * 512 + 1 * (y 0).val = _; rw [e40]))).symm

theorem mem_blk0_4 (t : Fin cfg0.N) (i : S8192x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v6_0).slice (win0_4.rect t)).set ↔ _
  rw [View.set_slice_whole, Rect.mem_set_unit]
  exact Iff.rfl

theorem cover0_4 (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  refine ⟨⟨16 * ((i 0).val / 512) + 15, lastPt_lt _ hi0⟩, (flush0_4 _).mpr (by show (16 * ((i 0).val / 512) + 15) % 16 = 15; omega), ?_⟩
  obtain ⟨-, -, -, -, -, -, -, -, e40, e41, e50, e51, -, -⟩ := idx_facts0 ⟨16 * ((i 0).val / 512) + 15, lastPt_lt _ hi0⟩
  rw [mem_blk0_4]
  intro a
  match a with
  | ⟨0, _⟩ => show win0_4.index _ (0 : Fin 2) * 512 ≤ (i 0).val ∧ (i 0).val < win0_4.index _ (0 : Fin 2) * 512 + 512; rw [e40]; show (16 * ((i 0).val / 512) + 15) / 16 * 512 ≤ _ ∧ _ < (16 * ((i 0).val / 512) + 15) / 16 * 512 + 512; omega
  | ⟨1, _⟩ => show win0_4.index _ (1 : Fin 2) * 1 ≤ (i 1).val ∧ (i 1).val < win0_4.index _ (1 : Fin 2) * 1 + 1; rw [e41]; omega

/-- The array after the region. -/
theorem arr0_4 (c : Dev nD) : (dat0 V c).arrAt 4 cfg0.N = G0_4 V c :=
  (dat0 V c).arrAt_eq_of_cover 4 (G0_4 V c) (fun t hf => flushed0_4_eq V c t hf) (cover0_4)

theorem flushed0_5_eq (c : Dev nD) (t : Fin cfg0.N) (hf : (cfg0.win 5).flush t = true) :
    (dat0 V c).flushed 5 t = ((cfg0.win 5).blk t).view.read (Elt F) (G0_5 V c) := by
  have h15 : t.val % 16 = 15 := (flush0_5 t).mp hf
  obtain ⟨-, -, -, -, -, -, -, -, e40, e41, e50, e51, -, -⟩ := idx_facts0 t
  show (cfg0.win 5).cut (grid0.coords t) ((dat0 V c).after 5 t) = _
  rw [after0_5]
  funext y
  show (acc0 V c t.val t.isLt).2 y = G0_5 V c (((cfg0.win 5).blk t).view.emb y)
  unfold G0_5
  exact (congrArg Prod.snd (accRow0_eq V c t h15 y _ _ (show ((((cfg0.win 5).blk t).view.emb y) 0).val = t.val / 16 * 512 + 1 * (y 0).val from by
    show win0_5.index t (0 : Fin 2) * 512 + 1 * (y 0).val = _; rw [e50]))).symm

theorem mem_blk0_5 (t : Fin cfg0.N) (i : S8192x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v6_1).slice (win0_5.rect t)).set ↔ _
  rw [View.set_slice_whole, Rect.mem_set_unit]
  exact Iff.rfl

theorem cover0_5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  refine ⟨⟨16 * ((i 0).val / 512) + 15, lastPt_lt _ hi0⟩, (flush0_5 _).mpr (by show (16 * ((i 0).val / 512) + 15) % 16 = 15; omega), ?_⟩
  obtain ⟨-, -, -, -, -, -, -, -, e40, e41, e50, e51, -, -⟩ := idx_facts0 ⟨16 * ((i 0).val / 512) + 15, lastPt_lt _ hi0⟩
  rw [mem_blk0_5]
  intro a
  match a with
  | ⟨0, _⟩ => show win0_5.index _ (0 : Fin 2) * 512 ≤ (i 0).val ∧ (i 0).val < win0_5.index _ (0 : Fin 2) * 512 + 512; rw [e50]; show (16 * ((i 0).val / 512) + 15) / 16 * 512 ≤ _ ∧ _ < (16 * ((i 0).val / 512) + 15) / 16 * 512 + 512; omega
  | ⟨1, _⟩ => show win0_5.index _ (1 : Fin 2) * 1 ≤ (i 1).val ∧ (i 1).val < win0_5.index _ (1 : Fin 2) * 1 + 1; rw [e51]; omega

/-- The array after the region. -/
theorem arr0_5 (c : Dev nD) : (dat0 V c).arrAt 5 cfg0.N = G0_5 V c :=
  (dat0 V c).arrAt_eq_of_cover 5 (G0_5 V c) (fun t hf => flushed0_5_eq V c t hf) (cover0_5)

end Cert.KernelIdeal.Hand

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«111266_j50379966382615_1_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.TileValue0.lean ====
/-
  The first kernel's tile computations read at an index, at the extended reals.

  A grid point `i` of the 16 × 16 grid holds the 512 × 512 tile of rows `512 · i₀ + p` and columns `512 · i₁ + q`.
  On it the kernel forms one minus the identity matrix from the two global coordinates, the masks off the diagonal,
  the similarities of the tile's rows and columns (an inner product over the 768 features, times the reciprocal of the
  temperature, exponentiated), and adds each row's sum over the tile's columns to a running column of 512 sums.
-/
import proofs.«111266_j50379966382615_1_alg».proof.Proof.Gen.KernelIdeal.Skeleton
import proofs.«111266_j50379966382615_1_alg».proof.Proof.Spec
import proofs.«111266_j50379966382615_1_alg».proof.Proof.LibMatDot
import proofs.«111266_j50379966382615_1_alg».proof.Proof.LibRowSum
import proofs.«111266_j50379966382615_1_alg».proof.Proof.LibColumn
import Idealize.ShloMosaic.Lib.IdealHost
import Idealize.ShloMosaic.Lib.ValueLayout

noncomputable section

open scoped BigOperators

namespace Cert.KernelIdeal.TileValue

open Cert.KernelIdeal Cert.KernelIdeal.Gen Idealize.ShloMosaic Idealize.ShloMosaic.ValueIdx

/-! ## The tile's global coordinates -/

/-- The global row of in-tile row `p` at grid point `i`. -/
def rowOf (i : grid0.Coords) (p : Fin 512) : Fin 8192 :=
  ⟨512 * (i 0).val + p.val, by have h : (i 0).val < 16 := (i 0).isLt; have := p.isLt; omega⟩

/-- The global column of in-tile column `q` at grid point `i`. -/
def colOf (i : grid0.Coords) (q : Fin 512) : Fin 8192 :=
  ⟨512 * (i 1).val + q.val, by have h : (i 1).val < 16 := (i 1).isLt; have := q.isLt; omega⟩

/-- Column `j` of the whole array is in-tile column `j % 512` of the tile column `j / 512`. -/
theorem colOf_mod (i : grid0.Coords) (j : Fin 8192) (h : (i 1).val = j.val / 512) :
    colOf i ⟨j.val % 512, Nat.mod_lt _ (by decide)⟩ = j :=
  Fin.ext (by show 512 * (i 1).val + j.val % 512 = j.val; omega)

/-- Row `r` of the whole array is in-tile row `r % 512` of the tile row `r / 512`. -/
theorem rowOf_mod (i : grid0.Coords) (r : Fin 8192) (h : (i 0).val = r.val / 512) :
    rowOf i ⟨r.val % 512, Nat.mod_lt _ (by decide)⟩ = r :=
  Fin.ext (by show 512 * (i 0).val + r.val % 512 = r.val; omega)

theorem rowOf_val (i : grid0.Coords) (p : Fin 512) : (rowOf i p).val = 512 * (i 0).val + p.val := rfl
theorem colOf_val (i : grid0.Coords) (q : Fin 512) : (colOf i q).val = 512 * (i 1).val + q.val := rfl

/-! ## The temperature -/

/-- The named reciprocal of the temperature is the rational `134217728 / 13421773`. -/
theorem inv_temp : Named.named (F := Ideal) Cert.KernelIdeal.κ "inv_temp" (φ := .f32) 0x41200000#32
    = ((134217728 / 13421773 : ℝ) : EReal) :=
  IdealRules.named_const.ideal_named_scalar _ _ _ _ rfl

/-- The temperature's word denotes the rational `13421773 / 134217728`. -/
theorem tau : Ideal.ofBits .f32 0x3DCCCCCD#32 = ((13421773 / 134217728 : ℝ) : EReal) := by
  simp [Ideal.ofBits, Ideal.ieee, -EReal.coe_mul]; norm_num

/-- A product with the reciprocal of the temperature is the quotient by the temperature. -/
theorem mul_inv_temp (s : EReal) :
    s * ((134217728 / 13421773 : ℝ) : EReal) = Ideal.div s (Ideal.ofBits .f32 0x3DCCCCCD#32) := by
  rw [tau, Ideal.div_coe (by norm_num)]
  congr 2
  norm_num

/-! ## One minus the identity matrix on a tile -/

/-- The two global coordinates, as 32-bit words, are the same word exactly when they are the same number. -/
theorem coord_words_eq (a b : Nat) (ha : a < 16) (hb : b < 16) (p q : Fin 512) :
    (IntOp.addi (BitVec.ofNat 32 p.val) (Scalar.muli (BitVec.ofNat 32 a) 512#32)
      == IntOp.addi (BitVec.ofNat 32 q.val) (Scalar.muli (BitVec.ofNat 32 b) 512#32))
      = decide (512 * a + p.val = 512 * b + q.val) := by
  have hp := p.isLt
  have hq := q.isLt
  unfold IntOp.addi Scalar.muli IntOp.muli
  rw [Bool.eq_iff_iff, beq_iff_eq, decide_eq_true_eq, ← BitVec.toNat_inj]
  simp only [BitVec.toNat_add, BitVec.toNat_mul, BitVec.toNat_ofNat]
  omega

/-- The kernel's diagonal mask on the tile at `i`: zero where the global row is the global column, one elsewhere. -/
theorem notEye_tile (i : grid0.Coords) (p q : Fin 512) :
    k0_pay4 (F := Ideal) i (ix2 p q) = Cert.Spec.notEye (rowOf i p) (colOf i q) := by
  have h0 : (i 0).val < 16 := (i 0).isLt
  have h1 : (i 1).val < 16 := (i 1).isLt
  show Scalar.select (IntOp.cmpi .eq
      (IntOp.addi (iota .tc S512x512 32 [0] iota_S512x512_d0_w32 (ix2 p q)) (Scalar.muli (BitVec.ofNat 32 (i 0).val) 512#32))
      (IntOp.addi (iota .tc S512x512 32 [1] iota_S512x512_d1_w32 (ix2 p q)) (Scalar.muli (BitVec.ofNat 32 (i 1).val) 512#32)))
    (Ideal.ofBits .f32 0x00000000#32) (Ideal.ofBits .f32 0x3F800000#32) = _
  rw [iota_single_apply, iota_single_apply, Ideal.ofBits_zero_f32, Ideal.ofBits_one_f32]
  unfold IntOp.cmpi
  show Scalar.select (BitVec.ofBool (IntOp.addi (BitVec.ofNat 32 p.val) (Scalar.muli (BitVec.ofNat 32 (i 0).val) 512#32)
      == IntOp.addi (BitVec.ofNat 32 q.val) (Scalar.muli (BitVec.ofNat 32 (i 1).val) 512#32))) (0 : EReal) 1 = _
  rw [coord_words_eq _ _ h0 h1]
  unfold Cert.Spec.notEye Scalar.select
  by_cases h : rowOf i p = colOf i q
  · have hv : 512 * (i 0).val + p.val = 512 * (i 1).val + q.val := congrArg Fin.val h
    rw [if_pos h, decide_eq_true hv]; rfl
  · have hv : ¬ (512 * (i 0).val + p.val = 512 * (i 1).val + q.val) := fun hh => h (Fin.ext hh)
    rw [if_neg h, decide_eq_false hv]; rfl

/-- The positive mask off the diagonal, on the tile. -/
theorem pmM_tile (i : grid0.Coords) (v24 : FVec Ideal S512x512 .f32) (p q : Fin 512) :
    k0_pay5 (F := Ideal) i v24 (ix2 p q) = v24 (ix2 p q) * Cert.Spec.notEye (rowOf i p) (colOf i q) := by
  show v24 (ix2 p q) * k0_pay4 (F := Ideal) i (ix2 p q) = _
  rw [notEye_tile]

/-! ## The similarities on a tile and the running row sums -/

/-- The tile's inner products: row `p` of the first block of features against row `q` of the second (the second block
    transposed, then the matrix product into the zero accumulator). -/
theorem rowsDot_tile (v3 v5 : FVec Ideal S512x768 .bf16) (p q : Fin 512) :
    matmul dot_S512x768_S768x512_S512x512_1_0_0_1_n_n none
      (shapeCast S512x768 v3 shapeCasts_S512x768_S512x768)
      (transpose S768x512 [1, 0] (shapeCast S512x768 v5 shapeCasts_S512x768_S512x768) transposes_S512x768_p1_0_S768x512)
      (constant S512x512 .f32 0x00000000#32) (ix2 p q)
    = ∑ k : Fin 768, v3 (ix2 p k) * v5 (ix2 q k) := by
  rw [shapeCast_self, shapeCast_self]
  refine (Cert.Lib.matmul_plain_zero_apply dot_S512x768_S768x512_S512x512_1_0_0_1_n_n_wf none v3 _ p q).trans ?_
  refine Finset.sum_congr rfl fun k _ => ?_
  rw [transpose_ix2_apply]

/-- A sum over the columns of a tile, at row `p`, in the column shape `[512, 1]`. -/
theorem rowSum_tile (src : FVec Ideal S512x512 .f32) (hφ : FKind.Formats .f32)
    (hacc : (0x00000000#32 : BitVec FTy.f32.bits) = FKind.add.neutral .f32 hφ) (p : Fin 512) (z : Fin 1) :
    shapeCast S512x1 (multiReduction .add [1] S512 src 0x00000000#32 reduces_S512x512_S512 hφ hacc) shapeCasts_S512_S512x1 (ix2 p z)
      = ∑ q : Fin 512, src (ix2 p q) :=
  (Cert.Lib.shapeCast_a_a1_apply _ shapeCasts_S512_S512x1 p z).trans
    (Cert.Lib.multiReduction_add_rows src _ reduces_S512x512_S512 hφ hacc p)

/-- The running sum of similarities over the negatives: the column of sums so far plus, at row `p`, the tile's
    sum over its columns of the similarity times the negative mask off the diagonal. -/
theorem negAcc_tile (i : grid0.Coords) (v3 v5 : FVec Ideal S512x768 .bf16) (v26 : FVec Ideal S512x512 .f32)
    (v28 : FVec Ideal S512x1 .f32) (p : Fin 512) (z : Fin 1) :
    k0_pay6 (F := Ideal) i v3 v5 v26 v28 (ix2 p z)
      = v28 (ix2 p z) + ∑ q : Fin 512,
          Ideal.exp (Ideal.div (∑ k : Fin 768, v3 (ix2 p k) * v5 (ix2 q k)) (Ideal.ofBits .f32 0x3DCCCCCD#32))
            * (v26 (ix2 p q) * Cert.Spec.notEye (rowOf i p) (colOf i q)) := by
  unfold k0_pay6
  rw [shapeCast_self]
  refine congrArg (v28 (ix2 p z) + ·) ((rowSum_tile _ _ _ p z).trans (Finset.sum_congr rfl fun q _ => ?_))
  show FloatOps.mulf (FloatOps.exp (FloatOps.mulf (matmul dot_S512x768_S768x512_S512x512_1_0_0_1_n_n none
      (shapeCast S512x768 v3 shapeCasts_S512x768_S512x768)
      (transpose S768x512 [1, 0] (shapeCast S512x768 v5 shapeCasts_S512x768_S512x768) transposes_S512x768_p1_0_S768x512)
      (constant S512x512 .f32 0x00000000#32) (ix2 p q)) (Named.named (F := Ideal) Cert.KernelIdeal.κ "inv_temp" (φ := .f32) 0x41200000#32)))
    (FloatOps.mulf (v26 (ix2 p q)) (k0_pay4 (F := Ideal) i (ix2 p q))) = _
  rw [rowsDot_tile, notEye_tile, inv_temp, Ideal.mulf_def, Ideal.mulf_def, Ideal.mulf_def, Ideal.exp_def, mul_inv_temp]

/-- The running count of positives: the column of counts so far plus, at row `p`, the tile's sum over its columns. -/
theorem posAcc_tile (v25 : FVec Ideal S512x512 .f32) (v36 : FVec Ideal S512x1 .f32) (p : Fin 512) (z : Fin 1) :
    k0_pay1 (F := Ideal) v25 v36 (ix2 p z) = v36 (ix2 p z) + ∑ q : Fin 512, v25 (ix2 p q) := by
  unfold k0_pay1
  rw [shapeCast_self]
  exact congrArg (v36 (ix2 p z) + ·) (rowSum_tile _ _ _ p z)

/-- The two running columns start from zero. -/
theorem negAcc_init : k0_pay2 (F := Ideal) = fun _ => 0 := by
  show shapeCast S512x1 (broadcast S512x1 (Ideal.ofBits .f32 0x00000000#32)) shapeCasts_S512x1_S512x1 = _
  rw [shapeCast_self, Ideal.ofBits_zero_f32]
  rfl

theorem posAcc_init : k0_pay3 (F := Ideal) = fun _ => 0 := by
  show shapeCast S512x1 (broadcast S512x1 (Ideal.ofBits .f32 0x00000000#32)) shapeCasts_S512x1_S512x1 = _
  rw [shapeCast_self, Ideal.ofBits_zero_f32]
  rfl

end Cert.KernelIdeal.TileValue

end
-- ==== Proof.LibBlockSum.lean ====
/-
  A sum over an index range of m·n terms, regrouped as m consecutive blocks of n terms each.

  For a function f on Fin (m·n) with values in a commutative additive monoid,
  the sum of f k over all k equals the sum over blocks d < m of the sum over j < n of f (j + n·d).
  Only commutativity and associativity of + are used, so the law holds on the extended reals
  (where + is total, with ⊤ + ⊥ = ⊥) without any finiteness hypothesis.
-/
import Mathlib.Algebra.BigOperators.Fin
import Mathlib.Logic.Equiv.Fin.Basic

namespace Cert.Lib

open Finset

/-- The sum over `Fin (m * n)` is the sum over the `m` blocks of the sums over each block's `n` entries;
    entry `j` of block `d` is index `j + n * d` (`finProdFinEquiv`). -/
theorem sum_blocks {M : Type*} [AddCommMonoid M] (m n : ℕ) (f : Fin (m * n) → M) :
    ∑ k, f k = ∑ d : Fin m, ∑ j : Fin n, f (finProdFinEquiv (d, j)) := by
  rw [← Equiv.sum_comp finProdFinEquiv f, Fintype.sum_prod_type]

/-- The value of entry `j` of block `d`: `j + n * d`. -/
theorem blockIdx_val (m n : ℕ) (d : Fin m) (j : Fin n) :
    (finProdFinEquiv (d, j) : Fin (m * n)).val = j.val + n * d.val := rfl

end Cert.Lib
-- ==== Proof.LibAccum.lean ====
/-
  A sum accumulated tile by tile is the sum over the whole range.

  A row of 8192 terms is cut into 16 consecutive tiles of 512. A running value that starts from zero and takes in one
  tile's sum at a time is, after tile `J`, the sum of the first `J + 1` tiles, and after the last tile the sum of all
  8192 terms: term `j` is term `j % 512` of tile `j / 512`. Only commutativity and associativity of `+` and its neutral
  zero are used, so the law holds on the extended reals with no finiteness hypothesis.
-/
import Mathlib.Algebra.BigOperators.Fin
import Mathlib.Logic.Equiv.Fin.Basic
import proofs.«111266_j50379966382615_1_alg».proof.Proof.LibBlockSum

namespace Cert.Lib

open Finset

variable {M : Type*} [AddCommMonoid M]

/-- A running value that starts at `0 + T 0` and adds `T (J + 1)` at step `J + 1` is, at every step below `N`, the sum
    of the terms so far. -/
theorem accum_range (acc T : ℕ → M) (N : ℕ) (h0 : acc 0 = 0 + T 0)
    (hs : ∀ J, J + 1 < N → acc (J + 1) = acc J + T (J + 1)) :
    ∀ J, J < N → acc J = ∑ K ∈ range (J + 1), T K := by
  intro J
  induction J with
  | zero => intro _; rw [h0, zero_add, sum_range_one]
  | succ J ih =>
    intro hJ
    rw [hs J hJ, ih (Nat.lt_of_succ_lt hJ), ← sum_range_succ]

/-- The 16 tiles' sums of 512 terms each are the sum of the 8192 terms: term `j` is term `j % 512` of tile `j / 512`. -/
theorem sum_tiles (g : Fin 16 → Fin 512 → M) :
    ∑ K : Fin 16, ∑ q : Fin 512, g K q
      = ∑ j : Fin 8192, g ⟨j.val / 512, Nat.div_lt_of_lt_mul j.isLt⟩ ⟨j.val % 512, Nat.mod_lt _ (by decide)⟩ := by
  refine ((sum_blocks 16 512 fun j : Fin (16 * 512) =>
    g ⟨j.val / 512, Nat.div_lt_of_lt_mul j.isLt⟩ ⟨j.val % 512, Nat.mod_lt _ (by decide)⟩).trans ?_).symm
  refine sum_congr rfl fun K _ => sum_congr rfl fun q _ => ?_
  have hq := q.isLt
  congr 1 <;> refine Fin.ext ?_
  · show (q.val + 512 * K.val) / 512 = K.val
    omega
  · show (q.val + 512 * K.val) % 512 = q.val
    omega

/-- The partial form: a running value that starts at `0 + T 0` and adds tile `J + 1`'s term `T (J + 1)` at step `J + 1`,
    each term a tile's sum of 512 entries, is after tile `J` the sum of the first `J + 1` tiles. -/
theorem accum_tiles_partial (acc : ℕ → M) (T : Fin 16 → M) (g : Fin 16 → Fin 512 → M)
    (hT : ∀ K, T K = ∑ q : Fin 512, g K q) (h0 : acc 0 = 0 + T 0)
    (hs : ∀ J (h : J + 1 < 16), acc (J + 1) = acc J + T ⟨J + 1, h⟩) (J : ℕ) (hJ : J < 16) :
    acc J = ∑ K : Fin (J + 1), ∑ q : Fin 512, g ⟨K.val, lt_of_lt_of_le K.isLt hJ⟩ q := by
  have h := accum_range acc (fun K => if h : K < 16 then T ⟨K, h⟩ else 0) 16
    (by rw [h0, dif_pos (by decide : 0 < 16)]; rfl)
    (fun J h => by rw [hs J h, dif_pos h]) J hJ
  rw [h, ← Fin.sum_univ_eq_sum_range (fun K => if h : K < 16 then T ⟨K, h⟩ else 0) (J + 1)]
  refine sum_congr rfl fun K _ => ?_
  rw [dif_pos (lt_of_lt_of_le K.isLt hJ), hT]

/-- The whole row: after the last of the 16 tiles the running value is the sum of all 8192 terms (with the zero the
    whole-row sum starts from in front). -/
theorem accum_tiles (acc : ℕ → M) (T : Fin 16 → M) (g : Fin 16 → Fin 512 → M)
    (hT : ∀ K, T K = ∑ q : Fin 512, g K q) (h0 : acc 0 = 0 + T 0)
    (hs : ∀ J (h : J + 1 < 16), acc (J + 1) = acc J + T ⟨J + 1, h⟩) :
    acc 15 = 0 + ∑ j : Fin 8192, g ⟨j.val / 512, Nat.div_lt_of_lt_mul j.isLt⟩ ⟨j.val % 512, Nat.mod_lt _ (by decide)⟩ := by
  rw [zero_add, ← sum_tiles, accum_tiles_partial acc T g hT h0 hs 15 (by decide)]

end Cert.Lib
-- ==== Proof.R0Sum.lean ====
/-
  The first kernel's two output columns as whole-row sums, at the extended reals.

  Row `r` of each output column is what the accumulator of tile row `r / 512` holds, at in-tile row `r % 512`, after
  the tile row's last column. The accumulator starts from zero in the first column and takes in one tile's row sum
  per column, so after the sixteenth it holds the sum over all 8192 columns: of the similarity times the negative
  mask off the diagonal for the first output, of the positive mask off the diagonal for the second.
-/
import proofs.«111266_j50379966382615_1_alg».proof.Proof.R0Arr
import proofs.«111266_j50379966382615_1_alg».proof.Proof.TileValue0
import proofs.«111266_j50379966382615_1_alg».proof.Proof.LibAccum

set_option maxRecDepth 16384

noncomputable section

open scoped BigOperators

namespace Cert.KernelIdeal.Hand

open Cert.KernelIdeal Cert.KernelIdeal.Gen Cert.KernelIdeal.TileValue
open Idealize.ShloMosaic Idealize.ShloMosaic.TcCoe Idealize.ShloMosaic.ValueIdx

variable (V : (c : Dev nD) → (b : Ref sig .tc) → Buf (Elt Ideal) ((c : Thread nD τ).loc b))

/-! ## The summands, in terms of the whole arrays -/

/-- The feature array and the two mask arrays as the region finds them. -/
abbrev featArr (c : Dev nD) : FVec Ideal S8192x768 .bf16 := V c main_v5
abbrev pmArr (c : Dev nD) : FVec Ideal S8192x8192 .f32 := V c main_arg1
abbrev nmArr (c : Dev nD) : FVec Ideal S8192x8192 .f32 := V c main_arg2

/-- The similarity of rows `r` and `j` times the negative mask off the diagonal. -/
def negTerm (c : Dev nD) (r j : Fin 8192) : EReal :=
  Ideal.exp (Ideal.div (∑ k : Fin 768, featArr V c (ix2 r k) * featArr V c (ix2 j k))
      (Ideal.ofBits .f32 0x3DCCCCCD#32))
    * (nmArr V c (ix2 r j) * Cert.Spec.notEye r j)

/-- The positive mask off the diagonal. -/
def posTerm (c : Dev nD) (r j : Fin 8192) : EReal :=
  pmArr V c (ix2 r j) * Cert.Spec.notEye r j

/-! ## One point's update, at an entry -/

/-- The first accumulator after a point: what it held plus the tile's row sum of similarities over the negatives. -/
theorem step0_neg (c : Dev nD) (t : Fin cfg0.N) (a : Vec Ideal S512x1 .f32 × Vec Ideal S512x1 .f32) (p : Fin 512) (z : Fin 1) :
    (step0 V c t a).1 (ix2 p z)
      = a.1 (ix2 p z) + ∑ q : Fin 512, negTerm V c (rowOf (grid0.coords t) p) (colOf (grid0.coords t) q) := by
  obtain ⟨-, -, -, -, -, -, -, -, -, -, -, -, e0, e1⟩ := idx_facts0 t
  have hr : (rowOf (grid0.coords t) p).val = 512 * (t.val / 16) + p.val := by rw [rowOf_val, e0]
  refine (negAcc_tile (grid0.coords t) (iblk0 V c 0 t) (iblk0 V c 1 t) (iblk0 V c 3 t) a.1 p z).trans ?_
  refine congrArg (a.1 (ix2 p z) + ·) (Finset.sum_congr rfl fun q _ => ?_)
  have hj : (colOf (grid0.coords t) q).val = 512 * (t.val % 16) + q.val := by rw [colOf_val, e1]
  unfold negTerm
  rw [iblk0_3_at V c t p q _ _ hr hj]
  refine congrArg (fun s => Ideal.exp (Ideal.div s _) * _) (Finset.sum_congr rfl fun k _ => ?_)
  rw [iblk0_0_at V c t p k _ hr, iblk0_1_at V c t q k _ hj]

/-- The second accumulator after a point: what it held plus the tile's row sum of the positive mask. -/
theorem step0_pos (c : Dev nD) (t : Fin cfg0.N) (a : Vec Ideal S512x1 .f32 × Vec Ideal S512x1 .f32) (p : Fin 512) (z : Fin 1) :
    (step0 V c t a).2 (ix2 p z)
      = a.2 (ix2 p z) + ∑ q : Fin 512, posTerm V c (rowOf (grid0.coords t) p) (colOf (grid0.coords t) q) := by
  obtain ⟨-, -, -, -, -, -, -, -, -, -, -, -, e0, e1⟩ := idx_facts0 t
  have hr : (rowOf (grid0.coords t) p).val = 512 * (t.val / 16) + p.val := by rw [rowOf_val, e0]
  refine (posAcc_tile (k0_pay5 (grid0.coords t) (iblk0 V c 2 t)) a.2 p z).trans ?_
  refine congrArg (a.2 (ix2 p z) + ·) (Finset.sum_congr rfl fun q _ => ?_)
  have hj : (colOf (grid0.coords t) q).val = 512 * (t.val % 16) + q.val := by rw [colOf_val, e1]
  refine (pmM_tile (grid0.coords t) (iblk0 V c 2 t) p q).trans ?_
  unfold posTerm
  rw [iblk0_2_at V c t p q _ _ hr hj]

/-! ## A tile row's accumulation -/

theorem pt_lt (I K : ℕ) (hI : I < 16) (hK : K < 16) : 16 * I + K < cfg0.N := by
  show _ < grid0.N; rw [N_0]; omega

/-- Whatever one of the two accumulators is (`sel`), if it starts from zero and each point adds the tile's row sum of
    `term`, then after the last column of row `r`'s tile row its entry for `r` is the sum of `term r` over all columns. -/
theorem row_accum (c : Dev nD) (r : Fin 8192)
    (sel : Vec Ideal S512x1 .f32 × Vec Ideal S512x1 .f32 → Vec Ideal S512x1 .f32) (term : Fin 8192 → Fin 8192 → EReal)
    (hinit : sel (k0_pay2 (F := Ideal), k0_pay3 (F := Ideal)) = fun _ => 0)
    (hstep : ∀ (t : Fin cfg0.N) (a : Vec Ideal S512x1 .f32 × Vec Ideal S512x1 .f32) (p : Fin 512),
      sel (step0 V c t a) (ix2 p (0 : Fin 1))
        = sel a (ix2 p (0 : Fin 1)) + ∑ q : Fin 512, term (rowOf (grid0.coords t) p) (colOf (grid0.coords t) q)) :
    sel (acc0 V c (16 * (r.val / 512) + 15) (lastPt_lt r.val r.isLt)) (ix2 (⟨r.val % 512, Nat.mod_lt _ (by decide)⟩ : Fin 512) (0 : Fin 1))
      = 0 + ∑ j : Fin 8192, term r j := by
  have hr := r.isLt
  have hI : r.val / 512 < 16 := by omega
  -- the point of tile row r / 512 in column K: its grid coordinates, and the rows and columns of the whole array it holds
  have hrow : ∀ (K : ℕ) (hK : K < 16), rowOf (grid0.coords ⟨16 * (r.val / 512) + K, pt_lt _ K hI hK⟩)
      (⟨r.val % 512, Nat.mod_lt _ (by decide)⟩ : Fin 512) = r := fun K hK => by
    obtain ⟨-, -, -, -, -, -, -, -, -, -, -, -, e0, e1⟩ := idx_facts0 ⟨16 * (r.val / 512) + K, pt_lt _ K hI hK⟩
    refine rowOf_mod _ r ?_
    rw [e0]; show (16 * (r.val / 512) + K) / 16 = r.val / 512; omega
  have hcol : ∀ (K : ℕ) (hK : K < 16) (q : Fin 512), colOf (grid0.coords ⟨16 * (r.val / 512) + K, pt_lt _ K hI hK⟩) q
      = (⟨512 * K + q.val, by have := q.isLt; omega⟩ : Fin 8192) := fun K hK q => by
    obtain ⟨-, -, -, -, -, -, -, -, -, -, -, -, e0, e1⟩ := idx_facts0 ⟨16 * (r.val / 512) + K, pt_lt _ K hI hK⟩
    refine Fin.ext ?_
    rw [colOf_val, e1]; show 512 * ((16 * (r.val / 512) + K) % 16) + q.val = 512 * K + q.val; omega
  -- the running entry, column by column
  have key := Cert.Lib.accum_tiles
    (fun J => if h : J < 16 then sel (acc0 V c (16 * (r.val / 512) + J) (pt_lt _ J hI h))
      (ix2 (⟨r.val % 512, Nat.mod_lt _ (by decide)⟩ : Fin 512) (0 : Fin 1)) else 0)
    (fun K => ∑ q : Fin 512, term r (⟨512 * K.val + q.val, by have := q.isLt; have := K.isLt; omega⟩ : Fin 8192))
    (fun K q => term r (⟨512 * K.val + q.val, by have := q.isLt; have := K.isLt; omega⟩ : Fin 8192))
    (fun _ => rfl)
    (by
      rw [dif_pos (by decide : 0 < 16)]
      have h := acc0_first V c ⟨16 * (r.val / 512) + 0, pt_lt _ 0 hI (by decide)⟩ (by show (16 * (r.val / 512) + 0) % 16 = 0; omega)
      refine (congrArg (fun x => sel x (ix2 (⟨r.val % 512, Nat.mod_lt _ (by decide)⟩ : Fin 512) (0 : Fin 1))) h).trans ?_
      refine (hstep _ _ _).trans ?_
      rw [hinit, hrow 0 (by decide)]
      refine congrArg (0 + ·) (Finset.sum_congr rfl fun q _ => ?_)
      rw [hcol 0 (by decide) q]
      rfl)
    (fun J hJ => by
      rw [dif_pos hJ, dif_pos (Nat.lt_of_succ_lt hJ)]
      have h := acc0_next V c ⟨16 * (r.val / 512) + (J + 1), pt_lt _ (J + 1) hI hJ⟩
        (by show ¬(16 * (r.val / 512) + (J + 1)) % 16 = 0; omega)
      refine (congrArg (fun x => sel x (ix2 (⟨r.val % 512, Nat.mod_lt _ (by decide)⟩ : Fin 512) (0 : Fin 1))) h).trans ?_
      refine (hstep _ _ _).trans ?_
      rw [hrow (J + 1) hJ, acc0_congr V c (show 16 * (r.val / 512) + (J + 1) - 1 = 16 * (r.val / 512) + J by omega) _
        (pt_lt _ J hI (Nat.lt_of_succ_lt hJ))]
      refine congrArg (_ + ·) (Finset.sum_congr rfl fun q _ => ?_)
      rw [hcol (J + 1) hJ q])
  rw [dif_pos (by decide : 15 < 16)] at key
  refine key.trans (congrArg (0 + ·) (Finset.sum_congr rfl fun j _ => congrArg (term r) (Fin.ext ?_)))
  show 512 * (j.val / 512) + j.val % 512 = j.val
  omega

/-! ## The two output columns -/

/-- Row `r` of the first output: the sum over all columns of the similarity times the negative mask off the diagonal. -/
theorem G0_4_at (c : Dev nD) (r : Fin 8192) :
    G0_4 (F := Ideal) V c (ix2 r (0 : Fin 1))
      = 0 + ∑ j : Fin 8192,
          Ideal.exp (Ideal.div (∑ k : Fin 768, featArr V c (ix2 r k) * featArr V c (ix2 j k))
              (Ideal.ofBits .f32 0x3DCCCCCD#32))
            * (nmArr V c (ix2 r j) * Cert.Spec.notEye r j) :=
  row_accum V c r Prod.fst (negTerm V c) (by rw [negAcc_init]) (fun t a p => step0_neg V c t a p 0)

/-- Row `r` of the second output: the sum over all columns of the positive mask off the diagonal. -/
theorem G0_5_at (c : Dev nD) (r : Fin 8192) :
    G0_5 (F := Ideal) V c (ix2 r (0 : Fin 1))
      = 0 + ∑ j : Fin 8192, pmArr V c (ix2 r j) * Cert.Spec.notEye r j :=
  row_accum V c r Prod.snd (posTerm V c) (by rw [posAcc_init]) (fun t a p => step0_pos V c t a p 0)

end Cert.KernelIdeal.Hand

end
-- ==== Proof.R1Arr.lean ====
/-
  The second kernel's output array after the region, and its input blocks, in terms of whole arrays.
  An input block at point t is the corresponding piece of its array: rows 512·(t / 16) + p for the first feature
  window, the positive mask and the negative sums, rows 512·(t % 16) + q for the second feature window, and for
  the mask also columns 512·(t % 16) + q. The output array is written back once per tile row, in the last column,
  so row r of it is entry r % 512 of the accumulator as the last column of tile row r / 512 left it.
-/
import proofs.«111266_j50379966382615_1_alg».proof.Proof.Gen.KernelIdeal.Launch
import proofs.«111266_j50379966382615_1_alg».proof.Proof.Gen.KernelIdeal.Skeleton
import proofs.«111266_j50379966382615_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«111266_j50379966382615_1_alg».proof.Proof.R1Data
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The printed index maps over the grid: the tile row is t / 16, the tile column t % 16. -/
theorem idx_facts1 : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = t.val % 16
    ∧ win1_3.index t (0 : Fin 2) = t.val / 16 ∧ win1_3.index t (1 : Fin 2) = 0
    ∧ win1_4.index t (0 : Fin 2) = t.val / 16 ∧ win1_4.index t (1 : Fin 2) = 0
    ∧ (grid1.coords t 0).val = t.val / 16 ∧ (grid1.coords t 1).val = t.val % 16 :=
  (by decide +kernel : ∀ t : Fin grid1.N, _)

/-! ## The input blocks as pieces of their arrays -/

theorem iblk1_0_at (c : Dev nD) (t : Fin cfg1.N) (p : Fin 512) (k : Fin 768) (r : Fin 8192) (hr : r.val = 512 * (t.val / 16) + p.val) :
    (iblk1 V c 0 t : Vec F S512x768 .bf16) (ix2 p k) = (V c main_v5 : Vec F S8192x768 .bf16) (ix2 r k) := by
  obtain ⟨e00, e01, -⟩ := idx_facts1 t
  show (V c main_v5 : Vec F S8192x768 .bf16) (((cfg1.win 0).blk t).view.emb (ix2 p k)) = _
  refine congrArg _ ?_
  funext a; apply Fin.ext
  match a with
  | ⟨0, _⟩ => show win1_0.index t (0 : Fin 2) * 512 + 1 * p.val = r.val; omega
  | ⟨1, _⟩ => show win1_0.index t (1 : Fin 2) * 768 + 1 * k.val = k.val; omega

theorem iblk1_1_at (c : Dev nD) (t : Fin cfg1.N) (q : Fin 512) (k : Fin 768) (j : Fin 8192) (hj : j.val = 512 * (t.val % 16) + q.val) :
    (iblk1 V c 1 t : Vec F S512x768 .bf16) (ix2 q k) = (V c main_v5 : Vec F S8192x768 .bf16) (ix2 j k) := by
  obtain ⟨-, -, e10, e11, -⟩ := idx_facts1 t
  show (V c main_v5 : Vec F S8192x768 .bf16) (((cfg1.win 1).blk t).view.emb (ix2 q k)) = _
  refine congrArg _ ?_
  funext a; apply Fin.ext
  match a with
  | ⟨0, _⟩ => show win1_1.index t (0 : Fin 2) * 512 + 1 * q.val = j.val; omega
  | ⟨1, _⟩ => show win1_1.index t (1 : Fin 2) * 768 + 1 * k.val = k.val; omega

theorem iblk1_2_at (c : Dev nD) (t : Fin cfg1.N) (p q : Fin 512) (r j : Fin 8192) (hr : r.val = 512 * (t.val / 16) + p.val) (hj : j.val = 512 * (t.val % 16) + q.val) :
    (iblk1 V c 2 t : Vec F S512x512 .f32) (ix2 p q) = (V c main_arg1 : Vec F S8192x8192 .f32) (ix2 r j) := by
  obtain ⟨-, -, -, -, e20, e21, -⟩ := idx_facts1 t
  show (V c main_arg1 : Vec F S8192x8192 .f32) (((cfg1.win 2).blk t).view.emb (ix2 p q)) = _
  refine congrArg _ ?_
  funext a; apply Fin.ext
  match a with
  | ⟨0, _⟩ => show win1_2.index t (0 : Fin 2) * 512 + 1 * p.val = r.val; omega
  | ⟨1, _⟩ => show win1_2.index t (1 : Fin 2) * 512 + 1 * q.val = j.val; omega

theorem iblk1_3_at (c : Dev nD) (t : Fin cfg1.N) (p : Fin 512) (z : Fin 1) (r : Fin 8192) (hr : r.val = 512 * (t.val / 16) + p.val) :
    (iblk1 V c 3 t : Vec F S512x1 .f32) (ix2 p z) = (V c main_v6_0 : Vec F S8192x1 .f32) (ix2 r z) := by
  obtain ⟨-, -, -, -, -, -, e30, e31, -⟩ := idx_facts1 t
  show (V c main_v6_0 : Vec F S8192x1 .f32) (((cfg1.win 3).blk t).view.emb (ix2 p z)) = _
  refine congrArg _ ?_
  funext a; apply Fin.ext
  match a with
  | ⟨0, _⟩ => show win1_3.index t (0 : Fin 2) * 512 + 1 * p.val = r.val; omega
  | ⟨1, _⟩ => show win1_3.index t (1 : Fin 2) * 1 + 1 * z.val = z.val; omega

/-! ## The output array -/

theorem acc1_congr (c : Dev nD) {n n' : ℕ} (h : n = n') (hn : n < cfg1.N) (hn' : n' < cfg1.N) : acc1 V c n hn = acc1 V c n' hn' := by
  subst h; rfl

theorem lastPt1_lt (r : ℕ) (hr : r < 8192) : 16 * (r / 512) + 15 < cfg1.N := by
  show _ < grid1.N; rw [N_1]; omega

/-- Row `r`'s accumulator entry when its tile row's last column is done. -/
def accRow1 (c : Dev nD) (r : ℕ) (hr : r < 8192) : Elt F .f32 :=
  (acc1 V c (16 * (r / 512) + 15) (lastPt1_lt r hr)) (ix2 ⟨r % 512, Nat.mod_lt _ (by norm_num)⟩ (0 : Fin 1))

theorem accRow1_eq (c : Dev nD) (t : Fin cfg1.N) (h15 : t.val % 16 = 15) (y : S512x1.Idx) (r : ℕ) (hr : r < 8192)
    (e : r = t.val / 16 * 512 + 1 * (y 0).val) :
    accRow1 V c r hr = (acc1 V c t.val t.isLt) y := by
  have hy0 : (y 0).val < 512 := (y 0).isLt
  have hy1 : (y 1).val < 1 := (y 1).isLt
  have hn : 16 * (r / 512) + 15 = t.val := by omega
  have hyy : ix2 (⟨r % 512, Nat.mod_lt _ (by norm_num)⟩ : Fin 512) (0 : Fin 1) = y := by
    funext a; apply Fin.ext
    match a with
    | ⟨0, _⟩ => show r % 512 = (y 0).val; omega
    | ⟨1, _⟩ => show 0 = (y 1).val; omega
  unfold accRow1
  rw [hyy, acc1_congr V c hn (lastPt1_lt r hr) t.isLt]

/-- What the output array holds after the region. -/
def G1_4 (c : Dev nD) : Vec F S8192x1 .f32 := fun i => accRow1 V c (i 0).val (i 0).isLt

theorem flushed1_4_eq (c : Dev nD) (t : Fin cfg1.N) (hf : (cfg1.win 4).flush t = true) :
    (dat1 V c).flushed 4 t = ((cfg1.win 4).blk t).view.read (Elt F) (G1_4 V c) := by
  have h15 : t.val % 16 = 15 := (flush1_4 t).mp hf
  obtain ⟨-, -, -, -, -, -, -, -, e40, e41, -, -⟩ := idx_facts1 t
  show (cfg1.win 4).cut (grid1.coords t) ((dat1 V c).after 4 t) = _
  rw [after1_4]
  funext y
  show (acc1 V c t.val t.isLt) y = G1_4 V c (((cfg1.win 4).blk t).view.emb y)
  unfold G1_4
  exact (accRow1_eq V c t h15 y _ _ (show ((((cfg1.win 4).blk t).view.emb y) 0).val = t.val / 16 * 512 + 1 * (y 0).val from by
    show win1_4.index t (0 : Fin 2) * 512 + 1 * (y 0).val = _; rw [e40])).symm

theorem mem_blk1_4 (t : Fin cfg1.N) (i : S8192x1.Idx) :
    i ∈ ((cfg1.win 4).blk t).view.set ↔ ∀ a : Fin 2, win1_4.index t a * S512x1.size a ≤ (i a).val ∧ (i a).val < win1_4.index t a * S512x1.size a + S512x1.size a := by
  show i ∈ ((View.whole main_v10).slice (win1_4.rect t)).set ↔ _
  rw [View.set_slice_whole, Rect.mem_set_unit]
  exact Iff.rfl

theorem cover1_4 (i : S8192x1.Idx) : ∃ t : Fin cfg1.N, (cfg1.win 4).flush t = true ∧ i ∈ ((cfg1.win 4).blk t).view.set := by
  have hi0 : (i 0).val < 8192 := (i 0).isLt
  have hi1 : (i 1).val < 1 := (i 1).isLt
  refine ⟨⟨16 * ((i 0).val / 512) + 15, lastPt1_lt _ hi0⟩, (flush1_4 _).mpr (by show (16 * ((i 0).val / 512) + 15) % 16 = 15; omega), ?_⟩
  obtain ⟨-, -, -, -, -, -, -, -, e40, e41, -, -⟩ := idx_facts1 ⟨16 * ((i 0).val / 512) + 15, lastPt1_lt _ hi0⟩
  rw [mem_blk1_4]
  intro a
  match a with
  | ⟨0, _⟩ => show win1_4.index _ (0 : Fin 2) * 512 ≤ (i 0).val ∧ (i 0).val < win1_4.index _ (0 : Fin 2) * 512 + 512; rw [e40]; show (16 * ((i 0).val / 512) + 15) / 16 * 512 ≤ _ ∧ _ < (16 * ((i 0).val / 512) + 15) / 16 * 512 + 512; omega
  | ⟨1, _⟩ => show win1_4.index _ (1 : Fin 2) * 1 ≤ (i 1).val ∧ (i 1).val < win1_4.index _ (1 : Fin 2) * 1 + 1; rw [e41]; omega

/-- The array after the region. -/
theorem arr1_4 (c : Dev nD) : (dat1 V c).arrAt 4 cfg1.N = G1_4 V c :=
  (dat1 V c).arrAt_eq_of_cover 4 (G1_4 V c) (fun t hf => flushed1_4_eq V c t hf) (cover1_4)

end Cert.KernelIdeal.Hand

end
-- ==== Proof.TileValue1.lean ====
/-
  The second kernel's tile computations read at an index, at the extended reals.

  On the tile of rows `512 · i₀ + p` and columns `512 · i₁ + q` the kernel forms the similarity again, divides it by
  the row's sum over the negatives (a column of 512 sums, spread over the tile's columns), adds a small constant,
  takes the negated logarithm, multiplies by the positive mask off the diagonal, and adds each row's sum over the
  tile's columns to a running column of 512 sums.
-/
import proofs.«111266_j50379966382615_1_alg».proof.Proof.TileValue0

noncomputable section

open scoped BigOperators

namespace Cert.KernelIdeal.TileValue

open Cert.KernelIdeal Cert.KernelIdeal.Gen Idealize.ShloMosaic Idealize.ShloMosaic.ValueIdx

/-- The negated logarithm of the similarity's share of the negatives' sum, offset, times the positive mask off the
    diagonal, on the tile at `i`. -/
theorem logpMasked_tile (i : grid1.Coords) (v3 v5 : FVec Ideal S512x768 .bf16) (v24 : FVec Ideal S512x512 .f32)
    (v26 : FVec Ideal S512x1 .f32) (p q : Fin 512) :
    k1_pay3 (F := Ideal) i v3 v5 v24 v26 (ix2 p q)
      = (-Ideal.log (Ideal.div
            (Ideal.exp (Ideal.div (∑ k : Fin 768, v3 (ix2 p k) * v5 (ix2 q k)) (Ideal.ofBits .f32 0x3DCCCCCD#32)))
            (v26 (ix2 p (0 : Fin 1))) + Ideal.ofBits .f32 0x358637BD#32))
          * (v24 (ix2 p q) * Cert.Spec.notEye (rowOf i p) (colOf i q)) := by
  show FloatOps.mulf (FloatOps.subf (Ideal.ofBits .f32 0x00000000#32) (FloatOps.log (FloatOps.addf (FloatOps.divf
      (FloatOps.exp (FloatOps.mulf (matmul dot_S512x768_S768x512_S512x512_1_0_0_1_n_n none
        (shapeCast S512x768 v3 shapeCasts_S512x768_S512x768)
        (transpose S768x512 [1, 0] (shapeCast S512x768 v5 shapeCasts_S512x768_S512x768) transposes_S512x768_p1_0_S768x512)
        (constant S512x512 .f32 0x00000000#32) (ix2 p q))
        (Named.named (F := Ideal) Cert.KernelIdeal.κ "inv_temp" (φ := .f32) 0x41200000#32)))
      (broadcastTo S512x512 (shapeCast S512x1 v26 shapeCasts_S512x1_S512x1) broadcasts_S512x1_S512x512 (ix2 p q)))
      (Ideal.ofBits .f32 0x358637BD#32))))
    (FloatOps.mulf (v24 (ix2 p q)) (k0_pay4 (F := Ideal) i (ix2 p q))) = _
  rw [rowsDot_tile, notEye_tile, inv_temp, shapeCast_self, Cert.Lib.broadcastTo_a1_ab_apply, Ideal.mulf_def, Ideal.mulf_def,
    Ideal.mulf_def, Ideal.subf_def, Ideal.log_def, Ideal.addf_def, Ideal.divf_def, Ideal.exp_def, mul_inv_temp,
    Ideal.ofBits_zero_f32, zero_sub]

/-- The running row sums: the column of sums so far plus, at row `p`, the tile's sum over its columns. -/
theorem rowAcc_tile (v35 : FVec Ideal S512x1 .f32) (v36 : FVec Ideal S512x512 .f32) (p : Fin 512) (z : Fin 1) :
    k1_pay1 (F := Ideal) v35 v36 (ix2 p z) = v35 (ix2 p z) + ∑ q : Fin 512, v36 (ix2 p q) := by
  unfold k1_pay1
  rw [shapeCast_self]
  exact congrArg (v35 (ix2 p z) + ·) (rowSum_tile _ _ _ p z)

/-- The running column starts from zero. -/
theorem rowAcc_init : k1_pay2 (F := Ideal) = fun _ => 0 := by
  show shapeCast S512x1 (broadcast S512x1 (Ideal.ofBits .f32 0x00000000#32)) shapeCasts_S512x1_S512x1 = _
  rw [shapeCast_self, Ideal.ofBits_zero_f32]
  rfl

end Cert.KernelIdeal.TileValue

end
-- ==== Proof.R1Sum.lean ====
/-
  The second kernel's output column as whole-row sums, at the extended reals.

  Row `r` of the output column is what the accumulator of tile row `r / 512` holds, at in-tile row `r % 512`, after
  the tile row's last column. The accumulator starts from zero in the first column and takes in one tile's row sum
  per column, so after the sixteenth it holds the sum over all 8192 columns of the negated logarithm of the
  similarity's share of the row's negatives' sum, offset, times the positive mask off the diagonal.
-/
import proofs.«111266_j50379966382615_1_alg».proof.Proof.R1Arr
import proofs.«111266_j50379966382615_1_alg».proof.Proof.R0Sum
import proofs.«111266_j50379966382615_1_alg».proof.Proof.TileValue1
import proofs.«111266_j50379966382615_1_alg».proof.Proof.LibAccum

set_option maxRecDepth 16384

noncomputable section

open scoped BigOperators

namespace Cert.KernelIdeal.Hand

open Cert.KernelIdeal Cert.KernelIdeal.Gen Cert.KernelIdeal.TileValue
open Idealize.ShloMosaic Idealize.ShloMosaic.TcCoe Idealize.ShloMosaic.ValueIdx

variable (V : (c : Dev nD) → (b : Ref sig .tc) → Buf (Elt Ideal) ((c : Thread nD τ).loc b))

/-- The column of the rows' sums over the negatives, as the second region finds it. -/
abbrev negSumArr (c : Dev nD) : FVec Ideal S8192x1 .f32 := V c main_v6_0

/-- The negated logarithm of the similarity's share of row `r`'s negatives' sum, offset, times the positive mask off
    the diagonal. -/
def logTerm (c : Dev nD) (r j : Fin 8192) : EReal :=
  (-Ideal.log (Ideal.div
      (Ideal.exp (Ideal.div (∑ k : Fin 768, featArr V c (ix2 r k) * featArr V c (ix2 j k)) (Ideal.ofBits .f32 0x3DCCCCCD#32)))
      (negSumArr V c (ix2 r (0 : Fin 1))) + Ideal.ofBits .f32 0x358637BD#32))
    * (pmArr V c (ix2 r j) * Cert.Spec.notEye r j)

/-- The accumulator after a point: what it held plus the tile's row sum. -/
theorem step1_at (c : Dev nD) (t : Fin cfg1.N) (a : Vec Ideal S512x1 .f32) (p : Fin 512) (z : Fin 1) :
    step1 V c t a (ix2 p z)
      = a (ix2 p z) + ∑ q : Fin 512, logTerm V c (rowOf (grid1.coords t) p) (colOf (grid1.coords t) q) := by
  obtain ⟨-, -, -, -, -, -, -, -, -, -, e0, e1⟩ := idx_facts1 t
  have hr : (rowOf (grid1.coords t) p).val = 512 * (t.val / 16) + p.val := by rw [rowOf_val]; exact congrArg (512 * · + p.val) e0
  refine (rowAcc_tile a (k1_pay3 (grid1.coords t) (iblk1 V c 0 t) (iblk1 V c 1 t) (iblk1 V c 2 t) (iblk1 V c 3 t)) p z).trans ?_
  refine congrArg (a (ix2 p z) + ·) (Finset.sum_congr rfl fun q _ => ?_)
  have hj : (colOf (grid1.coords t) q).val = 512 * (t.val % 16) + q.val := by rw [colOf_val]; exact congrArg (512 * · + q.val) e1
  refine (logpMasked_tile (grid1.coords t) (iblk1 V c 0 t) (iblk1 V c 1 t) (iblk1 V c 2 t) (iblk1 V c 3 t) p q).trans ?_
  unfold logTerm
  rw [iblk1_2_at V c t p q _ _ hr hj, iblk1_3_at V c t p (0 : Fin 1) _ hr]
  refine congrArg (fun s => (-Ideal.log (Ideal.div (Ideal.exp (Ideal.div s _)) _ + _)) * _) (Finset.sum_congr rfl fun k _ => ?_)
  rw [iblk1_0_at V c t p k _ hr, iblk1_1_at V c t q k _ hj]

theorem pt1_lt (I K : ℕ) (hI : I < 16) (hK : K < 16) : 16 * I + K < cfg1.N := by
  show _ < grid1.N; rw [N_1]; omega

/-- Row `r` of the output: the sum over all columns of the masked negated logarithms. -/
theorem G1_4_at (c : Dev nD) (r : Fin 8192) :
    G1_4 (F := Ideal) V c (ix2 r (0 : Fin 1))
      = 0 + ∑ j : Fin 8192,
          (-Ideal.log (Ideal.div
              (Ideal.exp (Ideal.div (∑ k : Fin 768, featArr V c (ix2 r k) * featArr V c (ix2 j k)) (Ideal.ofBits .f32 0x3DCCCCCD#32)))
              (negSumArr V c (ix2 r (0 : Fin 1))) + Ideal.ofBits .f32 0x358637BD#32))
            * (pmArr V c (ix2 r j) * Cert.Spec.notEye r j) := by
  have hr := r.isLt
  have hI : r.val / 512 < 16 := by omega
  have hrow : ∀ (K : ℕ) (hK : K < 16), rowOf (grid1.coords ⟨16 * (r.val / 512) + K, pt1_lt _ K hI hK⟩)
      (⟨r.val % 512, Nat.mod_lt _ (by decide)⟩ : Fin 512) = r := fun K hK => by
    obtain ⟨-, -, -, -, -, -, -, -, -, -, e0, e1⟩ := idx_facts1 ⟨16 * (r.val / 512) + K, pt1_lt _ K hI hK⟩
    refine rowOf_mod _ r ?_
    refine e0.trans ?_; show (16 * (r.val / 512) + K) / 16 = r.val / 512; omega
  have hcol : ∀ (K : ℕ) (hK : K < 16) (q : Fin 512), colOf (grid1.coords ⟨16 * (r.val / 512) + K, pt1_lt _ K hI hK⟩) q
      = (⟨512 * K + q.val, by have := q.isLt; omega⟩ : Fin 8192) := fun K hK q => by
    obtain ⟨-, -, -, -, -, -, -, -, -, -, e0, e1⟩ := idx_facts1 ⟨16 * (r.val / 512) + K, pt1_lt _ K hI hK⟩
    refine Fin.ext ?_
    rw [colOf_val]
    refine (congrArg (512 * · + q.val) e1).trans ?_
    show 512 * ((16 * (r.val / 512) + K) % 16) + q.val = 512 * K + q.val; omega
  have key := Cert.Lib.accum_tiles
    (fun J => if h : J < 16 then acc1 V c (16 * (r.val / 512) + J) (pt1_lt _ J hI h)
      (ix2 (⟨r.val % 512, Nat.mod_lt _ (by decide)⟩ : Fin 512) (0 : Fin 1)) else (0 : EReal))
    (fun K => ∑ q : Fin 512, logTerm V c r (⟨512 * K.val + q.val, by have := q.isLt; have := K.isLt; omega⟩ : Fin 8192))
    (fun K q => logTerm V c r (⟨512 * K.val + q.val, by have := q.isLt; have := K.isLt; omega⟩ : Fin 8192))
    (fun _ => rfl)
    (by
      rw [dif_pos (by decide : 0 < 16)]
      have h := acc1_first V c ⟨16 * (r.val / 512) + 0, pt1_lt _ 0 hI (by decide)⟩ (by show (16 * (r.val / 512) + 0) % 16 = 0; omega)
      refine (congrFun h (ix2 (⟨r.val % 512, Nat.mod_lt _ (by decide)⟩ : Fin 512) (0 : Fin 1))).trans ?_
      refine (step1_at V c _ _ _ _).trans ?_
      rw [rowAcc_init, hrow 0 (by decide)]
      refine congrArg (0 + ·) (Finset.sum_congr rfl fun q _ => ?_)
      rw [hcol 0 (by decide) q]
      rfl)
    (fun J hJ => by
      rw [dif_pos hJ, dif_pos (Nat.lt_of_succ_lt hJ)]
      have h := acc1_next V c ⟨16 * (r.val / 512) + (J + 1), pt1_lt _ (J + 1) hI hJ⟩
        (by show ¬(16 * (r.val / 512) + (J + 1)) % 16 = 0; omega)
      refine (congrFun h (ix2 (⟨r.val % 512, Nat.mod_lt _ (by decide)⟩ : Fin 512) (0 : Fin 1))).trans ?_
      refine (step1_at V c _ _ _ _).trans ?_
      rw [hrow (J + 1) hJ, acc1_congr V c (show 16 * (r.val / 512) + (J + 1) - 1 = 16 * (r.val / 512) + J by omega) _
        (pt1_lt _ J hI (Nat.lt_of_succ_lt hJ))]
      refine congrArg (_ + ·) (Finset.sum_congr rfl fun q _ => ?_)
      rw [hcol (J + 1) hJ q])
  rw [dif_pos (by decide : 15 < 16)] at key
  refine key.trans (congrArg (0 + ·) (Finset.sum_congr rfl fun j _ => congrArg (logTerm V c r) (Fin.ext ?_)))
  show 512 * (j.val / 512) + j.val % 512 = j.val
  omega

end Cert.KernelIdeal.Hand

end
-- ==== Proof.HostGlue.lean ====
/-
  The kernel program's host operations read at an index, at the extended reals.

  Between the two kernel regions the program runs short stretches of whole-array operations: the rows' Euclidean
  norms, their clamp from below, the division of each row by its clamped norm and the change to the narrower float
  format (before region 0); the replacement of a zero positive count by one (between the regions); and the division of
  the rows' accumulated terms by the corrected counts, the sum over the rows and the division by the number of rows
  (after region 1). Each stretch's result is first written as one function of the buffers it reads, then read at an
  index: the normalized features are the specification's `fn`, the corrected count is the count with one in place of
  zero, and the result is the mean of the quotients. What a region leaves in its output buffers enters only as the
  unknown `outs`; buffers no item in between writes are carried across unchanged.
-/
import proofs.«111266_j50379966382615_1_alg».proof.Proof.Gen.KernelIdeal.Regions
import proofs.«111266_j50379966382615_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.Tactic

set_option maxRecDepth 16384

noncomputable section

open scoped BigOperators

namespace Cert.KernelIdeal.HostGlue

open Cert.KernelIdeal Cert.KernelIdeal.Gen
open Idealize.ShloMosaic Idealize.ShloMosaic.TcCoe Idealize.ShloMosaic.StableHlo Idealize.ShloMosaic.ValueIdx
open Idealize.SL.Sem

variable {F : FTy → Type} [FloatOps F] [Named F]

/-! ## The host stretches' results as functions of what they read -/

/-- The rows' Euclidean norms as a column: each entry squared, the squares of a row summed from zero, the square root. -/
def normCol (x0 : (⟨S8192x768, .f32⟩ : BufTy).Contents (Elt F)) : (⟨S8192x1, .f32⟩ : BufTy).Contents (Elt F) :=
  Host.sqrt (broadcastInDim S8192x1 ![0] bcast_S8192_S8192x1_0
    (Host.reduceAdd (mulf x0 x0) (constant S_ .f32 0x00000000#32) reducesTo_S8192x768_S8192_d1 h_S_))

/-- The norms clamped below by a constant. -/
def denCol (x0 : (⟨S8192x768, .f32⟩ : BufTy).Contents (Elt F)) : (⟨S8192x1, .f32⟩ : BufTy).Contents (Elt F) :=
  maximumf (normCol x0) (broadcastInDim S8192x1 ![] bcast_S_S8192x1 (constant S_ .f32 0x322BCC77#32))

/-- The rows divided by their clamped norms, in the narrower float format. -/
def fnArr (x0 : (⟨S8192x768, .f32⟩ : BufTy).Contents (Elt F)) : (⟨S8192x768, .bf16⟩ : BufTy).Contents (Elt F) :=
  truncf .bf16 (Host.divf x0 (broadcastInDim S8192x768 ![0, 1] bcast_S8192x1_S8192x768_0_1 (denCol x0))) bitsLt_bf16_f32

/-- A column with one in place of each zero entry. -/
def posCol (p : (⟨S8192x1, .f32⟩ : BufTy).Contents (Elt F)) : (⟨S8192x1, .f32⟩ : BufTy).Contents (Elt F) :=
  select (cmpf .oeq p (broadcastInDim S8192x1 ![] bcast_S_S8192x1 (constant S_ .f32 0x00000000#32)))
    (broadcastInDim S8192x1 ![] bcast_S_S8192x1 (id (constant S_ .f32 0x3F800000#32))) p

/-- Two columns laid as vectors and divided entry by entry, the quotients summed from zero, the sum divided by a constant. -/
def meanOf (a p : (⟨S8192x1, .f32⟩ : BufTy).Contents (Elt F)) : (⟨S_, .f32⟩ : BufTy).Contents (Elt F) :=
  Host.divf
    (Host.reduceAdd (Host.divf (shapeCast S8192 a shapeCasts_S8192x1_S8192) (shapeCast S8192 p shapeCasts_S8192x1_S8192))
      (constant S_ .f32 0x00000000#32) reducesTo_S8192_S_d0 h_S_)
    (constant S_ .f32 0x46000000#32)

section Terms

variable (m : (ℓ : Loc nD τ sig) → Buf (Elt F) ℓ) (outs : Outs (F := F)) (c : Dev nD)

/-- The normalized features the first two host stretches leave, as a function of the feature argument. -/
theorem V2_v5 : V2 m c main_v5 = fnArr (F := F) (m ((c.tc : Thread nD τ).loc main_arg0)) := by
  dsimp only [V2, V1, V0, hostOps0_1, hostOps0]
  after_results
  rfl

/-- Region 0 leaves its second output where the next stretch reads it. -/
theorem V3_v6_1 : V3 m outs c main_v6_1 = outs 3 main_v6_1 c := by
  dsimp only [V3]
  exact Function.update_self ..

/-- The positive counts with one for zero, as a function of region 0's second output. -/
theorem V5_v9 : V5 m outs c main_v9 = posCol (F := F) (outs 3 main_v6_1 c) := by
  rw [← V3_v6_1 m outs c]
  dsimp only [V5, V4, hostOps1_1, hostOps1]
  after_results
  rfl

/-- Region 1 leaves its output where the last stretch reads it. -/
theorem V6_v10 : V6 m outs c main_v10 = outs 6 main_v10 c := by
  dsimp only [V6]
  exact Function.update_self ..

/-- The result, as a function of region 1's output and the corrected counts. -/
theorem V7_v15 : V7 m outs c main_v15 = meanOf (F := F) (outs 6 main_v10 c) (V5 m outs c main_v9) := by
  rw [← V6_v10 m outs c, ← V6_of m outs c main_v9 (by decide)]
  dsimp only [V7, hostOps2]
  after_results
  rfl

end Terms

/-! ## The same read at an index, at the extended reals -/

section Index

/-- A column `[a, 1]` laid as a vector `[a]` reads, at `i`, the column's entry `(i, 0)`. -/
theorem shapeCast_col_vec_apply {α : Type} (x : S8192x1.Idx → α) (i : Fin 8192) :
    shapeCast S8192 x shapeCasts_S8192x1_S8192 (ix1 i) = x (ix2 i (0 : Fin 1)) :=
  shapeCast_apply x shapeCasts_S8192x1_S8192 _ _ (by
    rw [Shape.rowMajor_val_two, Shape.rowMajor_val_one]
    show i.val * 1 + 0 = i.val
    rw [Nat.mul_one, Nat.add_zero])

/-- A vector `[a]` laid as a column `[a, 1]` by a broadcast along a new unit axis reads, at `(i, z)`, the vector's entry `i`. -/
theorem bcast_vec_col_apply {α : Type} (y : S8192.Idx → α) (i : Fin 8192) (z : Fin 1) :
    broadcastInDim S8192x1 ![0] bcast_S8192_S8192x1_0 y (ix2 i z) = y (ix1 i) :=
  broadcastInDim_apply _ bcast_S8192_S8192x1_0 y (ix2 i z) (ix1 i) (fun a => match a with
    | ⟨0, _⟩ => by show i.val = if (8192 : Nat) = 1 then 0 else i.val; rw [if_neg (by decide)])

/-- A column `[a, 1]` broadcast along its unit axis reads, at `(i, k)`, the column's entry `(i, 0)`. -/
theorem bcast_col_rows_apply {α : Type} (y : S8192x1.Idx → α) (i : Fin 8192) (k : Fin 768) :
    broadcastInDim S8192x768 ![0, 1] bcast_S8192x1_S8192x768_0_1 y (ix2 i k) = y (ix2 i (0 : Fin 1)) :=
  broadcastInDim_apply _ bcast_S8192x1_S8192x768_0_1 y (ix2 i k) (ix2 i (0 : Fin 1)) (fun a => match a with
    | ⟨0, _⟩ => by show i.val = if (8192 : Nat) = 1 then 0 else i.val; rw [if_neg (by decide)]
    | ⟨1, _⟩ => by show 0 = if (1 : Nat) = 1 then 0 else k.val; rw [if_pos rfl])

/-- A row's sum from zero along the second axis. -/
theorem rowSum_apply (y : FVec Ideal S8192x768 .f32) (i : Fin 8192) :
    Host.reduceAdd (F := Ideal) y (constant (F := Ideal) S_ .f32 0x00000000#32) reducesTo_S8192x768_S8192_d1 h_S_ (ix1 i)
      = 0 + ∑ k : Fin 768, y (ix2 i k) := by
  rw [hostReduceAdd_apply, constant_apply, Ideal.ofBits_zero_f32,
    Ideal.hostReduceAdd_single reducesTo_S8192x768_S8192_d1 (by decide)]
  refine congrArg (_ + ·) (Finset.sum_congr rfl fun k _ => ?_)
  exact congrArg y (funext fun a => Fin.ext (by match a with | ⟨0, _⟩ => rfl | ⟨1, _⟩ => rfl))

/-- The clamped row norm, in the column shape. -/
theorem denCol_at (x0 : FVec Ideal S8192x768 .f32) (i : Fin 8192) (z : Fin 1) :
    denCol (F := Ideal) x0 (ix2 i z) = Cert.Spec.den (fun i k => x0 (ix2 i k)) i := by
  unfold denCol normCol
  generalize hy : mulf (F := Ideal) x0 x0 = y
  show max (Ideal.sqrt (broadcastInDim S8192x1 ![0] bcast_S8192_S8192x1_0
      (Host.reduceAdd (F := Ideal) y (constant (F := Ideal) S_ .f32 0x00000000#32) reducesTo_S8192x768_S8192_d1 h_S_) (ix2 i z)))
    (broadcastInDim S8192x1 ![] bcast_S_S8192x1 (constant (F := Ideal) S_ .f32 0x322BCC77#32) (ix2 i z)) = _
  rw [bcast_vec_col_apply, rowSum_apply, broadcastInDim_scalar_apply, constant_apply, ← hy]
  rfl

/-- The normalized features: a change of float format is the identity at the extended reals. -/
theorem fnArr_at (x0 : FVec Ideal S8192x768 .f32) (r : Fin 8192) (k : Fin 768) :
    (fnArr (F := Ideal) x0 : FVec Ideal S8192x768 .bf16) (ix2 r k) = Cert.Spec.fn (fun i k => x0 (ix2 i k)) r k := by
  unfold fnArr
  generalize hd : denCol (F := Ideal) x0 = d
  show Ideal.div (x0 (ix2 r k)) (broadcastInDim S8192x768 ![0, 1] bcast_S8192x1_S8192x768_0_1 d (ix2 r k)) = _
  rw [bcast_col_rows_apply, ← hd, denCol_at]
  rfl

/-- One in place of zero. -/
theorem posCol_at (p : FVec Ideal S8192x1 .f32) (r : Fin 8192) :
    (posCol (F := Ideal) p : FVec Ideal S8192x1 .f32) (ix2 r 0) = if p (ix2 r 0) = 0 then 1 else p (ix2 r 0) := by
  unfold posCol
  show Scalar.select (Ideal.cmp .oeq (p (ix2 r 0))
      (broadcastInDim S8192x1 ![] bcast_S_S8192x1 (constant (F := Ideal) S_ .f32 0x00000000#32) (ix2 r 0)))
    (broadcastInDim S8192x1 ![] bcast_S_S8192x1 (id (constant (F := Ideal) S_ .f32 0x3F800000#32)) (ix2 r 0)) (p (ix2 r 0)) = _
  rw [broadcastInDim_scalar_apply, broadcastInDim_scalar_apply, id, constant_apply, constant_apply,
    Ideal.ofBits_zero_f32, Ideal.ofBits_one_f32]
  unfold Ideal.cmp Scalar.select
  by_cases h : p (ix2 r 0) = 0
  · rw [if_pos h, if_pos (by simp [h])]
  · rw [if_neg h, if_neg (by simp [h])]

/-- A rank-1 index set is its coordinate's range. -/
def rowEquiv : S8192.Idx ≃ Fin 8192 where
  toFun j := j 0
  invFun i := ix1 i
  left_inv j := (eq_ix1 j).symm
  right_inv _ := rfl

/-- The mean over the rows of the quotients of two columns. -/
theorem meanOf_eq (a p : FVec Ideal S8192x1 .f32) :
    (meanOf (F := Ideal) a p : FVec Ideal S_ .f32)
      = fun _ => Ideal.div (0 + ∑ r : Fin 8192, Ideal.div (a (ix2 r 0)) (p (ix2 r 0))) (Ideal.ofBits .f32 0x46000000#32) := by
  funext j
  unfold meanOf
  generalize hq : Host.divf (F := Ideal) (shapeCast S8192 a shapeCasts_S8192x1_S8192) (shapeCast S8192 p shapeCasts_S8192x1_S8192) = q
  rw [hostDivf_apply, hostReduceAdd_apply, constant_apply, constant_apply, Ideal.ofBits_zero_f32,
    Ideal.hostReduceAdd_total reducesTo_S8192_S_d0 (fun b => b.elim0), ← Equiv.sum_comp rowEquiv.symm q]
  refine congrArg (fun s => Ideal.div (0 + s) _) (Finset.sum_congr rfl fun r _ => ?_)
  show q (ix1 r) = _
  rw [← hq, hostDivf_apply, shapeCast_col_vec_apply, shapeCast_col_vec_apply]

end Index

/-! ## The interface: the buffers between the items, index by index -/

/-- One in place of zero. -/
def oneIfZero (x : EReal) : EReal := if x = 0 then 1 else x

/-- The specification's corrected count is the count with one in place of zero. -/
theorem oneIfZero_pos (pm : Fin 8192 → Fin 8192 → EReal) (i : Fin 8192) :
    oneIfZero (Cert.Spec.pos pm i) = Cert.Spec.pos' pm i := rfl

section Glue

variable (m : (ℓ : Loc nD τ sig) → Buf (Elt Ideal) ℓ) (outs : Outs (F := Ideal)) (c : Dev nD)

/-- The feature argument read by coordinates. -/
abbrev feat : Fin 8192 → Fin 768 → EReal :=
  fun i k => (m ((c.tc : Thread nD τ).loc main_arg0) : FVec Ideal S8192x768 .f32) (ix2 i k)

/-- What both regions read as their first two operands: the normalized features. -/
theorem v5_at (r : Fin 8192) (k : Fin 768) :
    (V2 (F := Ideal) m c main_v5 : FVec Ideal S8192x768 .bf16) (ix2 r k) = Cert.Spec.fn (feat m c) r k := by
  rw [V2_v5]
  exact fnArr_at _ r k

/-- The normalized features survive to region 1's entry: nothing after the second stretch writes them. -/
theorem V5_v5 : V5 m outs c main_v5 = V2 m c main_v5 :=
  (V5_of m outs c main_v5 (by decide)).trans <| (V4_of m outs c main_v5 (by decide)).trans <|
    V3_of m outs c main_v5 (by decide)

/-- The positive mask reaches region 1 as launched. -/
theorem V5_arg1 : V5 m outs c main_arg1 = m ((c.tc : Thread nD τ).loc main_arg1) :=
  (V5_of m outs c main_arg1 (by decide)).trans <| (V4_of m outs c main_arg1 (by decide)).trans <|
    (V3_of m outs c main_arg1 (by decide)).trans <| (V2_of m c main_arg1 (by decide)).trans <|
    (V1_of m c main_arg1 (by decide)).trans rfl

/-- Region 0's first output reaches region 1 as region 0 left it. -/
theorem V5_v6_0 : V5 m outs c main_v6_0 = outs 3 main_v6_0 c := by
  refine (V5_of m outs c main_v6_0 (by decide)).trans <| (V4_of m outs c main_v6_0 (by decide)).trans ?_
  dsimp only [V3]
  rw [Function.update_of_ne (StableHlo.devRef_ne_of_ne (by decide) :
    (Proc.devRef .tc main_v6_0 : DevRef τ sig) ≠ Proc.devRef .tc main_v6_1)]
  exact Function.update_self ..

/-- The positive mask reaches region 0 as launched. -/
theorem V2_arg1 : V2 m c main_arg1 = m ((c.tc : Thread nD τ).loc main_arg1) :=
  (V2_of m c main_arg1 (by decide)).trans <| (V1_of m c main_arg1 (by decide)).trans rfl

/-- The negative mask reaches region 0 as launched. -/
theorem V2_arg2 : V2 m c main_arg2 = m ((c.tc : Thread nD τ).loc main_arg2) :=
  (V2_of m c main_arg2 (by decide)).trans <| (V1_of m c main_arg2 (by decide)).trans rfl

/-- The positive counts region 1's tail divides by: region 0's second output with one in place of zero. -/
theorem v9_at (r : Fin 8192) :
    (V5 (F := Ideal) m outs c main_v9 : FVec Ideal S8192x1 .f32) (ix2 r 0)
      = oneIfZero ((outs 3 main_v6_1 c : FVec Ideal S8192x1 .f32) (ix2 r 0)) := by
  rw [V5_v9]
  exact posCol_at _ r

/-- The program's result: the mean over the rows of region 1's output over the corrected counts. -/
theorem v15_at :
    (V7 (F := Ideal) m outs c main_v15 : FVec Ideal S_ .f32)
      = fun _ => Ideal.div (0 + ∑ r : Fin 8192,
          Ideal.div ((outs 6 main_v10 c : FVec Ideal S8192x1 .f32) (ix2 r 0))
            ((V5 (F := Ideal) m outs c main_v9 : FVec Ideal S8192x1 .f32) (ix2 r 0)))
          (Ideal.ofBits .f32 0x46000000#32) := by
  rw [V7_v15]
  exact meanOf_eq _ _

/-- The same with the corrected counts spelt out. -/
theorem v15_at' :
    (V7 (F := Ideal) m outs c main_v15 : FVec Ideal S_ .f32)
      = fun _ => Ideal.div (0 + ∑ r : Fin 8192,
          Ideal.div ((outs 6 main_v10 c : FVec Ideal S8192x1 .f32) (ix2 r 0))
            (oneIfZero ((outs 3 main_v6_1 c : FVec Ideal S8192x1 .f32) (ix2 r 0))))
          (Ideal.ofBits .f32 0x46000000#32) := by
  rw [v15_at]
  exact congrArg (fun (s : EReal) (_ : S_.Idx) => Ideal.div (0 + s) (Ideal.ofBits .f32 0x46000000#32))
    (Finset.sum_congr rfl fun r _ => by rw [v9_at])

/-- When region 0's second output holds the rows' positive counts, region 1's tail divides by the specification's
    corrected counts. -/
theorem v9_spec (pm : Fin 8192 → Fin 8192 → EReal)
    (h6 : ∀ r : Fin 8192, (outs 3 main_v6_1 c : FVec Ideal S8192x1 .f32) (ix2 r 0) = Cert.Spec.pos pm r) (r : Fin 8192) :
    (V5 (F := Ideal) m outs c main_v9 : FVec Ideal S8192x1 .f32) (ix2 r 0) = Cert.Spec.pos' pm r := by
  rw [v9_at, h6, oneIfZero_pos]

/-- When moreover region 1's output holds the rows' accumulated terms, the program's result is the specification's. -/
theorem v15_spec (x : Fin 8192 → Fin 768 → EReal) (pm nm : Fin 8192 → Fin 8192 → EReal)
    (h6 : ∀ r : Fin 8192, (outs 3 main_v6_1 c : FVec Ideal S8192x1 .f32) (ix2 r 0) = Cert.Spec.pos pm r)
    (h10 : ∀ r : Fin 8192, (outs 6 main_v10 c : FVec Ideal S8192x1 .f32) (ix2 r 0) = Cert.Spec.rowAcc x pm nm r) :
    (V7 (F := Ideal) m outs c main_v15 : FVec Ideal S_ .f32) = fun _ => Cert.Spec.result x pm nm := by
  rw [v15_at]
  exact congrArg (fun (s : EReal) (_ : S_.Idx) => Ideal.div (0 + s) (Ideal.ofBits .f32 0x46000000#32))
    (Finset.sum_congr rfl fun r _ => by rw [h10, v9_spec m outs c pm h6]; rfl)

end Glue

end Cert.KernelIdeal.HostGlue

end
-- ==== Proof.KernelCols.lean ====
/-
  The kernel program's three intermediate columns as the specification's row quantities, at the extended reals.

  The first region leaves, for each row, the sum of similarities over the negatives and the count of positives;
  the second leaves the row's sum of masked negated logarithms. The regions read the normalized features and the
  two masks as launched, and the second reads the first's sums; so the three columns are the specification's
  `neg`, `pos` and `rowAcc` of the three argument arrays read by coordinates.
-/
import proofs.«111266_j50379966382615_1_alg».proof.Proof.R0Sum
import proofs.«111266_j50379966382615_1_alg».proof.Proof.R1Sum
import proofs.«111266_j50379966382615_1_alg».proof.Proof.HostGlue

set_option maxRecDepth 16384

noncomputable section

open scoped BigOperators

namespace Cert.KernelIdeal.Hand

open Cert.KernelIdeal Cert.KernelIdeal.Gen Cert.KernelIdeal.HostGlue
open Idealize.ShloMosaic Idealize.ShloMosaic.TcCoe Idealize.ShloMosaic.ValueIdx

variable (m : (ℓ : Loc nD τ sig) → Buf (Elt Ideal) ℓ) (o : Outs (F := Ideal)) (c : Dev nD)

/-- The positive mask argument read by coordinates. -/
abbrev pmask : Fin 8192 → Fin 8192 → EReal :=
  fun i j => (m ((c.tc : Thread nD τ).loc main_arg1) : FVec Ideal S8192x8192 .f32) (ix2 i j)

/-- The negative mask argument read by coordinates. -/
abbrev nmask : Fin 8192 → Fin 8192 → EReal :=
  fun i j => (m ((c.tc : Thread nD τ).loc main_arg2) : FVec Ideal S8192x8192 .f32) (ix2 i j)

/-- The first region's first output, when it is the accumulated column over the contents the region is entered from:
    the rows' sums of similarities over the negatives. -/
theorem negsum_of (h : o 3 main_v6_0 c = G0_4 (F := Ideal) (fun c b => V2 m c b) c) (r : Fin 8192) :
    (o 3 main_v6_0 c : FVec Ideal S8192x1 .f32) (ix2 r (0 : Fin 1)) = Cert.Spec.neg (feat m c) (nmask m c) r := by
  have hf : ∀ (a : Fin 8192) (k : Fin 768), featArr (fun c b => V2 m c b) c (ix2 a k) = Cert.Spec.fn (feat m c) a k :=
    fun a k => v5_at m c a k
  have hn : ∀ j : Fin 8192, nmArr (fun c b => V2 m c b) c (ix2 r j) = nmask m c r j :=
    fun j => congrFun (V2_arg2 m c) (ix2 r j)
  refine (congrFun h (ix2 r (0 : Fin 1))).trans ((G0_4_at (fun c b => V2 m c b) c r).trans ?_)
  simp only [hf, hn]
  rfl

/-- The first region's second output likewise: the rows' counts of positives. -/
theorem possum_of (h : o 3 main_v6_1 c = G0_5 (F := Ideal) (fun c b => V2 m c b) c) (r : Fin 8192) :
    (o 3 main_v6_1 c : FVec Ideal S8192x1 .f32) (ix2 r (0 : Fin 1)) = Cert.Spec.pos (pmask m c) r := by
  have hp : ∀ j : Fin 8192, pmArr (fun c b => V2 m c b) c (ix2 r j) = pmask m c r j :=
    fun j => congrFun (V2_arg1 m c) (ix2 r j)
  refine (congrFun h (ix2 r (0 : Fin 1))).trans ((G0_5_at (fun c b => V2 m c b) c r).trans ?_)
  simp only [hp]
  rfl

/-- The second region's output, when it is the accumulated column over the contents that region is entered from and
    the first region's first output holds the negatives' sums: the rows' sums of masked negated logarithms. -/
theorem rowacc_of (h0 : o 3 main_v6_0 c = G0_4 (F := Ideal) (fun c b => V2 m c b) c)
    (h : o 6 main_v10 c = G1_4 (F := Ideal) (fun c b => V5 m o c b) c) (r : Fin 8192) :
    (o 6 main_v10 c : FVec Ideal S8192x1 .f32) (ix2 r (0 : Fin 1))
      = Cert.Spec.rowAcc (feat m c) (pmask m c) (nmask m c) r := by
  have hf : ∀ (a : Fin 8192) (k : Fin 768), featArr (fun c b => V5 m o c b) c (ix2 a k) = Cert.Spec.fn (feat m c) a k :=
    fun a k => (congrFun (V5_v5 m o c) (ix2 a k)).trans (v5_at m c a k)
  have hp : ∀ j : Fin 8192, pmArr (fun c b => V5 m o c b) c (ix2 r j) = pmask m c r j :=
    fun j => congrFun (V5_arg1 m o c) (ix2 r j)
  have hs : negSumArr (fun c b => V5 m o c b) c (ix2 r (0 : Fin 1)) = Cert.Spec.neg (feat m c) (nmask m c) r :=
    (congrFun (V5_v6_0 m o c) (ix2 r (0 : Fin 1))).trans (negsum_of m o c h0 r)
  refine (congrFun h (ix2 r (0 : Fin 1))).trans ((G1_4_at (fun c b => V5 m o c b) c r).trans ?_)
  simp only [hf, hp, hs]
  rfl

end Cert.KernelIdeal.Hand

end
-- ==== Proof.KernelValue.lean ====
/-
  The idealized kernel program's result is the specification's value of its three arguments.

  What the two regions leave in their output columns is, row by row, the specification's `neg`, `pos` and `rowAcc`
  of the argument arrays read by coordinates; the program's last host stretch takes the mean over the rows of
  `rowAcc` over the corrected counts, which is the specification's `result`.
-/
import proofs.«111266_j50379966382615_1_alg».proof.Proof.RunAll
import proofs.«111266_j50379966382615_1_alg».proof.Proof.KernelCols

set_option maxRecDepth 16384

noncomputable section

open scoped BigOperators

namespace Cert.KernelIdeal.Hand

open Cert.KernelIdeal Cert.KernelIdeal.Gen Cert.KernelIdeal.HostGlue
open Idealize.ShloMosaic Idealize.ShloMosaic.TcCoe Idealize.ShloMosaic.ValueIdx

variable (m : (ℓ : Loc nD τ sig) → Buf (Elt Ideal) ℓ) (c : Dev nD)

/-- The first region's outputs are the accumulated columns over the contents it is entered from, -/
theorem outs_G0_4 : outs m 3 main_v6_0 c = G0_4 (F := Ideal) (V2r m) c :=
  (outs_v6_0 m c).trans (arr0_4 (V2r m) c)
theorem outs_G0_5 : outs m 3 main_v6_1 c = G0_5 (F := Ideal) (V2r m) c :=
  (outs_v6_1 m c).trans (arr0_5 (V2r m) c)
/-- and the second region's likewise. -/
theorem outs_G1_4 : outs m 6 main_v10 c = G1_4 (F := Ideal) (V5r m (outs m)) c :=
  (outs_v10 m c).trans (arr1_4 (V5r m (outs m)) c)

/-- The rows' sums of similarities over the negatives. -/
theorem negsum_at (r : Fin 8192) :
    (outs m 3 main_v6_0 c : FVec Ideal S8192x1 .f32) (ix2 r (0 : Fin 1)) = Cert.Spec.neg (feat m c) (nmask m c) r :=
  negsum_of m (outs m) c (outs_G0_4 m c) r

/-- The rows' counts of positives. -/
theorem possum_at (r : Fin 8192) :
    (outs m 3 main_v6_1 c : FVec Ideal S8192x1 .f32) (ix2 r (0 : Fin 1)) = Cert.Spec.pos (pmask m c) r :=
  possum_of m (outs m) c (outs_G0_5 m c) r

/-- The rows' sums of masked negated logarithms. -/
theorem rowacc_at (r : Fin 8192) :
    (outs m 6 main_v10 c : FVec Ideal S8192x1 .f32) (ix2 r (0 : Fin 1))
      = Cert.Spec.rowAcc (feat m c) (pmask m c) (nmask m c) r :=
  rowacc_of m (outs m) c (outs_G0_4 m c) (outs_G1_4 m c) r

/-- The program's result buffer after its last host stretch. -/
theorem kernel_result :
    (V7 (F := Ideal) m (outs m) c main_v15 : FVec Ideal S_ .f32)
      = fun _ => Cert.Spec.result (feat m c) (pmask m c) (nmask m c) :=
  v15_spec m (outs m) c (feat m c) (pmask m c) (nmask m c) (possum_at m c) (rowacc_at m c)

end Cert.KernelIdeal.Hand

end
-- ==== Proof.lean ====
/-
  A two-pass contrastive loss kernel against its reference, on the extended reals.

  For features x (8192 × 768) and two masks pm, nm (8192 × 8192), both programs divide each row of x by its
  Euclidean norm clamped below, form the inner products s_ij of the normalized rows and the similarities
  sim_ij = exp (s_ij / τ), remove the diagonal from both masks, and return the mean over the rows i of
  (Σ_j −log (sim_ij / neg_i + ε) · pm_ij) / pos'_i, where neg_i = Σ_j sim_ij · nm_ij and pos'_i is the row's count of
  positives with one in place of zero. Spec.lean states this function once; the reference's run ends at it
  (RefValue.lean), and so does the kernel program's (KernelValue.lean).

  The two sides differ in three ways, none of which is a difference on the extended reals.
  The reference divides s_ij by its temperature literal τ, the kernel multiplies by a constant that the table of
  named constants reads as the reciprocal of that very literal: s · (1/τ) = s / τ for every extended real s.
  The kernel spells the negation 0 − y and the reference −y. And the kernel computes the three row sums tile by
  tile — a first pass over 512 × 512 tiles accumulates neg and pos for each tile row in two scratch columns from
  the first tile column to the last, a second pass the masked logarithms likewise — so a row's sum over 8192
  columns is regrouped as sixteen blocks of 512 taken in order from zero, which addition on the extended reals,
  a commutative monoid, allows with no finiteness: the precondition is not used.

  Each kernel program's run is assembled from its two regions (their two feature windows read one array, held
  half and half) and the host operations around them; the same text at the word-level instance gives the
  word-level program's frame.
-/
import proofs.«111266_j50379966382615_1_alg».proof.Defs
import proofs.«111266_j50379966382615_1_alg».proof.Proof.Gen.Kernel
import proofs.«111266_j50379966382615_1_alg».proof.Proof.Gen.KernelIdeal
import proofs.«111266_j50379966382615_1_alg».proof.Proof.Gen.ReferenceIdeal
import proofs.«111266_j50379966382615_1_alg».proof.Proof.Gen.Pre_finite_inputs
import proofs.«111266_j50379966382615_1_alg».proof.Proof.RefValue
import proofs.«111266_j50379966382615_1_alg».proof.Proof.RunAll
import proofs.«111266_j50379966382615_1_alg».proof.Proof.KRunAll
import proofs.«111266_j50379966382615_1_alg».proof.Proof.KernelValue
import Idealize.ShloMosaic.Adequacy
import Idealize.ShloMosaic.Init

noncomputable section

namespace Cert.Proof

open Idealize.ShloMosaic Idealize.SL.Sem

/-- The word-level program runs to the end and leaves its arguments as launched. -/
theorem frame_kernel : Cert.frame_Kernel := fun m ρ _ => Cert.Kernel.Hand.frame_all (F := Bits) m ρ

/-- So does the idealized program. -/
theorem frame_kernelIdeal : Cert.frame_KernelIdeal := fun m ρ _ => Cert.KernelIdeal.Hand.frame_all (F := Ideal) m ρ

/-- The one constant the idealization names, at its two sites: the table gives it the reciprocal of the
    reference's temperature literal, and the printed constant is that value on the extended reals. -/
theorem preserves : Cert.preserves_Kernel_KernelIdeal :=
  ⟨IdealRules.named_const.statement Cert.KernelIdeal.κ "inv_temp" .f32 0x41200000#32 ((134217728 / 13421773 : ℝ) : EReal) rfl,
   IdealRules.named_const.statement Cert.KernelIdeal.κ "inv_temp" .f32 0x41200000#32 ((134217728 / 13421773 : ℝ) : EReal) rfl⟩

/-- From memories that agree on the three arguments both programs end with the specification's value of them. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Hand.kernel_result m c), (h c).2⟩)
    (Cert.KernelIdeal.Hand.run_result (F := Ideal) m ρ), ?_⟩
  refine (θ_run Cert.ReferenceIdeal.defs _ _).mono (fun r h c => ⟨(h c).1.trans ?_, (h c).2⟩)
    (Cert.ReferenceIdeal.RefValue.run m' ρ')
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, Cert.ReferenceIdeal.RefValue.frame, preserves, algebraic⟩

end Cert.Proof

end
